-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x128 : Shape := ⟨3, ![16, 16384, 128]⟩
abbrev S65536 : Shape := ⟨1, ![65536]⟩
abbrev S2x128x128 : Shape := ⟨3, ![2, 128, 128]⟩
abbrev S2x128 : Shape := ⟨2, ![2, 128]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S65536 : S_.BroadcastsInDim S65536 (![] : Fin 0 → Fin S65536.rank)
  reducesTo_S65536_S_d0 : S65536.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_arg7 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S16x16384x128 .f32) (main_arg1 : IVec S65536 32) (main_arg2 : IVec S65536 32) (main_arg3 : FVec F S65536 .f32) (main_arg4 : FVec F S2x128x128 .f32) (main_arg5 : FVec F S2x128x128 .f32) (main_arg6 : FVec F S2x128 .f32) (main_arg7 : FVec F S2x128 .f32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S65536 .f32 := Host.absf main_arg3
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_v13 main_v16
-- ==== Kernel.lean ====
abbrev S16x16384x128 : Shape := ⟨3, ![16, 16384, 128]⟩
abbrev S65536 : Shape := ⟨1, ![65536]⟩
abbrev S2x128x128 : Shape := ⟨3, ![2, 128, 128]⟩
abbrev S2x128 : Shape := ⟨2, ![2, 128]⟩
abbrev S16384x16x128 : Shape := ⟨3, ![16384, 16, 128]⟩
abbrev S_ : Shape := ⟨0, ![]⟩
abbrev S65536x1 : Shape := ⟨2, ![65536, 1]⟩
abbrev S65536x16x128 : Shape := ⟨3, ![65536, 16, 128]⟩
abbrev S65536x1x1 : Shape := ⟨3, ![65536, 1, 1]⟩
abbrev S262144x128 : Shape := ⟨2, ![262144, 128]⟩
abbrev S1x128x128 : Shape := ⟨3, ![1, 128, 128]⟩
abbrev S128x128 : Shape := ⟨2, ![128, 128]⟩
abbrev S512x128 : Shape := ⟨2, ![512, 128]⟩
abbrev S4096x128 : Shape := ⟨2, ![4096, 128]⟩
abbrev S8x128 : Shape := ⟨2, ![8, 128]⟩
abbrev S128 : Shape := ⟨1, ![128]⟩
abbrev S1x128 : Shape := ⟨2, ![1, 128]⟩
abbrev S8192x128 : Shape := ⟨2, ![8192, 128]⟩

abbrev nBuf : Space → Nat
  | .hbm => 122
  | .vmem => 36
  | .smem => 0
  | _ => 0

abbrev bufTy : (tb : Table) → Fin (tcTables nBuf tb) → BufTy
  | .hbm, ⟨0, _⟩ => ⟨S16x16384x128, .f32⟩
  | .hbm, ⟨1, _⟩ => ⟨S65536, .i32⟩
  | .hbm, ⟨2, _⟩ => ⟨S65536, .i32⟩
  | .hbm, ⟨3, _⟩ => ⟨S65536, .f32⟩
  | .hbm, ⟨4, _⟩ => ⟨S2x128x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S16384x16x128, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x16x128, .f32⟩
  | .hbm, ⟨18, _⟩ => ⟨S65536x1x1, .f32⟩
  | .hbm, ⟨19, _⟩ => ⟨S65536x16x128, .f32⟩
  | .hbm, ⟨20, _⟩ => ⟨S65536x16x128, .f32⟩
  | .hbm, ⟨21, _⟩ => ⟨S_, .f32⟩
  | .hbm, ⟨22, _⟩ => ⟨S16384x16x128, .f32⟩
  | .hbm, ⟨23, _⟩ => ⟨S65536x1, .i32⟩
  | .hbm, ⟨24, _⟩ => ⟨S16384x16x128, .f32⟩
  | .hbm, ⟨25, _⟩ => ⟨S262144x128, .f32⟩
  | .hbm, ⟨26, _⟩ => ⟨S262144x128, .f32⟩
  | .hbm, ⟨27, _⟩ => ⟨S1x128x128, .f32⟩
  | .hbm, ⟨28, _⟩ => ⟨S128x128, .f32⟩
  | .hbm, ⟨29, _⟩ => ⟨S128x128, .bf16⟩
  | .hbm, ⟨30, _⟩ => ⟨S1x128x128, .f32⟩
  | .hbm, ⟨31, _⟩ => ⟨S128x128, .f32⟩
  | .hbm, ⟨32, _⟩ => ⟨S128x128, .bf16⟩
  | .hbm, ⟨33, _⟩ => ⟨S262144x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S262144x128, .f32⟩
  | .hbm, ⟨64, _⟩ => ⟨S16384x16x128, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S65536x16x128, .f32⟩
  | .hbm, ⟨74, _⟩ => ⟨S65536x1x1, .f32⟩
  | .hbm, ⟨75, _⟩ => ⟨S65536x16x128, .f32⟩
  | .hbm, ⟨76, _⟩ => ⟨S65536x16x128, .f32⟩
  | .hbm, ⟨77, _⟩ => ⟨S_, .f32⟩
  | .hbm, ⟨78, _⟩ => ⟨S16384x16x128, .f32⟩
  | .hbm, ⟨79, _⟩ => ⟨S65536x1, .i32⟩
  | .hbm, ⟨80, _⟩ => ⟨S16384x16x128, .f32⟩
  | .hbm, ⟨81, _⟩ => ⟨S262144x128, .f32⟩
  | .hbm, ⟨82, _⟩ => ⟨S262144x128, .f32⟩
  | .hbm, ⟨83, _⟩ => ⟨S1x128x128, .f32⟩
  | .hbm, ⟨84, _⟩ => ⟨S128x128, .f32⟩
  | .hbm, ⟨85, _⟩ => ⟨S128x128, .bf16⟩
  | .hbm, ⟨86, _⟩ => ⟨S1x128x128, .f32⟩
  | .hbm, ⟨87, _⟩ => ⟨S128x128, .f32⟩
  | .hbm, ⟨88, _⟩ => ⟨S128x128, .bf16⟩
  | .hbm, ⟨89, _⟩ => ⟨S262144x128, .f32⟩
  | .hbm, ⟨90, _⟩ => ⟨S512x128, .f32⟩
  | .hbm, ⟨91, _⟩ => ⟨S512x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S_, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S262144x128, .f32⟩
  | .hbm, ⟨120, _⟩ => ⟨S16384x16x128, .f32⟩
  | .hbm, ⟨121, _⟩ => ⟨S16x16384x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .bf16⟩
  | .local _ .vmem, ⟨5, _⟩ => ⟨S128x128, .bf16⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8192x128, .f32⟩
  | .local _ .vmem, ⟨13, _⟩ => ⟨S8192x128, .f32⟩
  | .local _ .vmem, ⟨14, _⟩ => ⟨S1x128, .f32⟩
  | .local _ .vmem, ⟨15, _⟩ => ⟨S1x128, .f32⟩
  | .local _ .vmem, ⟨16, _⟩ => ⟨S8192x128, .f32⟩
  | .local _ .vmem, ⟨17, _⟩ => ⟨S8192x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x128, .bf16⟩
  | .local _ .vmem, ⟨23, _⟩ => ⟨S128x128, .bf16⟩
  | .local _ .vmem, ⟨24, _⟩ => ⟨S4096x128, .f32⟩
  | .local _ .vmem, ⟨25, _⟩ => ⟨S4096x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8192x128, .f32⟩
  | .local _ .vmem, ⟨31, _⟩ => ⟨S8192x128, .f32⟩
  | .local _ .vmem, ⟨32, _⟩ => ⟨S1x128, .f32⟩
  | .local _ .vmem, ⟨33, _⟩ => ⟨S1x128, .f32⟩
  | .local _ .vmem, ⟨34, _⟩ => ⟨S8192x128, .f32⟩
  | .local _ .vmem, ⟨35, _⟩ => ⟨S8192x128, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68_0 : Ref sig .tc := ⟨.hbm, 89, rfl⟩
abbrev main_v68_1 : Ref sig .tc := ⟨.hbm, 90, rfl⟩
abbrev main_v68_2 : Ref sig .tc := ⟨.hbm, 91, rfl⟩
abbrev main_cst_9 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S16x16384x128_S16384x16x128_1_0_2 : S16x16384x128.Transposes [1, 0, 2] S16384x16x128
  bcast_S_S65536 : S_.BroadcastsInDim S65536 (![] : Fin 0 → Fin S65536.rank)
  bcast_S65536_S65536x1_0 : S65536.BroadcastsInDim S65536x1 (![0] : Fin 1 → Fin S65536x1.rank)
  bcast_S65536_S65536x1x1_0 : S65536.BroadcastsInDim S65536x1x1 (![0] : Fin 1 → Fin S65536x1x1.rank)
  bcast_S65536x1x1_S65536x16x128_0_1_2 : S65536x1x1.BroadcastsInDim S65536x16x128 (![0, 1, 2] : Fin 3 → Fin S65536x16x128.rank)
  bcast_S_S16384x16x128 : S_.BroadcastsInDim S16384x16x128 (![] : Fin 0 → Fin S16384x16x128.rank)
  shapeCasts_S16384x16x128_S262144x128 : S16384x16x128.ShapeCasts S262144x128
  slices_S2x128x128_S1x128x128_0_0_0 : S2x128x128.Slices ![0, 0, 0] S1x128x128
  shapeCasts_S1x128x128_S128x128 : S1x128x128.ShapeCasts S128x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x128_S128 : S4096x128.Reduces [0] S128
  shapeCasts_S128_S1x128 : S128.ShapeCasts S1x128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S512x128_S128_d0 : S512x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128_S1x128_0_0 : S2x128.Slices ![0, 0] S1x128
  shapeCasts_S1x128_S128 : S1x128.ShapeCasts S128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  broadcasts_S1x128_S8192x128 : S1x128.Broadcasts S8192x128
  shapeCasts_S262144x128_S16384x16x128 : S262144x128.ShapeCasts S16384x16x128
  slices_S2x128x128_S1x128x128_1_0_0 : S2x128x128.Slices ![1, 0, 0] S1x128x128
  slices_S2x128_S1x128_1_0 : S2x128.Slices ![1, 0] S1x128
  transposes_S16384x16x128_S16x16384x128_1_0_2 : S16384x16x128.Transposes [1, 0, 2] S16x16384x128
  gather_S16384x16x128_S65536x1_S65536x16x128_12_0_n_n_0_1_116128_wf : GatherDims.WF S16384x16x128 S65536x1 S65536x16x128 [1, 2] [0] [] [0] [] 1 ![1, 16, 128]
  scatter_S16384x16x128_S65536x1_S65536x16x128_12_0_0_1_wf : ScatterDims.WF S16384x16x128 S65536x1 S65536x16x128 [1, 2] [0] [0] 1
  dot_S4096x128_S128x128_S4096x128_1_1_0_0_n_n_wf : DotDims.WF S4096x128 S128x128 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S512x128.size a
  hwx0_5 : ∀ i : grid0.Coords, EltTy.bits .f32 = 32 ∨ (Rect.block (s := S512x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S512x128.size a
  hwx0_6 : ∀ i : grid0.Coords, EltTy.bits .f32 = 32 ∨ (Rect.block (s := S512x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S262144x128.size a
  hwx1_3 : ∀ i : grid1.Coords, EltTy.bits .f32 = 32 ∨ (Rect.block (s := S262144x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S262144x128.size a
  hwx2_4 : ∀ i : grid2.Coords, EltTy.bits .f32 = 32 ∨ (Rect.block (s := S262144x128) S4096x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S512x128.size a
  hwx2_5 : ∀ i : grid2.Coords, EltTy.bits .f32 = 32 ∨ (Rect.block (s := S512x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S512x128.size a
  hwx2_6 : ∀ i : grid2.Coords, EltTy.bits .f32 = 32 ∨ (Rect.block (s := S512x128) S8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S262144x128.size a
  hwx3_0 : ∀ i : grid3.Coords, EltTy.bits .f32 = 32 ∨ (Rect.block (s := S262144x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S262144x128.size a
  hwx3_3 : ∀ i : grid3.Coords, EltTy.bits .f32 = 32 ∨ (Rect.block (s := S262144x128) S8192x128.size (cc3_transform_3 i) (hinb3_3 i)).WholeWords (EltTy.packing .f32)

variable [Facts₀]

def gather_S16384x16x128_S65536x1_S65536x16x128_12_0_n_n_0_1_116128 : GatherDims S16384x16x128 S65536x1 S65536x16x128 where
  offsetDims := [1, 2]
  collapsedSliceDims := [0]
  operandBatchingDims := []
  startIndicesBatchingDims := []
  startIndexMap := [0]
  indexVectorDim := 1
  sliceSizes := ![1, 16, 128]
  wf := gather_S16384x16x128_S65536x1_S65536x16x128_12_0_n_n_0_1_116128_wf
def scatter_S16384x16x128_S65536x1_S65536x16x128_12_0_0_1 : ScatterDims S16384x16x128 S65536x1 S65536x16x128 where
  updateWindowDims := [1, 2]
  insertedWindowDims := [0]
  scatterDimsToOperandDims := [0]
  indexVectorDim := 1
  wf := scatter_S16384x16x128_S65536x1_S65536x16x128_12_0_0_1_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf

abbrev win0_0 : Pipeline.Window sig grid0 :=
  Pipeline.Window.ofSpec (Memref.whole main_v14) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_0) S4096x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v68_1) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v68_2) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68_0) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x16384x128 : Shape := ⟨3, ![16, 16384, 128]⟩
abbrev S65536 : Shape := ⟨1, ![65536]⟩
abbrev S2x128x128 : Shape := ⟨3, ![2, 128, 128]⟩
abbrev S2x128 : Shape := ⟨2, ![2, 128]⟩
abbrev S_ : Shape := ⟨0, ![]⟩
abbrev S65536x1 : Shape := ⟨2, ![65536, 1]⟩
abbrev S16x65536x128 : Shape := ⟨3, ![16, 65536, 128]⟩
abbrev S1x65536x1 : Shape := ⟨3, ![1, 65536, 1]⟩
abbrev S16384x128 : Shape := ⟨2, ![16384, 128]⟩
abbrev S1x128x128 : Shape := ⟨3, ![1, 128, 128]⟩
abbrev S128x128 : Shape := ⟨2, ![128, 128]⟩
abbrev S128 : Shape := ⟨1, ![128]⟩
abbrev S1x1x128 : Shape := ⟨3, ![1, 1, 128]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S16x16384x128, .f32⟩
  | 1 => ⟨S65536, .i32⟩
  | 2 => ⟨S65536, .i32⟩
  | 3 => ⟨S65536, .f32⟩
  | 4 => ⟨S2x128x128, .f32⟩
  | 5 => ⟨S2x128x128, .f32⟩
  | 6 => ⟨S2x128, .f32⟩
  | 7 => ⟨S2x128, .f32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S16x65536x128, .f32⟩
  | 17 => ⟨S1x65536x1, .f32⟩
  | 18 => ⟨S16x65536x128, .f32⟩
  | 19 => ⟨S16x65536x128, .f32⟩
  | 20 => ⟨S_, .f32⟩
  | 21 => ⟨S16384x128, .f32⟩
  | 22 => ⟨S65536x1, .i32⟩
  | 23 => ⟨S16x16384x128, .f32⟩
  | 24 => ⟨S16x16384x128, .f32⟩
  | 25 => ⟨S1x128x128, .f32⟩
  | 26 => ⟨S128x128, .f32⟩
  | 27 => ⟨S16x16384x128, .f32⟩
  | 28 => ⟨S1x128x128, .f32⟩
  | 29 => ⟨S128x128, .f32⟩
  | 30 => ⟨S16x16384x128, .f32⟩
  | 31 => ⟨S16x16384x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x1x128, .f32⟩
  | 41 => ⟨S_, .f32⟩
  | 42 => ⟨S1x1x128, .f32⟩
  | 43 => ⟨S1x1x128, .f32⟩
  | 44 => ⟨S16x16384x128, .f32⟩
  | 45 => ⟨S16x16384x128, .f32⟩
  | 46 => ⟨S16x16384x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x1x128, .f32⟩
  | 61 => ⟨S16x16384x128, .f32⟩
  | 62 => ⟨S16x16384x128, .f32⟩
  | 63 => ⟨S_, .f32⟩
  | 64 => ⟨S128, .f32⟩
  | 65 => ⟨S128, .f32⟩
  | 66 => ⟨S128, .f32⟩
  | 67 => ⟨S1x1x128, .f32⟩
  | 68 => ⟨S16x16384x128, .f32⟩
  | 69 => ⟨S16x16384x128, .f32⟩
  | 70 => ⟨S1x128, .f32⟩
  | 71 => ⟨S128, .f32⟩
  | 72 => ⟨S1x1x128, .f32⟩
  | 73 => ⟨S16x16384x128, .f32⟩
  | 74 => ⟨S16x16384x128, .f32⟩
  | 75 => ⟨S1x128, .f32⟩
  | 76 => ⟨S128, .f32⟩
  | 77 => ⟨S1x1x128, .f32⟩
  | 78 => ⟨S16x16384x128, .f32⟩
  | 79 => ⟨S16x16384x128, .f32⟩
  | 80 => ⟨S_, .f32⟩
  | 81 => ⟨S16x16384x128, .f32⟩
  | 82 => ⟨S16x16384x128, .f32⟩
  | 83 => ⟨S_, .i32⟩
  | 84 => ⟨S65536, .i32⟩
  | 85 => ⟨S65536, .i1⟩
  | 86 => ⟨S_, .i32⟩
  | 87 => ⟨S65536, .i32⟩
  | 88 => ⟨S65536, .i32⟩
  | 89 => ⟨S65536, .i32⟩
  | 90 => ⟨S65536x1, .i32⟩
  | 91 => ⟨S16x65536x128, .f32⟩
  | 92 => ⟨S1x65536x1, .f32⟩
  | 93 => ⟨S16x65536x128, .f32⟩
  | 94 => ⟨S16x65536x128, .f32⟩
  | 95 => ⟨S_, .f32⟩
  | 96 => ⟨S16384x128, .f32⟩
  | 97 => ⟨S65536x1, .i32⟩
  | 98 => ⟨S16x16384x128, .f32⟩
  | 99 => ⟨S16x16384x128, .f32⟩
  | 100 => ⟨S1x128x128, .f32⟩
  | 101 => ⟨S128x128, .f32⟩
  | 102 => ⟨S16x16384x128, .f32⟩
  | 103 => ⟨S1x128x128, .f32⟩
  | 104 => ⟨S128x128, .f32⟩
  | 105 => ⟨S16x16384x128, .f32⟩
  | 106 => ⟨S16x16384x128, .f32⟩
  | 107 => ⟨S_, .f32⟩
  | 108 => ⟨S128, .f32⟩
  | 109 => ⟨S_, .f32⟩
  | 110 => ⟨S128, .f32⟩
  | 111 => ⟨S128, .f32⟩
  | 112 => ⟨S_, .i32⟩
  | 113 => ⟨S_, .f32⟩
  | 114 => ⟨S128, .f32⟩
  | 115 => ⟨S1x1x128, .f32⟩
  | 116 => ⟨S_, .f32⟩
  | 117 => ⟨S1x1x128, .f32⟩
  | 118 => ⟨S1x1x128, .f32⟩
  | 119 => ⟨S16x16384x128, .f32⟩
  | 120 => ⟨S16x16384x128, .f32⟩
  | 121 => ⟨S16x16384x128, .f32⟩
  | 122 => ⟨S_, .f32⟩
  | 123 => ⟨S_, .f32⟩
  | 124 => ⟨S_, .f32⟩
  | 125 => ⟨S_, .f32⟩
  | 126 => ⟨S128, .f32⟩
  | 127 => ⟨S128, .f32⟩
  | _ => ⟨S16x16384x128, .f32⟩

abbrev hbmTy0_1 (i : Nat) : BufTy := match i % 128 with
  | 0 => ⟨S128, .f32⟩
  | 1 => ⟨S_, .f32⟩
  | 2 => ⟨S_, .i1⟩
  | 3 => ⟨S_, .f32⟩
  | 4 => ⟨S_, .f32⟩
  | 5 => ⟨S128, .f32⟩
  | 6 => ⟨S128, .f32⟩
  | 7 => ⟨S1x1x128, .f32⟩
  | 8 => ⟨S16x16384x128, .f32⟩
  | 9 => ⟨S16x16384x128, .f32⟩
  | 10 => ⟨S_, .f32⟩
  | 11 => ⟨S128, .f32⟩
  | 12 => ⟨S128, .f32⟩
  | 13 => ⟨S128, .f32⟩
  | 14 => ⟨S1x1x128, .f32⟩
  | 15 => ⟨S16x16384x128, .f32⟩
  | 16 => ⟨S16x16384x128, .f32⟩
  | 17 => ⟨S1x128, .f32⟩
  | 18 => ⟨S128, .f32⟩
  | 19 => ⟨S1x1x128, .f32⟩
  | 20 => ⟨S16x16384x128, .f32⟩
  | 21 => ⟨S16x16384x128, .f32⟩
  | 22 => ⟨S1x128, .f32⟩
  | 23 => ⟨S128, .f32⟩
  | 24 => ⟨S1x1x128, .f32⟩
  | 25 => ⟨S16x16384x128, .f32⟩
  | 26 => ⟨S16x16384x128, .f32⟩
  | 27 => ⟨S_, .f32⟩
  | 28 => ⟨S16x16384x128, .f32⟩
  | 29 => ⟨S16x16384x128, .f32⟩
  | _ => ⟨S16x16384x128, .f32⟩

abbrev hbmTy (i : Nat) : BufTy := match i / 128 with
  | 0 => hbmTy0_0 i
  | 1 => hbmTy0_1 i
  | _ => ⟨S16x16384x128, .f32⟩

abbrev bufTy : (tb : Table) → Fin (tcTables nBuf tb) → BufTy
  | .hbm, ⟨i, _⟩ => hbmTy i
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call1_cst : Ref sig .tc := ⟨.hbm, 80, rfl⟩
abbrev main_call1_v0 : Ref sig .tc := ⟨.hbm, 81, rfl⟩
abbrev main_v44 : Ref sig .tc := ⟨.hbm, 82, rfl⟩
abbrev main_c_5 : Ref sig .tc := ⟨.hbm, 83, rfl⟩
abbrev main_v45 : Ref sig .tc := ⟨.hbm, 84, rfl⟩
abbrev main_v46 : Ref sig .tc := ⟨.hbm, 85, rfl⟩
abbrev main_c_6 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_7 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_8 : Ref sig .tc := ⟨.hbm, 107, rfl⟩
abbrev main_v66 : Ref sig .tc := ⟨.hbm, 108, rfl⟩
abbrev main_cst_9 : Ref sig .tc := ⟨.hbm, 109, rfl⟩
abbrev main_v67 : Ref sig .tc := ⟨.hbm, 110, rfl⟩
abbrev main_v68 : Ref sig .tc := ⟨.hbm, 111, rfl⟩
abbrev main_c_10 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_cst_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_cst_2 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_cst_3 : Ref sig .tc := ⟨.hbm, 129, rfl⟩
abbrev main_call2_v12 : Ref sig .tc := ⟨.hbm, 130, rfl⟩
abbrev main_call2_cst_4 : Ref sig .tc := ⟨.hbm, 131, rfl⟩
abbrev main_call2_call0_v0 : Ref sig .tc := ⟨.hbm, 132, rfl⟩
abbrev main_call2_call0_v1 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_11 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_call3_cst : Ref sig .tc := ⟨.hbm, 155, rfl⟩
abbrev main_call3_v0 : Ref sig .tc := ⟨.hbm, 156, rfl⟩
abbrev main_v89 : Ref sig .tc := ⟨.hbm, 157, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536x1_1 : S65536.BroadcastsInDim S1x65536x1 (![1] : Fin 1 → Fin S1x65536x1.rank)
  bcast_S1x65536x1_S16x65536x128_0_1_2 : S1x65536x1.BroadcastsInDim S16x65536x128 (![0, 1, 2] : Fin 3 → Fin S16x65536x128.rank)
  bcast_S_S16384x128 : S_.BroadcastsInDim S16384x128 (![] : Fin 0 → Fin S16384x128.rank)
  bcast_S16384x128_S16x16384x128_1_2 : S16384x128.BroadcastsInDim S16x16384x128 (![1, 2] : Fin 2 → Fin S16x16384x128.rank)
  slices_S2x128x128_S1x128x128_0_0_0 : S2x128x128.Slices ![0, 0, 0] S1x128x128
  shapeCasts_S1x128x128_S128x128 : S1x128x128.ShapeCasts S128x128
  reducesTo_S16x16384x128_S128_d0_1 : S16x16384x128.ReducesTo [0, 1] S128
  h_S_ : 0 < S_.numel
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S16x16384x128_0_1_2 : S1x1x128.BroadcastsInDim S16x16384x128 (![0, 1, 2] : Fin 3 → Fin S16x16384x128.rank)
  slices_S2x128_S1x128_0_0 : S2x128.Slices ![0, 0] S1x128
  shapeCasts_S1x128_S128 : S1x128.ShapeCasts S128
  bcast_S_S16x16384x128 : S_.BroadcastsInDim S16x16384x128 (![] : Fin 0 → Fin S16x16384x128.rank)
  slices_S2x128x128_S1x128x128_1_0_0 : S2x128x128.Slices ![1, 0, 0] S1x128x128
  slices_S2x128_S1x128_1_0 : S2x128.Slices ![1, 0] S1x128
  gather_S16x16384x128_S65536x1_S16x65536x128_02_1_n_n_1_1_161128_wf : GatherDims.WF S16x16384x128 S65536x1 S16x65536x128 [0, 2] [1] [] [1] [] 1 ![16, 1, 128]
  scatter_S16x16384x128_S65536x1_S16x65536x128_02_1_1_1_wf : ScatterDims.WF S16x16384x128 S65536x1 S16x65536x128 [0, 2] [1] [1] 1
  dot_S16x16384x128_S128x128_S16x16384x128_2_1_01_0_n_n_wf : DotDims.WF S16x16384x128 S128x128 S16x16384x128 [2] [1] [0, 1] [0] [] []

variable [Facts₀]

def gather_S16x16384x128_S65536x1_S16x65536x128_02_1_n_n_1_1_161128 : GatherDims S16x16384x128 S65536x1 S16x65536x128 where
  offsetDims := [0, 2]
  collapsedSliceDims := [1]
  operandBatchingDims := []
  startIndicesBatchingDims := []
  startIndexMap := [1]
  indexVectorDim := 1
  sliceSizes := ![16, 1, 128]
  wf := gather_S16x16384x128_S65536x1_S16x65536x128_02_1_n_n_1_1_161128_wf
def scatter_S16x16384x128_S65536x1_S16x65536x128_02_1_1_1 : ScatterDims S16x16384x128 S65536x1 S16x65536x128 where
  updateWindowDims := [0, 2]
  insertedWindowDims := [1]
  scatterDimsToOperandDims := [1]
  indexVectorDim := 1
  wf := scatter_S16x16384x128_S65536x1_S16x65536x128_02_1_1_1_wf
def dot_S16x16384x128_S128x128_S16x16384x128_2_1_01_0_n_n : DotDims S16x16384x128 S128x128 S16x16384x128 where
  lhsContracting := [2]
  rhsContracting := [1]
  lhsNonContracting := [0, 1]
  rhsNonContracting := [0]
  lhsBatch := []
  rhsBatch := []
  wf := dot_S16x16384x128_S128x128_S16x16384x128_2_1_01_0_n_n_wf

class Facts : Prop extends Facts₀ where

variable [Facts]
-- ==== Proof.RefOps.lean ====
/-
  The reference program's @main as ONE straight line of host operations: its own statements in order, with the
  operations of each function it calls (the variance routine, the select routine that one calls in turn, and the
  positive-part routine) standing at the call over that call's buffers. The line is cut where a whole activation
  array is handed on — after each layer's dense-plus-aggregation sum and after each layer's positive part — into four
  stretches, so that what a stretch computes can be read from the contents it starts from. From any memory with
  zero counters every weakly fair execution of @main terminates, and each buffer ends at the fold of the
  operations' results over the launch contents.
-/
import proofs.«163542_j78460462563808_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- First layer, up to the sum of the two dense maps: the wrapped gather indices, the gathered rows scaled by the edge weights, their segment sum into zeros, the two weight matrices cut from their stacks, the two products and their sum. -/
abbrev opsA : List (HloOp τ sig (Elt F)) :=
  [ StableHlo.nullary main_c (constantI S_ 32 0#32),
    StableHlo.unary main_c main_v0 (broadcastInDim S65536 ![] bcast_S_S65536 : (⟨S_, .i32⟩ : BufTy).Contents (Elt F) → (⟨S65536, .i32⟩ : BufTy).Contents (Elt F)),
    StableHlo.binary main_arg1 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_0 (constantI S_ 32 16384#32),
    StableHlo.unary main_c_0 main_v2 (broadcastInDim S65536 ![] bcast_S_S65536 : (⟨S_, .i32⟩ : BufTy).Contents (Elt F) → (⟨S65536, .i32⟩ : BufTy).Contents (Elt F)),
    StableHlo.binary main_arg1 main_v2 main_v3 (addi : (⟨S65536, .i32⟩ : BufTy).Contents (Elt F) → (⟨S65536, .i32⟩ : BufTy).Contents (Elt F) → (⟨S65536, .i32⟩ : BufTy).Contents (Elt F)),
    StableHlo.ternary main_v1 main_v3 main_arg1 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v4 main_v5 (broadcastInDim S65536x1 ![0] bcast_S65536_S65536x1_0 : (⟨S65536, .i32⟩ : BufTy).Contents (Elt F) → (⟨S65536x1, .i32⟩ : BufTy).Contents (Elt F)),
    StableHlo.binary main_arg0 main_v5 main_v6 ((fun x i => Host.gather gather_S16x16384x128_S65536x1_S16x65536x128_02_1_n_n_1_1_161128 x i) : (⟨S16x16384x128, .f32⟩ : BufTy).Contents (Elt F) → (⟨S65536x1, .i32⟩ : BufTy).Contents (Elt F) → (⟨S16x65536x128, .f32⟩ : BufTy).Contents (Elt F)),
    StableHlo.unary main_arg3 main_v7 (broadcastInDim S1x65536x1 ![1] bcast_S65536_S1x65536x1_1 : (⟨S65536, .f32⟩ : BufTy).Contents (Elt F) → (⟨S1x65536x1, .f32⟩ : BufTy).Contents (Elt F)),
    StableHlo.unary main_v7 main_v8 (broadcastInDim S16x65536x128 ![0, 1, 2] bcast_S1x65536x1_S16x65536x128_0_1_2 : (⟨S1x65536x1, .f32⟩ : BufTy).Contents (Elt F) → (⟨S16x65536x128, .f32⟩ : BufTy).Contents (Elt F)),
    StableHlo.binary main_v6 main_v8 main_v9 (mulf : (⟨S16x65536x128, .f32⟩ : BufTy).Contents (Elt F) → (⟨S16x65536x128, .f32⟩ : BufTy).Contents (Elt F) → (⟨S16x65536x128, .f32⟩ : BufTy).Contents (Elt F)),
    StableHlo.nullary main_cst (constant S_ .f32 0x00000000#32),
    StableHlo.unary main_cst main_v10 (broadcastInDim S16384x128 ![] bcast_S_S16384x128 : (⟨S_, .f32⟩ : BufTy).Contents (Elt F) → (⟨S16384x128, .f32⟩ : BufTy).Contents (Elt F)),
    StableHlo.unary main_arg2 main_v11 (broadcastInDim S65536x1 ![0] bcast_S65536_S65536x1_0 : (⟨S65536, .i32⟩ : BufTy).Contents (Elt F) → (⟨S65536x1, .i32⟩ : BufTy).Contents (Elt F)),
    StableHlo.unary main_v10 main_v12 (broadcastInDim S16x16384x128 ![1, 2] bcast_S16384x128_S16x16384x128_1_2 : (⟨S16384x128, .f32⟩ : BufTy).Contents (Elt F) → (⟨S16x16384x128, .f32⟩ : BufTy).Contents (Elt F)),
    StableHlo.ternary main_v12 main_v11 main_v9 main_v13 ((fun x i u => Host.scatterAdd scatter_S16x16384x128_S65536x1_S16x65536x128_02_1_1_1 x i u) : (⟨S16x16384x128, .f32⟩ : BufTy).Contents (Elt F) → (⟨S65536x1, .i32⟩ : BufTy).Contents (Elt F) → (⟨S16x65536x128, .f32⟩ : BufTy).Contents (Elt F) → (⟨S16x16384x128, .f32⟩ : BufTy).Contents (Elt F)),
    StableHlo.unary main_arg4 main_v14 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v14 main_v15 rfl shapeCasts_S1x128x128_S128x128,
    StableHlo.binary main_arg0 main_v15 main_v16 ((fun l r => Host.dotGeneral dot_S16x16384x128_S128x128_S16x16384x128_2_1_01_0_n_n none l r) : (⟨S16x16384x128, .f32⟩ : BufTy).Contents (Elt F) → (⟨S128x128, .f32⟩ : BufTy).Contents (Elt F) → (⟨S16x16384x128, .f32⟩ : BufTy).Contents (Elt F)),
    StableHlo.unary main_arg5 main_v17 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v17 main_v18 rfl shapeCasts_S1x128x128_S128x128,
    StableHlo.binary main_v13 main_v18 main_v19 ((fun l r => Host.dotGeneral dot_S16x16384x128_S128x128_S16x16384x128_2_1_01_0_n_n none l r) : (⟨S16x16384x128, .f32⟩ : BufTy).Contents (Elt F) → (⟨S128x128, .f32⟩ : BufTy).Contents (Elt F) → (⟨S16x16384x128, .f32⟩ : BufTy).Contents (Elt F)),
    StableHlo.binary main_v16 main_v19 main_v20 (addf : (⟨S16x16384x128, .f32⟩ : BufTy).Contents (Elt F) → (⟨S16x16384x128, .f32⟩ : BufTy).Contents (Elt F) → (⟨S16x16384x128, .f32⟩ : BufTy).Contents (Elt F)) ]

/-- First layer, from that sum to the positive part: the per-feature mean, the variance routine's operations (its own mean, the squared deviations' sum, the count less the integer offset, the guard, and the select routine's three), the normalisation, the affine map, and the positive-part routine's three. -/
abbrev opsB : List (HloOp τ sig (Elt F)) :=
  [ StableHlo.nullary main_cst_1 (constant S_ .f32 0x00000000#32),
    StableHlo.binary main_v20 main_cst_1 main_v21 ((fun x v => Host.reduceAdd x v reducesTo_S16x16384x128_S128_d0_1 h_S_) : (⟨S16x16384x128, .f32⟩ : BufTy).Contents (Elt F) → (⟨S_, .f32⟩ : BufTy).Contents (Elt F) → (⟨S128, .f32⟩ : BufTy).Contents (Elt F)),
    StableHlo.nullary main_cst_2 (constant S_ .f32 0x48800000#32),
    StableHlo.unary main_cst_2 main_v22 (broadcastInDim S128 ![] bcast_S_S128 : (⟨S_, .f32⟩ : BufTy).Contents (Elt F) → (⟨S128, .f32⟩ : BufTy).Contents (Elt F)),
    StableHlo.binary main_v21 main_v22 main_v23 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of (T := ⟨S16x16384x128, .f32⟩) main_v20) main_call0.cst main_call0.v0 (fun x v => Host.reduceAdd x v reducesTo_S16x16384x128_S128_d0_1 h_S_),
    StableHlo.TRef.unary main_call0.v0 main_call0.v1 (broadcastInDim S1x1x128 ![2] bcast_S128_S1x1x128_2),
    StableHlo.TRef.nullary main_call0.cst_0 (constant S_ .f32 0x48800000#32),
    StableHlo.TRef.unary main_call0.cst_0 main_call0.v2 (broadcastInDim S1x1x128 ![] bcast_S_S1x1x128),
    StableHlo.TRef.binary main_call0.v1 main_call0.v2 main_call0.v3 Host.divf,
    StableHlo.TRef.unary main_call0.v3 main_call0.v4 (broadcastInDim S16x16384x128 ![0, 1, 2] bcast_S1x1x128_S16x16384x128_0_1_2),
    StableHlo.TRef.binary (StableHlo.TRef.of (T := ⟨S16x16384x128, .f32⟩) main_v20) main_call0.v4 main_call0.v5 subf,
    StableHlo.TRef.binary main_call0.v5 main_call0.v5 main_call0.v6 mulf,
    StableHlo.TRef.unary (StableHlo.TRef.of (T := ⟨S_, .i32⟩) main_c_3) main_call0.v7 (sitofp .f32),
    StableHlo.TRef.nullary main_call0.cst_1 (constant S_ .f32 0x48800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x16384x128_S128_d0_1 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v23 main_v25 (broadcastInDim S1x1x128 ![2] bcast_S128_S1x1x128_2 : (⟨S128, .f32⟩ : BufTy).Contents (Elt F) → (⟨S1x1x128, .f32⟩ : BufTy).Contents (Elt F)),
    StableHlo.unary main_v25 main_v26 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v20 main_v26 main_v27 (subf : (⟨S16x16384x128, .f32⟩ : BufTy).Contents (Elt F) → (⟨S16x16384x128, .f32⟩ : BufTy).Contents (Elt F) → (⟨S16x16384x128, .f32⟩ : BufTy).Contents (Elt F)),
    StableHlo.nullary main_cst_4 (constant S_ .f32 0x3727C5AC#32),
    StableHlo.unary main_cst_4 main_v28 (broadcastInDim S128 ![] bcast_S_S128 : (⟨S_, .f32⟩ : BufTy).Contents (Elt F) → (⟨S128, .f32⟩ : BufTy).Contents (Elt F)),
    StableHlo.binary main_v24 main_v28 main_v29 (addf : (⟨S128, .f32⟩ : BufTy).Contents (Elt F) → (⟨S128, .f32⟩ : BufTy).Contents (Elt F) → (⟨S128, .f32⟩ : BufTy).Contents (Elt F)),
    StableHlo.unary main_v29 main_v30 (Host.rsqrt : (⟨S128, .f32⟩ : BufTy).Contents (Elt F) → (⟨S128, .f32⟩ : BufTy).Contents (Elt F)),
    StableHlo.unary main_v30 main_v31 (broadcastInDim S1x1x128 ![2] bcast_S128_S1x1x128_2 : (⟨S128, .f32⟩ : BufTy).Contents (Elt F) → (⟨S1x1x128, .f32⟩ : BufTy).Contents (Elt F)),
    StableHlo.unary main_v31 main_v32 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v27 main_v32 main_v33 (mulf : (⟨S16x16384x128, .f32⟩ : BufTy).Contents (Elt F) → (⟨S16x16384x128, .f32⟩ : BufTy).Contents (Elt F) → (⟨S16x16384x128, .f32⟩ : BufTy).Contents (Elt F)),
    StableHlo.unary main_arg6 main_v34 ((extractStridedSlice S1x128 ![0, 0] · slices_S2x128_S1x128_0_0) : (⟨S2x128, .f32⟩ : BufTy).Contents (Elt F) → (⟨S1x128, .f32⟩ : BufTy).Contents (Elt F)),
    StableHlo.reshape main_v34 main_v35 rfl shapeCasts_S1x128_S128,
    StableHlo.unary main_v35 main_v36 (broadcastInDim S1x1x128 ![2] bcast_S128_S1x1x128_2 : (⟨S128, .f32⟩ : BufTy).Contents (Elt F) → (⟨S1x1x128, .f32⟩ : BufTy).Contents (Elt F)),
    StableHlo.unary main_v36 main_v37 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v33 main_v37 main_v38 (mulf : (⟨S16x16384x128, .f32⟩ : BufTy).Contents (Elt F) → (⟨S16x16384x128, .f32⟩ : BufTy).Contents (Elt F) → (⟨S16x16384x128, .f32⟩ : BufTy).Contents (Elt F)),
    StableHlo.unary main_arg7 main_v39 ((extractStridedSlice S1x128 ![0, 0] · slices_S2x128_S1x128_0_0) : (⟨S2x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x1x128 ![2] bcast_S128_S1x1x128_2 : (⟨S128, .f32⟩ : BufTy).Contents (Elt F) → (⟨S1x1x128, .f32⟩ : BufTy).Contents (Elt F)),
    StableHlo.unary main_v41 main_v42 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v38 main_v42 main_v43 (addf : (⟨S16x16384x128, .f32⟩ : BufTy).Contents (Elt F) → (⟨S16x16384x128, .f32⟩ : BufTy).Contents (Elt F) → (⟨S16x16384x128, .f32⟩ : BufTy).Contents (Elt F)),
    StableHlo.TRef.nullary main_call1.cst (constant S_ .f32 0x00000000#32),
    StableHlo.TRef.unary main_call1.cst main_call1.v0 (broadcastInDim S16x16384x128 ![] bcast_S_S16x16384x128),
    StableHlo.TRef.binary (StableHlo.TRef.of (T := ⟨S16x16384x128, .f32⟩) main_v43) main_call1.v0 main_call1.v1 maximumf ]

/-- Second layer, up to the sum of the two dense maps, from the first layer's output. -/
abbrev opsC : List (HloOp τ sig (Elt F)) :=
  [ StableHlo.nullary main_c_5 (constantI S_ 32 0#32),
    StableHlo.unary main_c_5 main_v45 (broadcastInDim S65536 ![] bcast_S_S65536 : (⟨S_, .i32⟩ : BufTy).Contents (Elt F) → (⟨S65536, .i32⟩ : BufTy).Contents (Elt F)),
    StableHlo.binary main_arg1 main_v45 main_v46 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 16384#32),
    StableHlo.unary main_c_6 main_v47 (broadcastInDim S65536 ![] bcast_S_S65536 : (⟨S_, .i32⟩ : BufTy).Contents (Elt F) → (⟨S65536, .i32⟩ : BufTy).Contents (Elt F)),
    StableHlo.binary main_arg1 main_v47 main_v48 (addi : (⟨S65536, .i32⟩ : BufTy).Contents (Elt F) → (⟨S65536, .i32⟩ : BufTy).Contents (Elt F) → (⟨S65536, .i32⟩ : BufTy).Contents (Elt F)),
    StableHlo.ternary main_v46 main_v48 main_arg1 main_v49 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v49 main_v50 (broadcastInDim S65536x1 ![0] bcast_S65536_S65536x1_0 : (⟨S65536, .i32⟩ : BufTy).Contents (Elt F) → (⟨S65536x1, .i32⟩ : BufTy).Contents (Elt F)),
    StableHlo.binary main_v44 main_v50 main_v51 ((fun x i => Host.gather gather_S16x16384x128_S65536x1_S16x65536x128_02_1_n_n_1_1_161128 x i) : (⟨S16x16384x128, .f32⟩ : BufTy).Contents (Elt F) → (⟨S65536x1, .i32⟩ : BufTy).Contents (Elt F) → (⟨S16x65536x128, .f32⟩ : BufTy).Contents (Elt F)),
    StableHlo.unary main_arg3 main_v52 (broadcastInDim S1x65536x1 ![1] bcast_S65536_S1x65536x1_1 : (⟨S65536, .f32⟩ : BufTy).Contents (Elt F) → (⟨S1x65536x1, .f32⟩ : BufTy).Contents (Elt F)),
    StableHlo.unary main_v52 main_v53 (broadcastInDim S16x65536x128 ![0, 1, 2] bcast_S1x65536x1_S16x65536x128_0_1_2 : (⟨S1x65536x1, .f32⟩ : BufTy).Contents (Elt F) → (⟨S16x65536x128, .f32⟩ : BufTy).Contents (Elt F)),
    StableHlo.binary main_v51 main_v53 main_v54 (mulf : (⟨S16x65536x128, .f32⟩ : BufTy).Contents (Elt F) → (⟨S16x65536x128, .f32⟩ : BufTy).Contents (Elt F) → (⟨S16x65536x128, .f32⟩ : BufTy).Contents (Elt F)),
    StableHlo.nullary main_cst_7 (constant S_ .f32 0x00000000#32),
    StableHlo.unary main_cst_7 main_v55 (broadcastInDim S16384x128 ![] bcast_S_S16384x128 : (⟨S_, .f32⟩ : BufTy).Contents (Elt F) → (⟨S16384x128, .f32⟩ : BufTy).Contents (Elt F)),
    StableHlo.unary main_arg2 main_v56 (broadcastInDim S65536x1 ![0] bcast_S65536_S65536x1_0 : (⟨S65536, .i32⟩ : BufTy).Contents (Elt F) → (⟨S65536x1, .i32⟩ : BufTy).Contents (Elt F)),
    StableHlo.unary main_v55 main_v57 (broadcastInDim S16x16384x128 ![1, 2] bcast_S16384x128_S16x16384x128_1_2 : (⟨S16384x128, .f32⟩ : BufTy).Contents (Elt F) → (⟨S16x16384x128, .f32⟩ : BufTy).Contents (Elt F)),
    StableHlo.ternary main_v57 main_v56 main_v54 main_v58 ((fun x i u => Host.scatterAdd scatter_S16x16384x128_S65536x1_S16x65536x128_02_1_1_1 x i u) : (⟨S16x16384x128, .f32⟩ : BufTy).Contents (Elt F) → (⟨S65536x1, .i32⟩ : BufTy).Contents (Elt F) → (⟨S16x65536x128, .f32⟩ : BufTy).Contents (Elt F) → (⟨S16x16384x128, .f32⟩ : BufTy).Contents (Elt F)),
    StableHlo.unary main_arg4 main_v59 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v59 main_v60 rfl shapeCasts_S1x128x128_S128x128,
    StableHlo.binary main_v44 main_v60 main_v61 ((fun l r => Host.dotGeneral dot_S16x16384x128_S128x128_S16x16384x128_2_1_01_0_n_n none l r) : (⟨S16x16384x128, .f32⟩ : BufTy).Contents (Elt F) → (⟨S128x128, .f32⟩ : BufTy).Contents (Elt F) → (⟨S16x16384x128, .f32⟩ : BufTy).Contents (Elt F)),
    StableHlo.unary main_arg5 main_v62 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v62 main_v63 rfl shapeCasts_S1x128x128_S128x128,
    StableHlo.binary main_v58 main_v63 main_v64 ((fun l r => Host.dotGeneral dot_S16x16384x128_S128x128_S16x16384x128_2_1_01_0_n_n none l r) : (⟨S16x16384x128, .f32⟩ : BufTy).Contents (Elt F) → (⟨S128x128, .f32⟩ : BufTy).Contents (Elt F) → (⟨S16x16384x128, .f32⟩ : BufTy).Contents (Elt F)),
    StableHlo.binary main_v61 main_v64 main_v65 (addf : (⟨S16x16384x128, .f32⟩ : BufTy).Contents (Elt F) → (⟨S16x16384x128, .f32⟩ : BufTy).Contents (Elt F) → (⟨S16x16384x128, .f32⟩ : BufTy).Contents (Elt F)) ]

/-- Second layer, from that sum to the positive part: the program's result. -/
abbrev opsD : List (HloOp τ sig (Elt F)) :=
  [ StableHlo.nullary main_cst_8 (constant S_ .f32 0x00000000#32),
    StableHlo.binary main_v65 main_cst_8 main_v66 ((fun x v => Host.reduceAdd x v reducesTo_S16x16384x128_S128_d0_1 h_S_) : (⟨S16x16384x128, .f32⟩ : BufTy).Contents (Elt F) → (⟨S_, .f32⟩ : BufTy).Contents (Elt F) → (⟨S128, .f32⟩ : BufTy).Contents (Elt F)),
    StableHlo.nullary main_cst_9 (constant S_ .f32 0x48800000#32),
    StableHlo.unary main_cst_9 main_v67 (broadcastInDim S128 ![] bcast_S_S128 : (⟨S_, .f32⟩ : BufTy).Contents (Elt F) → (⟨S128, .f32⟩ : BufTy).Contents (Elt F)),
    StableHlo.binary main_v66 main_v67 main_v68 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of (T := ⟨S16x16384x128, .f32⟩) main_v65) main_call2.cst main_call2.v0 (fun x v => Host.reduceAdd x v reducesTo_S16x16384x128_S128_d0_1 h_S_),
    StableHlo.TRef.unary main_call2.v0 main_call2.v1 (broadcastInDim S1x1x128 ![2] bcast_S128_S1x1x128_2),
    StableHlo.TRef.nullary main_call2.cst_0 (constant S_ .f32 0x48800000#32),
    StableHlo.TRef.unary main_call2.cst_0 main_call2.v2 (broadcastInDim S1x1x128 ![] bcast_S_S1x1x128),
    StableHlo.TRef.binary main_call2.v1 main_call2.v2 main_call2.v3 Host.divf,
    StableHlo.TRef.unary main_call2.v3 main_call2.v4 (broadcastInDim S16x16384x128 ![0, 1, 2] bcast_S1x1x128_S16x16384x128_0_1_2),
    StableHlo.TRef.binary (StableHlo.TRef.of (T := ⟨S16x16384x128, .f32⟩) main_v65) main_call2.v4 main_call2.v5 subf,
    StableHlo.TRef.binary main_call2.v5 main_call2.v5 main_call2.v6 mulf,
    StableHlo.TRef.unary (StableHlo.TRef.of (T := ⟨S_, .i32⟩) main_c_10) main_call2.v7 (sitofp .f32),
    StableHlo.TRef.nullary main_call2.cst_1 (constant S_ .f32 0x48800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16x16384x128_S128_d0_1 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v68 main_v70 (broadcastInDim S1x1x128 ![2] bcast_S128_S1x1x128_2 : (⟨S128, .f32⟩ : BufTy).Contents (Elt F) → (⟨S1x1x128, .f32⟩ : BufTy).Contents (Elt F)),
    StableHlo.unary main_v70 main_v71 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v65 main_v71 main_v72 (subf : (⟨S16x16384x128, .f32⟩ : BufTy).Contents (Elt F) → (⟨S16x16384x128, .f32⟩ : BufTy).Contents (Elt F) → (⟨S16x16384x128, .f32⟩ : BufTy).Contents (Elt F)),
    StableHlo.nullary main_cst_11 (constant S_ .f32 0x3727C5AC#32),
    StableHlo.unary main_cst_11 main_v73 (broadcastInDim S128 ![] bcast_S_S128 : (⟨S_, .f32⟩ : BufTy).Contents (Elt F) → (⟨S128, .f32⟩ : BufTy).Contents (Elt F)),
    StableHlo.binary main_v69 main_v73 main_v74 (addf : (⟨S128, .f32⟩ : BufTy).Contents (Elt F) → (⟨S128, .f32⟩ : BufTy).Contents (Elt F) → (⟨S128, .f32⟩ : BufTy).Contents (Elt F)),
    StableHlo.unary main_v74 main_v75 (Host.rsqrt : (⟨S128, .f32⟩ : BufTy).Contents (Elt F) → (⟨S128, .f32⟩ : BufTy).Contents (Elt F)),
    StableHlo.unary main_v75 main_v76 (broadcastInDim S1x1x128 ![2] bcast_S128_S1x1x128_2 : (⟨S128, .f32⟩ : BufTy).Contents (Elt F) → (⟨S1x1x128, .f32⟩ : BufTy).Contents (Elt F)),
    StableHlo.unary main_v76 main_v77 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v72 main_v77 main_v78 (mulf : (⟨S16x16384x128, .f32⟩ : BufTy).Contents (Elt F) → (⟨S16x16384x128, .f32⟩ : BufTy).Contents (Elt F) → (⟨S16x16384x128, .f32⟩ : BufTy).Contents (Elt F)),
    StableHlo.unary main_arg6 main_v79 ((extractStridedSlice S1x128 ![1, 0] · slices_S2x128_S1x128_1_0) : (⟨S2x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x1x128 ![2] bcast_S128_S1x1x128_2 : (⟨S128, .f32⟩ : BufTy).Contents (Elt F) → (⟨S1x1x128, .f32⟩ : BufTy).Contents (Elt F)),
    StableHlo.unary main_v81 main_v82 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v78 main_v82 main_v83 (mulf : (⟨S16x16384x128, .f32⟩ : BufTy).Contents (Elt F) → (⟨S16x16384x128, .f32⟩ : BufTy).Contents (Elt F) → (⟨S16x16384x128, .f32⟩ : BufTy).Contents (Elt F)),
    StableHlo.unary main_arg7 main_v84 ((extractStridedSlice S1x128 ![1, 0] · slices_S2x128_S1x128_1_0) : (⟨S2x128, .f32⟩ : BufTy).Contents (Elt F) → (⟨S1x128, .f32⟩ : BufTy).Contents (Elt F)),
    StableHlo.reshape main_v84 main_v85 rfl shapeCasts_S1x128_S128,
    StableHlo.unary main_v85 main_v86 (broadcastInDim S1x1x128 ![2] bcast_S128_S1x1x128_2 : (⟨S128, .f32⟩ : BufTy).Contents (Elt F) → (⟨S1x1x128, .f32⟩ : BufTy).Contents (Elt F)),
    StableHlo.unary main_v86 main_v87 (broadcastInDim S16x16384x128 ![0, 1, 2] bcast_S1x1x128_S16x16384x128_0_1_2 : (⟨S1x1x128, .f32⟩ : BufTy).Contents (Elt F) → (⟨S16x16384x128, .f32⟩ : BufTy).Contents (Elt F)),
    StableHlo.binary main_v83 main_v87 main_v88 (addf : (⟨S16x16384x128, .f32⟩ : BufTy).Contents (Elt F) → (⟨S16x16384x128, .f32⟩ : BufTy).Contents (Elt F) → (⟨S16x16384x128, .f32⟩ : BufTy).Contents (Elt F)),
    StableHlo.TRef.nullary main_call3.cst (constant S_ .f32 0x00000000#32),
    StableHlo.TRef.unary main_call3.cst main_call3.v0 (broadcastInDim S16x16384x128 ![] bcast_S_S16x16384x128),
    StableHlo.TRef.binary (StableHlo.TRef.of (T := ⟨S16x16384x128, .f32⟩) main_v88) main_call3.v0 main_call3.v1 maximumf ]

/-- @main's 150 operations in order, the called functions' standing at their calls: the four stretches one after the other. -/
abbrev ops : List (HloOp τ sig (Elt F)) := opsA ++ (opsB ++ (opsC ++ opsD))

-- one hundred and fifty binds re-associated, one recursion step per statement
set_option maxRecDepth 16384 in
set_option maxHeartbeats 4000000 in
/-- @main is that straight line: the windows and the called functions unfolded at their calls, both sides are one
    chain of operation steps once sequencing is re-associated. -/
theorem main_eq (c : Dev nD) : main (F := F) c = seq ops := by
  simp only [ops, opsA, opsB, opsC, opsD, seq_append, main, main_part0, main_part1, fn_var.body, fn_where.body, fn_relu.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., unary_bufs_sub .., ternary_bufs_sub .., unary_bufs_sub .., reshape_bufs_sub .., binary_bufs_sub .., unary_bufs_sub .., reshape_bufs_sub .., binary_bufs_sub .., binary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., unary_bufs_sub .., ternary_bufs_sub .., unary_bufs_sub .., reshape_bufs_sub .., binary_bufs_sub .., unary_bufs_sub .., reshape_bufs_sub .., binary_bufs_sub .., binary_bufs_sub ..⟩
theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

theorem ops_fresh : ∀ op ∈ (ops : List (HloOp τ sig (Elt F))), op.fresh = ∅ := by
  intro op h
  simp only [ops, List.mem_append] at h
  rcases h with h | h | h | h
  exacts [opsA_fresh op h, opsB_fresh op h, opsC_fresh op h, opsD_fresh op h]

/-- On every device, for any float values, from any memory with zero counters: every weakly fair execution of @main
    terminates, and every final state has each buffer at the fold of the operations' results over the launch contents. -/
theorem run_bare (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.RefRun

end
-- ==== Proof.RefLayer.lean ====
/-
  One layer of the reference program as two pure functions of arrays, spelt with the program's own operations:
  `linPart` — the neighbour aggregation (negative-index wrap, row gather along the node axis, edge weights, segment sum
  into zeros along the node axis) and the two dense maps added; `normPart` — the batch statistics over (graph, node),
  the variance routine with its guard on the count, the normalisation, the affine map and the positive part.
  The weights and the affine parameters enter already cut to the layer: a [128,128] matrix and a [128] vector each.
-/
import proofs.«163542_j78460462563808_2_alg».proof.ReferenceIdeal

noncomputable section

namespace Cert.ReferenceIdeal.RefLayer

open Cert.ReferenceIdeal Idealize.ShloMosaic
open Facts₀ Facts

variable {F : FTy → Type} [FloatOps F] [Facts]

/-- The layer's pre-normalisation activations: x·Wsᵀ + agg(x)·Wnᵀ over [16, 16384, 128]. -/
def linPart (x : FVec F S16x16384x128 .f32) (i1 i2 : IVec S65536 32) (a : FVec F S65536 .f32)
    (ws wn : FVec F S128x128 .f32) : FVec F S16x16384x128 .f32 :=
  addf
    (Host.dotGeneral dot_S16x16384x128_S128x128_S16x16384x128_2_1_01_0_n_n none x ws)
    (Host.dotGeneral dot_S16x16384x128_S128x128_S16x16384x128_2_1_01_0_n_n none
      (Host.scatterAdd scatter_S16x16384x128_S65536x1_S16x65536x128_02_1_1_1
        (broadcastInDim S16x16384x128 ![1, 2] bcast_S16384x128_S16x16384x128_1_2
          (broadcastInDim S16384x128 ![] bcast_S_S16384x128 (constant S_ .f32 0x00000000#32)))
        (broadcastInDim S65536x1 ![0] bcast_S65536_S65536x1_0 i2)
        (mulf
          (Host.gather gather_S16x16384x128_S65536x1_S16x65536x128_02_1_n_n_1_1_161128 x
            (broadcastInDim S65536x1 ![0] bcast_S65536_S65536x1_0
              (select (cmpi .slt i1 (broadcastInDim S65536 ![] bcast_S_S65536 (constantI S_ 32 0#32)))
                (addi i1 (broadcastInDim S65536 ![] bcast_S_S65536 (constantI S_ 32 16384#32))) i1)))
          (broadcastInDim S16x65536x128 ![0, 1, 2] bcast_S1x65536x1_S16x65536x128_0_1_2
            (broadcastInDim S1x65536x1 ![1] bcast_S65536_S1x65536x1_1 a))))
      wn)

/-- The per-feature mean of y over (graph, node). -/
def meanOf (y : FVec F S16x16384x128 .f32) : FVec F S128 .f32 :=
  Host.divf (Host.reduceAdd y (constant S_ .f32 0x00000000#32) reducesTo_S16x16384x128_S128_d0_1 h_S_)
    (broadcastInDim S128 ![] bcast_S_S128 (constant S_ .f32 0x48800000#32))

/-- The variance routine: mean squared deviation over (graph, node), divided by count − ddof with ddof the integer
    word 0, guarded by count − ddof > 0 (else the quiet-NaN word). -/
def varOf (y : FVec F S16x16384x128 .f32) : FVec F S128 .f32 :=
  select
    (broadcastInDim S128 ![] bcast_S_S128
      (cmpf .ogt (subf (constant (F := F) S_ .f32 0x48800000#32) (sitofp .f32 (constantI S_ 32 0#32))) (constant (F := F) S_ .f32 0x00000000#32)))
    (Host.divf
      (Host.reduceAdd
        (mulf
          (subf y (broadcastInDim S16x16384x128 ![0, 1, 2] bcast_S1x1x128_S16x16384x128_0_1_2
            (Host.divf
              (broadcastInDim S1x1x128 ![2] bcast_S128_S1x1x128_2
                (Host.reduceAdd y (constant S_ .f32 0x00000000#32) reducesTo_S16x16384x128_S128_d0_1 h_S_))
              (broadcastInDim S1x1x128 ![] bcast_S_S1x1x128 (constant S_ .f32 0x48800000#32)))))
          (subf y (broadcastInDim S16x16384x128 ![0, 1, 2] bcast_S1x1x128_S16x16384x128_0_1_2
            (Host.divf
              (broadcastInDim S1x1x128 ![2] bcast_S128_S1x1x128_2
                (Host.reduceAdd y (constant S_ .f32 0x00000000#32) reducesTo_S16x16384x128_S128_d0_1 h_S_))
              (broadcastInDim S1x1x128 ![] bcast_S_S1x1x128 (constant S_ .f32 0x48800000#32))))))
        (constant S_ .f32 0x00000000#32) reducesTo_S16x16384x128_S128_d0_1 h_S_)
      (broadcastInDim S128 ![] bcast_S_S128
        (subf (constant S_ .f32 0x48800000#32) (sitofp .f32 (constantI S_ 32 0#32)))))
    (broadcastInDim S128 ![] bcast_S_S128 (id (constant S_ .f32 0x7FC00000#32)))

/-- Normalisation, affine map and positive part from the activations y and the layer's γ and β. -/
def normPart (y : FVec F S16x16384x128 .f32) (g b : FVec F S128 .f32) : FVec F S16x16384x128 .f32 :=
  maximumf
    (addf
      (mulf
        (mulf
          (subf y (broadcastInDim S16x16384x128 ![0, 1, 2] bcast_S1x1x128_S16x16384x128_0_1_2
            (broadcastInDim S1x1x128 ![2] bcast_S128_S1x1x128_2 (meanOf y))))
          (broadcastInDim S16x16384x128 ![0, 1, 2] bcast_S1x1x128_S16x16384x128_0_1_2
            (broadcastInDim S1x1x128 ![2] bcast_S128_S1x1x128_2
              (Host.rsqrt (addf (varOf y) (broadcastInDim S128 ![] bcast_S_S128 (constant S_ .f32 0x3727C5AC#32)))))))
        (broadcastInDim S16x16384x128 ![0, 1, 2] bcast_S1x1x128_S16x16384x128_0_1_2
          (broadcastInDim S1x1x128 ![2] bcast_S128_S1x1x128_2 g)))
      (broadcastInDim S16x16384x128 ![0, 1, 2] bcast_S1x1x128_S16x16384x128_0_1_2
        (broadcastInDim S1x1x128 ![2] bcast_S128_S1x1x128_2 b)))
    (broadcastInDim S16x16384x128 ![] bcast_S_S16x16384x128 (constant S_ .f32 0x00000000#32))

/-- Layer l's dense weight: the [128,128] matrix cut out of the [2,128,128] stack. -/
def wOf0 (w : FVec F S2x128x128 .f32) : FVec F S128x128 .f32 :=
  shapeCast S128x128 (extractStridedSlice S1x128x128 ![0, 0, 0] w slices_S2x128x128_S1x128x128_0_0_0) shapeCasts_S1x128x128_S128x128
def wOf1 (w : FVec F S2x128x128 .f32) : FVec F S128x128 .f32 :=
  shapeCast S128x128 (extractStridedSlice S1x128x128 ![1, 0, 0] w slices_S2x128x128_S1x128x128_1_0_0) shapeCasts_S1x128x128_S128x128
/-- Layer l's affine parameter: the [128] vector cut out of the [2,128] stack. -/
def vOf0 (p : FVec F S2x128 .f32) : FVec F S128 .f32 :=
  shapeCast S128 (extractStridedSlice S1x128 ![0, 0] p slices_S2x128_S1x128_0_0) shapeCasts_S1x128_S128
def vOf1 (p : FVec F S2x128 .f32) : FVec F S128 .f32 :=
  shapeCast S128 (extractStridedSlice S1x128 ![1, 0] p slices_S2x128_S1x128_1_0) shapeCasts_S1x128_S128

/-- The whole reference: two layers. -/
def twoLayers (x : FVec F S16x16384x128 .f32) (i1 i2 : IVec S65536 32) (a : FVec F S65536 .f32)
    (w4 w5 : FVec F S2x128x128 .f32) (p6 p7 : FVec F S2x128 .f32) : FVec F S16x16384x128 .f32 :=
  normPart (linPart (normPart (linPart x i1 i2 a (wOf0 w4) (wOf0 w5)) (vOf0 p6) (vOf0 p7)) i1 i2 a (wOf1 w4) (wOf1 w5)) (vOf1 p6) (vOf1 p7)

end Cert.ReferenceIdeal.RefLayer

end
-- ==== Proof.RefRun.lean ====
/-
  What the reference program's straight line computes, read stretch by stretch. Each of the four stretches is read
  over an ARBITRARY starting valuation: the first and third give the layer's dense-plus-aggregation sum from the
  activations they start from, the second and fourth the normalised, affinely mapped, positive part of the sum
  they start from; none writes an argument. Chained, the result buffer holds the two layers composed, and the
  run of @main ends with it there and the arguments unchanged.
-/
import proofs.«163542_j78460462563808_2_alg».proof.Proof.RefOps
import proofs.«163542_j78460462563808_2_alg».proof.Proof.RefLayer

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- Two lines one after the other fold as the second from where the first ends. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-! ## The stretches, each over any starting contents -/

set_option maxRecDepth 16384 in
set_option maxHeartbeats 4000000 in
/-- The first stretch leaves the first layer's sum of dense maps, of the arguments it starts from. -/
theorem A_out (W : Valuation τ sig (Elt F)) :
    StableHlo.after opsA W (Proc.devRef .tc main_v20) = RefLayer.linPart (W (Proc.devRef .tc main_arg0)) (W (Proc.devRef .tc main_arg1)) (W (Proc.devRef .tc main_arg2)) (W (Proc.devRef .tc main_arg3))
      (RefLayer.wOf0 (W (Proc.devRef .tc main_arg4))) (RefLayer.wOf0 (W (Proc.devRef .tc main_arg5))) := by
  after_results_simp
  rfl

set_option maxRecDepth 16384 in
set_option maxHeartbeats 4000000 in
/-- The second stretch leaves the first layer's output, of the sum and the affine parameters it starts from. -/
theorem B_out (W : Valuation τ sig (Elt F)) :
    StableHlo.after opsB W (Proc.devRef .tc main_v44) = RefLayer.normPart (W (Proc.devRef .tc main_v20)) (RefLayer.vOf0 (W (Proc.devRef .tc main_arg6))) (RefLayer.vOf0 (W (Proc.devRef .tc main_arg7))) := by
  after_results_simp
  rfl

set_option maxRecDepth 16384 in
set_option maxHeartbeats 4000000 in
/-- The third stretch leaves the second layer's sum of dense maps, of the activations and arguments it starts from. -/
theorem C_out (W : Valuation τ sig (Elt F)) :
    StableHlo.after opsC W (Proc.devRef .tc main_v65) = RefLayer.linPart (W (Proc.devRef .tc main_v44)) (W (Proc.devRef .tc main_arg1)) (W (Proc.devRef .tc main_arg2)) (W (Proc.devRef .tc main_arg3))
      (RefLayer.wOf1 (W (Proc.devRef .tc main_arg4))) (RefLayer.wOf1 (W (Proc.devRef .tc main_arg5))) := by
  after_results_simp
  rfl

set_option maxRecDepth 16384 in
set_option maxHeartbeats 4000000 in
/-- The fourth stretch leaves the program's result, of the sum and the affine parameters it starts from. -/
theorem D_out (W : Valuation τ sig (Elt F)) :
    StableHlo.after opsD W (Proc.devRef .tc main_v89) = RefLayer.normPart (W (Proc.devRef .tc main_v65)) (RefLayer.vOf1 (W (Proc.devRef .tc main_arg6))) (RefLayer.vOf1 (W (Proc.devRef .tc main_arg7))) := by
  after_results_simp
  rfl

/-! ## No stretch writes an argument -/
set_option maxRecDepth 16384 in
set_option maxHeartbeats 4000000 in
theorem A_arg0 (W : Valuation τ sig (Elt F)) : StableHlo.after opsA W (Proc.devRef .tc main_arg0) = W (Proc.devRef .tc main_arg0) := by
  after_results_simp
set_option maxRecDepth 16384 in
set_option maxHeartbeats 4000000 in
theorem A_arg1 (W : Valuation τ sig (Elt F)) : StableHlo.after opsA W (Proc.devRef .tc main_arg1) = W (Proc.devRef .tc main_arg1) := by
  after_results_simp
set_option maxRecDepth 16384 in
set_option maxHeartbeats 4000000 in
theorem A_arg2 (W : Valuation τ sig (Elt F)) : StableHlo.after opsA W (Proc.devRef .tc main_arg2) = W (Proc.devRef .tc main_arg2) := by
  after_results_simp
set_option maxRecDepth 16384 in
set_option maxHeartbeats 4000000 in
theorem A_arg3 (W : Valuation τ sig (Elt F)) : StableHlo.after opsA W (Proc.devRef .tc main_arg3) = W (Proc.devRef .tc main_arg3) := by
  after_results_simp
set_option maxRecDepth 16384 in
set_option maxHeartbeats 4000000 in
theorem A_arg4 (W : Valuation τ sig (Elt F)) : StableHlo.after opsA W (Proc.devRef .tc main_arg4) = W (Proc.devRef .tc main_arg4) := by
  after_results_simp
set_option maxRecDepth 16384 in
set_option maxHeartbeats 4000000 in
theorem A_arg5 (W : Valuation τ sig (Elt F)) : StableHlo.after opsA W (Proc.devRef .tc main_arg5) = W (Proc.devRef .tc main_arg5) := by
  after_results_simp
set_option maxRecDepth 16384 in
set_option maxHeartbeats 4000000 in
theorem A_arg6 (W : Valuation τ sig (Elt F)) : StableHlo.after opsA W (Proc.devRef .tc main_arg6) = W (Proc.devRef .tc main_arg6) := by
  after_results_simp
set_option maxRecDepth 16384 in
set_option maxHeartbeats 4000000 in
theorem A_arg7 (W : Valuation τ sig (Elt F)) : StableHlo.after opsA W (Proc.devRef .tc main_arg7) = W (Proc.devRef .tc main_arg7) := by
  after_results_simp
set_option maxRecDepth 16384 in
set_option maxHeartbeats 4000000 in
theorem B_arg0 (W : Valuation τ sig (Elt F)) : StableHlo.after opsB W (Proc.devRef .tc main_arg0) = W (Proc.devRef .tc main_arg0) := by
  after_results_simp
set_option maxRecDepth 16384 in
set_option maxHeartbeats 4000000 in
theorem B_arg1 (W : Valuation τ sig (Elt F)) : StableHlo.after opsB W (Proc.devRef .tc main_arg1) = W (Proc.devRef .tc main_arg1) := by
  after_results_simp
set_option maxRecDepth 16384 in
set_option maxHeartbeats 4000000 in
theorem B_arg2 (W : Valuation τ sig (Elt F)) : StableHlo.after opsB W (Proc.devRef .tc main_arg2) = W (Proc.devRef .tc main_arg2) := by
  after_results_simp
set_option maxRecDepth 16384 in
set_option maxHeartbeats 4000000 in
theorem B_arg3 (W : Valuation τ sig (Elt F)) : StableHlo.after opsB W (Proc.devRef .tc main_arg3) = W (Proc.devRef .tc main_arg3) := by
  after_results_simp
set_option maxRecDepth 16384 in
set_option maxHeartbeats 4000000 in
theorem B_arg4 (W : Valuation τ sig (Elt F)) : StableHlo.after opsB W (Proc.devRef .tc main_arg4) = W (Proc.devRef .tc main_arg4) := by
  after_results_simp
set_option maxRecDepth 16384 in
set_option maxHeartbeats 4000000 in
theorem B_arg5 (W : Valuation τ sig (Elt F)) : StableHlo.after opsB W (Proc.devRef .tc main_arg5) = W (Proc.devRef .tc main_arg5) := by
  after_results_simp
set_option maxRecDepth 16384 in
set_option maxHeartbeats 4000000 in
theorem B_arg6 (W : Valuation τ sig (Elt F)) : StableHlo.after opsB W (Proc.devRef .tc main_arg6) = W (Proc.devRef .tc main_arg6) := by
  after_results_simp
set_option maxRecDepth 16384 in
set_option maxHeartbeats 4000000 in
theorem B_arg7 (W : Valuation τ sig (Elt F)) : StableHlo.after opsB W (Proc.devRef .tc main_arg7) = W (Proc.devRef .tc main_arg7) := by
  after_results_simp
set_option maxRecDepth 16384 in
set_option maxHeartbeats 4000000 in
theorem C_arg0 (W : Valuation τ sig (Elt F)) : StableHlo.after opsC W (Proc.devRef .tc main_arg0) = W (Proc.devRef .tc main_arg0) := by
  after_results_simp
set_option maxRecDepth 16384 in
set_option maxHeartbeats 4000000 in
theorem C_arg1 (W : Valuation τ sig (Elt F)) : StableHlo.after opsC W (Proc.devRef .tc main_arg1) = W (Proc.devRef .tc main_arg1) := by
  after_results_simp
set_option maxRecDepth 16384 in
set_option maxHeartbeats 4000000 in
theorem C_arg2 (W : Valuation τ sig (Elt F)) : StableHlo.after opsC W (Proc.devRef .tc main_arg2) = W (Proc.devRef .tc main_arg2) := by
  after_results_simp
set_option maxRecDepth 16384 in
set_option maxHeartbeats 4000000 in
theorem C_arg3 (W : Valuation τ sig (Elt F)) : StableHlo.after opsC W (Proc.devRef .tc main_arg3) = W (Proc.devRef .tc main_arg3) := by
  after_results_simp
set_option maxRecDepth 16384 in
set_option maxHeartbeats 4000000 in
theorem C_arg4 (W : Valuation τ sig (Elt F)) : StableHlo.after opsC W (Proc.devRef .tc main_arg4) = W (Proc.devRef .tc main_arg4) := by
  after_results_simp
set_option maxRecDepth 16384 in
set_option maxHeartbeats 4000000 in
theorem C_arg5 (W : Valuation τ sig (Elt F)) : StableHlo.after opsC W (Proc.devRef .tc main_arg5) = W (Proc.devRef .tc main_arg5) := by
  after_results_simp
set_option maxRecDepth 16384 in
set_option maxHeartbeats 4000000 in
theorem C_arg6 (W : Valuation τ sig (Elt F)) : StableHlo.after opsC W (Proc.devRef .tc main_arg6) = W (Proc.devRef .tc main_arg6) := by
  after_results_simp
set_option maxRecDepth 16384 in
set_option maxHeartbeats 4000000 in
theorem C_arg7 (W : Valuation τ sig (Elt F)) : StableHlo.after opsC W (Proc.devRef .tc main_arg7) = W (Proc.devRef .tc main_arg7) := by
  after_results_simp
set_option maxRecDepth 16384 in
set_option maxHeartbeats 4000000 in
theorem D_arg0 (W : Valuation τ sig (Elt F)) : StableHlo.after opsD W (Proc.devRef .tc main_arg0) = W (Proc.devRef .tc main_arg0) := by
  after_results_simp
set_option maxRecDepth 16384 in
set_option maxHeartbeats 4000000 in
theorem D_arg1 (W : Valuation τ sig (Elt F)) : StableHlo.after opsD W (Proc.devRef .tc main_arg1) = W (Proc.devRef .tc main_arg1) := by
  after_results_simp
set_option maxRecDepth 16384 in
set_option maxHeartbeats 4000000 in
theorem D_arg2 (W : Valuation τ sig (Elt F)) : StableHlo.after opsD W (Proc.devRef .tc main_arg2) = W (Proc.devRef .tc main_arg2) := by
  after_results_simp
set_option maxRecDepth 16384 in
set_option maxHeartbeats 4000000 in
theorem D_arg3 (W : Valuation τ sig (Elt F)) : StableHlo.after opsD W (Proc.devRef .tc main_arg3) = W (Proc.devRef .tc main_arg3) := by
  after_results_simp
set_option maxRecDepth 16384 in
set_option maxHeartbeats 4000000 in
theorem D_arg4 (W : Valuation τ sig (Elt F)) : StableHlo.after opsD W (Proc.devRef .tc main_arg4) = W (Proc.devRef .tc main_arg4) := by
  after_results_simp
set_option maxRecDepth 16384 in
set_option maxHeartbeats 4000000 in
theorem D_arg5 (W : Valuation τ sig (Elt F)) : StableHlo.after opsD W (Proc.devRef .tc main_arg5) = W (Proc.devRef .tc main_arg5) := by
  after_results_simp
set_option maxRecDepth 16384 in
set_option maxHeartbeats 4000000 in
theorem D_arg6 (W : Valuation τ sig (Elt F)) : StableHlo.after opsD W (Proc.devRef .tc main_arg6) = W (Proc.devRef .tc main_arg6) := by
  after_results_simp
set_option maxRecDepth 16384 in
set_option maxHeartbeats 4000000 in
theorem D_arg7 (W : Valuation τ sig (Elt F)) : StableHlo.after opsD W (Proc.devRef .tc main_arg7) = W (Proc.devRef .tc main_arg7) := by
  after_results_simp

/-! ## The whole line -/

/-- The whole line is the four stretches in turn. -/
theorem after_ops (W : Valuation τ sig (Elt F)) :
    StableHlo.after ops W = StableHlo.after opsD (StableHlo.after opsC (StableHlo.after opsB (StableHlo.after opsA W))) := by
  simp only [ops, after_append]

/-- The result buffer ends at the two layers composed, of the arguments' starting contents. -/
theorem after_out (W : Valuation τ sig (Elt F)) :
    StableHlo.after ops W (Proc.devRef .tc main_v89) = RefLayer.twoLayers (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops, D_out, C_out, C_arg6, C_arg7, B_out, B_arg1, B_arg2, B_arg3, B_arg4, B_arg5, B_arg6, B_arg7, A_out,
    A_arg1, A_arg2, A_arg3, A_arg4, A_arg5, A_arg6, A_arg7]
  rfl

/-- No operation writes argument 0. -/
theorem after_arg0 (W : Valuation τ sig (Elt F)) : StableHlo.after ops W (Proc.devRef .tc main_arg0) = W (Proc.devRef .tc main_arg0) := by
  rw [after_ops, D_arg0, C_arg0, B_arg0, A_arg0]
/-- No operation writes argument 1. -/
theorem after_arg1 (W : Valuation τ sig (Elt F)) : StableHlo.after ops W (Proc.devRef .tc main_arg1) = W (Proc.devRef .tc main_arg1) := by
  rw [after_ops, D_arg1, C_arg1, B_arg1, A_arg1]
/-- No operation writes argument 2. -/
theorem after_arg2 (W : Valuation τ sig (Elt F)) : StableHlo.after ops W (Proc.devRef .tc main_arg2) = W (Proc.devRef .tc main_arg2) := by
  rw [after_ops, D_arg2, C_arg2, B_arg2, A_arg2]
/-- No operation writes argument 3. -/
theorem after_arg3 (W : Valuation τ sig (Elt F)) : StableHlo.after ops W (Proc.devRef .tc main_arg3) = W (Proc.devRef .tc main_arg3) := by
  rw [after_ops, D_arg3, C_arg3, B_arg3, A_arg3]
/-- No operation writes argument 4. -/
theorem after_arg4 (W : Valuation τ sig (Elt F)) : StableHlo.after ops W (Proc.devRef .tc main_arg4) = W (Proc.devRef .tc main_arg4) := by
  rw [after_ops, D_arg4, C_arg4, B_arg4, A_arg4]
/-- No operation writes argument 5. -/
theorem after_arg5 (W : Valuation τ sig (Elt F)) : StableHlo.after ops W (Proc.devRef .tc main_arg5) = W (Proc.devRef .tc main_arg5) := by
  rw [after_ops, D_arg5, C_arg5, B_arg5, A_arg5]
/-- No operation writes argument 6. -/
theorem after_arg6 (W : Valuation τ sig (Elt F)) : StableHlo.after ops W (Proc.devRef .tc main_arg6) = W (Proc.devRef .tc main_arg6) := by
  rw [after_ops, D_arg6, C_arg6, B_arg6, A_arg6]
/-- No operation writes argument 7. -/
theorem after_arg7 (W : Valuation τ sig (Elt F)) : StableHlo.after ops W (Proc.devRef .tc main_arg7) = W (Proc.devRef .tc main_arg7) := by
  rw [after_ops, D_arg7, C_arg7, B_arg7, A_arg7]

/-- On every device, for any float values, from any memory with zero counters: every weakly fair execution of @main
    terminates with the result buffer at the two layers composed, of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = RefLayer.twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v89).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_bare m ρ)

end Cert.ReferenceIdeal.RefRun

end
-- ==== Proof.EdgeIdx.lean ====
/-
  How both programs read the edge lists. A source index word is first wrapped (a negative word has the node count added),
  then, as every gather start index, read as a signed integer and clamped into the node range. A destination index word is
  read as a signed integer and not clamped: a segment sum drops an edge whose destination is no node.
-/
import Idealize.ShloMosaic.Lib.ValueIdx
import Idealize.ShloMosaic.PureOps.Ideal

noncomputable section

namespace Cert.Gnn

open Idealize.ShloMosaic Idealize.ShloMosaic.ValueIdx

/-- The source words after the negative-index wrap by the word `Vw`. -/
def wrapped {E : ℕ} (Vw : BitVec 32) (i1 : IVec ⟨1, ![E]⟩ 32) : IVec ⟨1, ![E]⟩ 32 :=
  select (cmpi .slt i1 (fun _ => 0#32)) (addi i1 (fun _ => Vw)) i1

/-- Edge j's source node among V nodes: the wrapped word, signed, clamped into [0, V − 1]. -/
def srcOf {E : ℕ} (V : ℕ) (hV : 0 < V) (Vw : BitVec 32) (i1 : IVec ⟨1, ![E]⟩ 32) (j : Fin E) : Fin V :=
  ⟨min ((wrapped Vw i1) (ix1 j)).toInt.toNat (V - 1), by omega⟩

/-- Edge j's destination as a signed integer. -/
def dstOf {E : ℕ} (i2 : IVec ⟨1, ![E]⟩ 32) (j : Fin E) : ℤ := (i2 (ix1 j)).toInt

end Cert.Gnn

end
-- ==== Proof.Spec.lean ====
/-
  The mathematics of one graph layer, stated over plain coordinate functions on the extended reals, for any sizes:
  a batch of N graphs on V nodes with D features, E weighted edges.

  * `nei`     — neighbour aggregation: node v of graph n receives, from every edge j that ends at v, the features of
                 the edge's source node scaled by the edge weight.
  * `linRows` — two dense maps added, rows against the rows of the two weight matrices (y = x·Wsᵀ + xn·Wnᵀ).
  * `tot`     — the sum of one feature over every node of every graph.
  * `refNorm` — batch normalisation with the variance as the mean squared deviation, the affine map applied to the
                 centred value, then the positive part.
  * `kerNorm` — the same with the variance as mean of squares minus squared mean, the scale and shift folded.
-/
import Idealize.ShloMosaic.PureOps.Ideal

noncomputable section

open scoped BigOperators

namespace Cert.Gnn

open Idealize.ShloMosaic

/-- An extended real that is a real number. -/
def IsReal (x : EReal) : Prop := ∃ r : ℝ, x = (r : EReal)

variable {N V D E R : ℕ}

/-- Neighbour aggregation. `src j` is edge j's source node (already brought into range), `dst j` its destination
    read as an integer: an edge whose destination is no node contributes nowhere. -/
def nei (X : Fin N → Fin V → Fin D → EReal) (src : Fin E → Fin V) (dst : Fin E → ℤ) (A : Fin E → EReal) :
    Fin N → Fin V → Fin D → EReal :=
  fun n v d => ∑ j : Fin E, if dst j = (v.val : ℤ) then X n (src j) d * A j else 0

/-- Row r of x against row e of ws, plus row r of xn against row e of wn. -/
def linRows (x xn : Fin R → Fin D → EReal) (ws wn : Fin D → Fin D → EReal) : Fin R → Fin D → EReal :=
  fun r e => (∑ d : Fin D, x r d * ws e d) + ∑ d : Fin D, xn r d * wn e d

/-- The dense part of a layer in the (graph, node, feature) arrangement. -/
def lin (X Xn : Fin N → Fin V → Fin D → EReal) (Ws Wn : Fin D → Fin D → EReal) : Fin N → Fin V → Fin D → EReal :=
  fun n v e => (∑ d : Fin D, X n v d * Ws e d) + ∑ d : Fin D, Xn n v d * Wn e d

/-- One feature summed over every node of every graph. -/
def tot (Y : Fin N → Fin V → Fin D → EReal) (e : Fin D) : EReal := ∑ v : Fin V, ∑ n : Fin N, Y n v e

/-- Batch normalisation, affine map and positive part, the reference's way: centre, scale by the reciprocal
    root of (mean squared deviation + eps), multiply by γ, add β. `Mc` is the count as an extended real. -/
def refNorm (Mc eps : EReal) (Y : Fin N → Fin V → Fin D → EReal) (γ β : Fin D → EReal) :
    Fin N → Fin V → Fin D → EReal :=
  fun n v e =>
    max (((Y n v e - Ideal.div (tot Y e) Mc)
          * Ideal.rsqrt (Ideal.div (tot (fun n' v' e' => (Y n' v' e' - Ideal.div (tot Y e') Mc) * (Y n' v' e' - Ideal.div (tot Y e') Mc)) e) Mc + eps))
          * γ e + β e) 0

/-- The same the kernel's way: variance as mean of squares minus squared mean, scale = γ·rsqrt, shift = β − mean·scale. -/
def kerNorm (Mc eps : EReal) (Y : Fin N → Fin V → Fin D → EReal) (γ β : Fin D → EReal) :
    Fin N → Fin V → Fin D → EReal :=
  fun n v e =>
    max (Y n v e * (γ e * Ideal.rsqrt ((Ideal.div (tot (fun n' v' e' => Y n' v' e' * Y n' v' e') e) Mc
            - Ideal.div (tot Y e) Mc * Ideal.div (tot Y e) Mc) + eps))
        + (β e - Ideal.div (tot Y e) Mc * (γ e * Ideal.rsqrt ((Ideal.div (tot (fun n' v' e' => Y n' v' e' * Y n' v' e') e) Mc
            - Ideal.div (tot Y e) Mc * Ideal.div (tot Y e) Mc) + eps)))) 0

/-- One whole layer, the reference's way. -/
def refLayer (Mc eps : EReal) (X : Fin N → Fin V → Fin D → EReal) (src : Fin E → Fin V) (dst : Fin E → ℤ) (A : Fin E → EReal)
    (Ws Wn : Fin D → Fin D → EReal) (γ β : Fin D → EReal) : Fin N → Fin V → Fin D → EReal :=
  refNorm Mc eps (lin X (nei X src dst A) Ws Wn) γ β

/-- One whole layer, the kernel's way. -/
def kerLayer (Mc eps : EReal) (X : Fin N → Fin V → Fin D → EReal) (src : Fin E → Fin V) (dst : Fin E → ℤ) (A : Fin E → EReal)
    (Ws Wn : Fin D → Fin D → EReal) (γ β : Fin D → EReal) : Fin N → Fin V → Fin D → EReal :=
  kerNorm Mc eps (lin X (nei X src dst A) Ws Wn) γ β

end Cert.Gnn

end
-- ==== Proof.NormLaw.lean ====
/-
  Batch normalisation written two ways gives one function on real entries.

  For one feature let  S₁ = Σ y,  S₂ = Σ y²  over all M = N·V positions and  μ = S₁/M.  One form takes the variance as
  the mean squared deviation  Σ (y − μ)² / M  and returns  (y − μ)·s·γ + β  with  s = 1/√(var + ε);  the other takes
  S₂/M − μ²  and returns  y·(γ·s) + (β − μ·(γ·s)).  Expanding the square,  Σ (y − μ)² = S₂ − 2μS₁ + Mμ² = S₂ − Mμ²,
  so the two variances are one number, and the two affine forms differ by a rearrangement.  On the extended reals
  distributivity fails at the infinities, so every entry is assumed real; then each operation is the image of the
  same operation on real numbers, the variance is a nonnegative real, var + ε is positive, and the result is real.
-/
import proofs.«163542_j78460462563808_2_alg».proof.Proof.Spec

noncomputable section

open scoped BigOperators

namespace Cert.Gnn

open Idealize.ShloMosaic

/-! ### Real extended reals are closed under the arithmetic used here -/

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A family of real extended reals, indexed three ways, is the image of a family of reals. -/
theorem exists_real3 {α β γ : Type*} (f : α → β → γ → EReal) (h : ∀ a b c, IsReal (f a b c)) :
    ∃ g : α → β → γ → ℝ, f = fun a b c => (g a b c : EReal) :=
  ⟨fun a b c => (h a b c).choose, funext fun a => funext fun b => funext fun c => (h a b c).choose_spec⟩

/-- A family of real extended reals is the image of a family of reals. -/
theorem exists_real1 {α : Type*} (f : α → EReal) (h : ∀ a, IsReal (f a)) : ∃ g : α → ℝ, f = fun a => (g a : EReal) :=
  ⟨fun a => (h a).choose, funext fun a => (h a).choose_spec⟩

variable {N V D E : ℕ}

/-! ### Aggregation and the dense maps keep real entries real -/

theorem nei_real (X : Fin N → Fin V → Fin D → EReal) (hX : ∀ n v d, IsReal (X n v d)) (src : Fin E → Fin V)
    (dst : Fin E → ℤ) (A : Fin E → EReal) (hA : ∀ j, IsReal (A j)) : ∀ n v d, IsReal (nei X src dst A n v d) := by
  intro n v d
  unfold nei
  refine isReal_sum _ _ fun j _ => ?_
  split
  · exact (hX n (src j) d).mul (hA j)
  · exact isReal_zero

theorem lin_real (X Xn : Fin N → Fin V → Fin D → EReal) (hX : ∀ n v d, IsReal (X n v d))
    (hXn : ∀ n v d, IsReal (Xn n v d)) (Ws Wn : Fin D → Fin D → EReal) (hWs : ∀ e d, IsReal (Ws e d))
    (hWn : ∀ e d, IsReal (Wn e d)) : ∀ n v e, IsReal (lin X Xn Ws Wn n v e) := by
  intro n v e
  unfold lin
  exact (isReal_sum _ _ fun d _ => (hX n v d).mul (hWs e d)).add (isReal_sum _ _ fun d _ => (hXn n v d).mul (hWn e d))

/-! ### The statistics over the reals -/

/-- The mean of one feature over all positions, M being the count. -/
def meanR (M : ℝ) (g : Fin N → Fin V → Fin D → ℝ) (e : Fin D) : ℝ := (∑ v : Fin V, ∑ n : Fin N, g n v e) * (1 / M)

/-- The variance as the mean squared deviation. -/
def varDev (M : ℝ) (g : Fin N → Fin V → Fin D → ℝ) (e : Fin D) : ℝ :=
  meanR M (fun n v e' => (g n v e' - meanR M g e') * (g n v e' - meanR M g e')) e

/-- The variance as the mean of the squares minus the squared mean. -/
def varSq (M : ℝ) (g : Fin N → Fin V → Fin D → ℝ) (e : Fin D) : ℝ :=
  meanR M (fun n v e' => g n v e' * g n v e') e - meanR M g e * meanR M g e

/-- Σ (y − μ)² = Σ y² − 2μ Σ y + (count)·μ², for any μ. -/
theorem sum_sq_dev {ι κ : Type*} [Fintype ι] [Fintype κ] (g : ι → κ → ℝ) (μ : ℝ) :
    ∑ v : κ, ∑ n : ι, (g n v - μ) * (g n v - μ)
      = (∑ v : κ, ∑ n : ι, g n v * g n v) - 2 * μ * (∑ v : κ, ∑ n : ι, g n v)
        + ((Fintype.card κ : ℝ) * (Fintype.card ι : ℝ)) * (μ * μ) := by
  have h : ∀ v n, (g n v - μ) * (g n v - μ) = g n v * g n v - 2 * μ * g n v + μ * μ := fun v n => by ring
  simp only [h, Finset.sum_add_distrib, Finset.sum_sub_distrib, ← Finset.mul_sum, Finset.sum_const, Finset.card_univ,
    nsmul_eq_mul]
  ring

/-- The two variances are one number when M is the number of positions. -/
theorem varSq_eq_varDev (M : ℝ) (hM : M = ((N * V : ℕ) : ℝ)) (hNV : 0 < N * V) (g : Fin N → Fin V → Fin D → ℝ)
    (e : Fin D) : varSq M g e = varDev M g e := by
  have hM0 : M ≠ 0 := by rw [hM]; exact_mod_cast hNV.ne'
  have hc : ((Fintype.card (Fin V) : ℝ) * (Fintype.card (Fin N) : ℝ)) = M := by
    rw [hM, Fintype.card_fin, Fintype.card_fin]; push_cast; ring
  unfold varSq varDev
  unfold meanR
  rw [sum_sq_dev (fun n v => g n v e) ((∑ v : Fin V, ∑ n : Fin N, g n v e) * (1 / M)), hc]
  field_simp
  ring

/-- The mean squared deviation is nonnegative when the count is positive. -/
theorem varDev_nonneg (M : ℝ) (hM : 0 < M) (g : Fin N → Fin V → Fin D → ℝ) (e : Fin D) : 0 ≤ varDev M g e := by
  unfold varDev
  unfold meanR
  refine mul_nonneg (Finset.sum_nonneg fun v _ => Finset.sum_nonneg fun n _ => mul_self_nonneg _) ?_
  exact (one_div_pos.mpr hM).le

/-! ### Each operation on real entries is the image of the real operation -/

theorem tot_coe (g : Fin N → Fin V → Fin D → ℝ) (e : Fin D) :
    tot (fun n v e' => (g n v e' : EReal)) e = ((∑ v : Fin V, ∑ n : Fin N, g n v e : ℝ) : EReal) := by
  unfold tot
  rw [coe_sum]
  refine Finset.sum_congr rfl fun v _ => ?_
  rw [coe_sum]

theorem div_tot_coe (M : ℝ) (hM0 : M ≠ 0) (g : Fin N → Fin V → Fin D → ℝ) (e : Fin D) :
    Ideal.div (tot (fun n v e' => (g n v e' : EReal)) e) (M : EReal) = (meanR M g e : EReal) := by
  rw [tot_coe, Ideal.div_coe hM0, ← EReal.coe_mul]
  rfl

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem refNorm_coe (M εr : ℝ) (hM0 : M ≠ 0) (g : Fin N → Fin V → Fin D → ℝ) (γ' β' : Fin D → ℝ)
    (hpos : ∀ e, 0 < varDev M g e + εr) (n : Fin N) (v : Fin V) (e : Fin D) :
    refNorm (M : EReal) (εr : EReal) (fun n v e => (g n v e : EReal)) (fun e => (γ' e : EReal))
        (fun e => (β' e : EReal)) n v e
      = ((max ((g n v e - meanR M g e) * (Real.sqrt (varDev M g e + εr))⁻¹ * γ' e + β' e) 0 : ℝ) : EReal) := by
  unfold refNorm
  simp only [div_tot_coe M hM0, ← EReal.coe_sub, ← EReal.coe_mul]
  change Max.max (((g n v e - meanR M g e : ℝ) : EReal) * Ideal.rsqrt ((varDev M g e : EReal) + (εr : EReal))
      * (γ' e : EReal) + (β' e : EReal)) 0 = _
  rw [← EReal.coe_add, rsqrt_coe_pos (hpos e), ← EReal.coe_mul, ← EReal.coe_mul, ← EReal.coe_add, ← EReal.coe_zero,
    max_coe]

theorem kerNorm_coe (M εr : ℝ) (hM0 : M ≠ 0) (g : Fin N → Fin V → Fin D → ℝ) (γ' β' : Fin D → ℝ)
    (hpos : ∀ e, 0 < varSq M g e + εr) (n : Fin N) (v : Fin V) (e : Fin D) :
    kerNorm (M : EReal) (εr : EReal) (fun n v e => (g n v e : EReal)) (fun e => (γ' e : EReal))
        (fun e => (β' e : EReal)) n v e
      = ((max (g n v e * (γ' e * (Real.sqrt (varSq M g e + εr))⁻¹)
          + (β' e - meanR M g e * (γ' e * (Real.sqrt (varSq M g e + εr))⁻¹))) 0 : ℝ) : EReal) := by
  unfold kerNorm
  simp only [div_tot_coe M hM0, ← EReal.coe_mul]
  rw [← EReal.coe_sub]
  change Max.max ((g n v e : EReal) * ((γ' e : EReal) * Ideal.rsqrt ((varSq M g e : EReal) + (εr : EReal)))
      + ((β' e : EReal) - (meanR M g e : EReal) * ((γ' e : EReal) * Ideal.rsqrt ((varSq M g e : EReal) + (εr : EReal))))) 0 = _
  rw [← EReal.coe_add, rsqrt_coe_pos (hpos e), ← EReal.coe_mul, ← EReal.coe_mul, ← EReal.coe_mul, ← EReal.coe_sub,
    ← EReal.coe_add, ← EReal.coe_zero, max_coe]

/-! ### The two normalisations agree, and the result is real -/

theorem norm_law (Mr εr : ℝ) (hM : Mr = ((N * V : ℕ) : ℝ)) (hNV : 0 < N * V) (hε : 0 < εr)
    (Y : Fin N → Fin V → Fin D → EReal) (hY : ∀ n v e, IsReal (Y n v e)) (γ β : Fin D → EReal)
    (hγ : ∀ e, IsReal (γ e)) (hβ : ∀ e, IsReal (β e)) :
    kerNorm (Mr : EReal) (εr : EReal) Y γ β = refNorm (Mr : EReal) (εr : EReal) Y γ β := by
  have hMpos : 0 < Mr := by rw [hM]; exact_mod_cast hNV
  obtain ⟨g, rfl⟩ := exists_real3 Y hY
  obtain ⟨γ', rfl⟩ := exists_real1 γ hγ
  obtain ⟨β', rfl⟩ := exists_real1 β hβ
  have hposD : ∀ e, 0 < varDev Mr g e + εr := fun e =>
    add_pos_of_nonneg_of_pos (varDev_nonneg Mr hMpos g e) hε
  have hposS : ∀ e, 0 < varSq Mr g e + εr := fun e => by rw [varSq_eq_varDev Mr hM hNV]; exact hposD e
  funext n v e
  rw [kerNorm_coe Mr εr hMpos.ne' g γ' β' hposS, refNorm_coe Mr εr hMpos.ne' g γ' β' hposD,
    varSq_eq_varDev Mr hM hNV]
  congr 2
  ring

theorem refNorm_real (Mr εr : ℝ) (hM : Mr = ((N * V : ℕ) : ℝ)) (hNV : 0 < N * V) (hε : 0 < εr)
    (Y : Fin N → Fin V → Fin D → EReal) (hY : ∀ n v e, IsReal (Y n v e)) (γ β : Fin D → EReal)
    (hγ : ∀ e, IsReal (γ e)) (hβ : ∀ e, IsReal (β e)) :
    ∀ n v e, IsReal (refNorm (Mr : EReal) (εr : EReal) Y γ β n v e) := by
  have hMpos : 0 < Mr := by rw [hM]; exact_mod_cast hNV
  obtain ⟨g, rfl⟩ := exists_real3 Y hY
  obtain ⟨γ', rfl⟩ := exists_real1 γ hγ
  obtain ⟨β', rfl⟩ := exists_real1 β hβ
  have hposD : ∀ e, 0 < varDev Mr g e + εr := fun e =>
    add_pos_of_nonneg_of_pos (varDev_nonneg Mr hMpos g e) hε
  intro n v e
  rw [refNorm_coe Mr εr hMpos.ne' g γ' β' hposD]
  exact isReal_coe _

/-! ### A whole layer -/

theorem layer_law (Mr εr : ℝ) (hM : Mr = ((N * V : ℕ) : ℝ)) (hNV : 0 < N * V) (hε : 0 < εr)
    (X : Fin N → Fin V → Fin D → EReal) (hX : ∀ n v d, IsReal (X n v d)) (src : Fin E → Fin V) (dst : Fin E → ℤ)
    (A : Fin E → EReal) (hA : ∀ j, IsReal (A j)) (Ws Wn : Fin D → Fin D → EReal) (hWs : ∀ e d, IsReal (Ws e d))
    (hWn : ∀ e d, IsReal (Wn e d)) (γ β : Fin D → EReal) (hγ : ∀ e, IsReal (γ e)) (hβ : ∀ e, IsReal (β e)) :
    kerLayer (Mr : EReal) (εr : EReal) X src dst A Ws Wn γ β
      = refLayer (Mr : EReal) (εr : EReal) X src dst A Ws Wn γ β := by
  unfold kerLayer refLayer
  exact norm_law Mr εr hM hNV hε _ (lin_real X _ hX (nei_real X hX src dst A hA) Ws Wn hWs hWn) γ β hγ hβ

theorem refLayer_real (Mr εr : ℝ) (hM : Mr = ((N * V : ℕ) : ℝ)) (hNV : 0 < N * V) (hε : 0 < εr)
    (X : Fin N → Fin V → Fin D → EReal) (hX : ∀ n v d, IsReal (X n v d)) (src : Fin E → Fin V) (dst : Fin E → ℤ)
    (A : Fin E → EReal) (hA : ∀ j, IsReal (A j)) (Ws Wn : Fin D → Fin D → EReal) (hWs : ∀ e d, IsReal (Ws e d))
    (hWn : ∀ e d, IsReal (Wn e d)) (γ β : Fin D → EReal) (hγ : ∀ e, IsReal (γ e)) (hβ : ∀ e, IsReal (β e)) :
    ∀ n v e, IsReal (refLayer (Mr : EReal) (εr : EReal) X src dst A Ws Wn γ β n v e) := by
  unfold refLayer
  exact refNorm_real Mr εr hM hNV hε _ (lin_real X _ hX (nei_real X hX src dst A hA) Ws Wn hWs hWn) γ β hγ hβ

end Cert.Gnn

end
-- ==== Proof.LibScatter3.lean ====
/-
  A gather of whole slabs of a rank-3 array along one axis, and the segment sum (scatter-add) that is its transpose,
  each read at an index at the ideal instance (floats are extended reals), in two arrangements of the axes.

  Arrangement A: the indexed axis comes first. The operand is `[V, N, D]`, the `E` row numbers are an `[E, 1]` integer
  array, the gathered array and the updates are `[E, N, D]`.
  Arrangement B: the indexed axis is the middle one. The operand is `[N, V, D]`, the row numbers `[E, 1]`, the gathered
  array and the updates `[N, E, D]`.

  A gather reads its row number as a signed integer and clamps it into `[0, V − 1]`. A scatter-add reads it as a signed
  integer and does not clamp it: an update whose row number lies outside `[0, V)` is dropped.
-/
import Idealize.ShloMosaic.Lib.ValueIdx
import Idealize.ShloMosaic.PureOps.Ideal
import Idealize.ShloMosaic.Lib.Pipeline.Value

noncomputable section

open scoped BigOperators

namespace Cert.LibScatter3

open Idealize.ShloMosaic Idealize.ShloMosaic.ValueIdx

/-! ## Sums over a rank-3 index set -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-! ## Arrangement A: operand `[V, N, D]`, row numbers `[E, 1]`, gathered array and updates `[E, N, D]` -/

/-- The dimension numbers of the gather `x[idx, :, :]` for an operand `[V, N, D]`, start indices `[E, 1]` and a result
    `[E, N, D]`: the operand's axis 0 is collapsed and is the one the start index names, its axes 1 and 2 are offset
    axes of full width, the index vector lies on axis 1 of the start indices. Their conditions `wf` are decided on a
    program's literal shapes. -/
abbrev gatherA (V N D E : ℕ)
    (wf : GatherDims.WF ⟨3, ![V, N, D]⟩ ⟨2, ![E, 1]⟩ ⟨3, ![E, N, D]⟩ [1, 2] [0] [] [0] [] 1 ![1, N, D]) :
    GatherDims ⟨3, ![V, N, D]⟩ ⟨2, ![E, 1]⟩ ⟨3, ![E, N, D]⟩ where
  offsetDims := [1, 2]
  collapsedSliceDims := [0]
  operandBatchingDims := []
  startIndicesBatchingDims := []
  startIndexMap := [0]
  indexVectorDim := 1
  sliceSizes := ![1, N, D]
  wf := wf

/-- THE GATHER OF ARRANGEMENT A READ AT `(j, n, d)`: the operand at row `idx[j, 0]` (signed, clamped into
    `[0, V − 1]`), at `(n, d)` inside the row. -/
theorem gatherA_apply {α : Type} {V N D E w : ℕ} (hV : 0 < V)
    (wf : GatherDims.WF ⟨3, ![V, N, D]⟩ ⟨2, ![E, 1]⟩ ⟨3, ![E, N, D]⟩ [1, 2] [0] [] [0] [] 1 ![1, N, D])
    (x : (⟨3, ![V, N, D]⟩ : Shape).Idx → α) (idx : IVec ⟨2, ![E, 1]⟩ w) (j : Fin E) (n : Fin N) (d : Fin D) :
    Host.gather (gatherA V N D E wf) x idx (ix3 j n d)
      = x (ix3 ⟨min (idx (ix2 j (0 : Fin 1))).toInt.toNat (V - 1), by omega⟩ n d) := by
  unfold Host.gather
  refine congrArg x (funext fun a => Fin.ext ?_)
  match a with
  | ⟨0, _⟩ =>
    show (gatherA V N D E wf).start (ix3 j n d) idx 0 + (gatherA V N D E wf).batchCoord (ix3 j n d) 0
        + (gatherA V N D E wf).offCoord (ix3 j n d) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 3) ∈ (gatherA V N D E wf).startIndexMap from List.mem_singleton.mpr rfl)]
    have hsi : (gatherA V N D E wf).siIdx (ix3 j n d) ⟨List.idxOf (0 : Fin 3) (gatherA V N D E wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show (gatherA V N D E wf).start (ix3 j n d) idx 1 + (gatherA V N D E wf).batchCoord (ix3 j n d) 1
        + (gatherA V N D E wf).offCoord (ix3 j n d) 1 = n.val
    rw [GatherDims.batchCoord_eq_zero _ _ _ List.not_mem_nil]
    have hs : (gatherA V N D E wf).start (ix3 j n d) idx 1 = 0 := by
      unfold GatherDims.start
      rw [dif_neg (show ¬ (1 : Fin 3) ∈ ([0] : List (Fin 3)) from by decide)]
    rw [hs]
    have ho : (gatherA V N D E wf).offCoord (ix3 j n d) 1 = n.val := by
      unfold GatherDims.offCoord
      rw [dif_pos ((GatherDims.mem_sKept (gatherA V N D E wf) 1).mpr
        ⟨show ¬ (1 : Fin 3) ∈ ([0] : List (Fin 3)) from by decide, List.not_mem_nil⟩)]
      rfl
    rw [ho]
    omega
  | ⟨2, _⟩ =>
    show (gatherA V N D E wf).start (ix3 j n d) idx 2 + (gatherA V N D E wf).batchCoord (ix3 j n d) 2
        + (gatherA V N D E wf).offCoord (ix3 j n d) 2 = d.val
    rw [GatherDims.batchCoord_eq_zero _ _ _ List.not_mem_nil]
    have hs : (gatherA V N D E wf).start (ix3 j n d) idx 2 = 0 := by
      unfold GatherDims.start
      rw [dif_neg (show ¬ (2 : Fin 3) ∈ ([0] : List (Fin 3)) from by decide)]
    rw [hs]
    have ho : (gatherA V N D E wf).offCoord (ix3 j n d) 2 = d.val := by
      unfold GatherDims.offCoord
      rw [dif_pos ((GatherDims.mem_sKept (gatherA V N D E wf) 2).mpr
        ⟨show ¬ (2 : Fin 3) ∈ ([0] : List (Fin 3)) from by decide, List.not_mem_nil⟩)]
      rfl
    rw [ho]
    omega

/-- The dimension numbers of the segment sum of arrangement A: operand `[V, N, D]`, scatter indices `[E, 1]`, updates
    `[E, N, D]`; the updates' axes 1 and 2 are the window axes, the operand's axis 0 is inserted and is the one the
    index names, the index vector lies on axis 1 of the scatter indices. Their conditions `wf` are decided on literal
    shapes. -/
abbrev scatterA (V N D E : ℕ)
    (wf : ScatterDims.WF ⟨3, ![V, N, D]⟩ ⟨2, ![E, 1]⟩ ⟨3, ![E, N, D]⟩ [1, 2] [0] [0] 1) :
    ScatterDims ⟨3, ![V, N, D]⟩ ⟨2, ![E, 1]⟩ ⟨3, ![E, N, D]⟩ where
  updateWindowDims := [1, 2]
  insertedWindowDims := [0]
  scatterDimsToOperandDims := [0]
  indexVectorDim := 1
  wf := wf

section
variable {V N D E w : ℕ} (wf : ScatterDims.WF ⟨3, ![V, N, D]⟩ ⟨2, ![E, 1]⟩ ⟨3, ![E, N, D]⟩ [1, 2] [0] [0] 1)

/-- On the operand's row axis an update's window starts at its row number `idx[j, 0]`, read as a signed integer. -/
theorem startA0 (idx : IVec ⟨2, ![E, 1]⟩ w) (j : Fin E) (n : Fin N) (d : Fin D) :
    (scatterA V N D E wf).start (ix3 j n d) idx 0 = (idx (ix2 j (0 : Fin 1))).toInt := by
  unfold ScatterDims.start
  rw [dif_pos (show (0 : Fin 3) ∈ (scatterA V N D E wf).scatterDimsToOperandDims from List.mem_singleton.mpr rfl)]
  congr 2
  funext b
  refine Fin.ext ?_
  match b with
  | ⟨0, _⟩ => rfl
  | ⟨1, _⟩ => rfl

/-- On the operand's axis 1 the window starts at `0`: the index names the row axis only. -/
theorem startA1 (idx : IVec ⟨2, ![E, 1]⟩ w) (j : Fin E) (n : Fin N) (d : Fin D) :
    (scatterA V N D E wf).start (ix3 j n d) idx 1 = 0 := by
  unfold ScatterDims.start
  rw [dif_neg (show ¬ (1 : Fin 3) ∈ (scatterA V N D E wf).scatterDimsToOperandDims from
    (show (1 : Fin 3) ∉ [(0 : Fin 3)] by decide))]

/-- On the operand's axis 2 the window starts at `0`. -/
theorem startA2 (idx : IVec ⟨2, ![E, 1]⟩ w) (j : Fin E) (n : Fin N) (d : Fin D) :
    (scatterA V N D E wf).start (ix3 j n d) idx 2 = 0 := by
  unfold ScatterDims.start
  rw [dif_neg (show ¬ (2 : Fin 3) ∈ (scatterA V N D E wf).scatterDimsToOperandDims from
    (show (2 : Fin 3) ∉ [(0 : Fin 3)] by decide))]

/-- The row axis is inserted: the window coordinate there is `0`. -/
theorem windowA0 (j : Fin E) (n : Fin N) (d : Fin D) : (scatterA V N D E wf).window (ix3 j n d) 0 = 0 := by
  unfold ScatterDims.window
  rw [dif_neg (show ¬ (0 : Fin 3) ∈ (scatterA V N D E wf).sKept from
    (show (0 : Fin 3) ∉ (List.finRange 3).filter (fun a => a ∉ [(0 : Fin 3)]) by decide))]

/-- On the operand's axis 1 the window coordinate is the update's coordinate on its axis 1. -/
theorem windowA1 (j : Fin E) (n : Fin N) (d : Fin D) : (scatterA V N D E wf).window (ix3 j n d) 1 = n.val := by
  unfold ScatterDims.window
  rw [dif_pos (show (1 : Fin 3) ∈ (scatterA V N D E wf).sKept from
    (show (1 : Fin 3) ∈ (List.finRange 3).filter (fun a => a ∉ [(0 : Fin 3)]) by decide))]
  rfl

/-- On the operand's axis 2 the window coordinate is the update's coordinate on its axis 2. -/
theorem windowA2 (j : Fin E) (n : Fin N) (d : Fin D) : (scatterA V N D E wf).window (ix3 j n d) 2 = d.val := by
  unfold ScatterDims.window
  rw [dif_pos (show (2 : Fin 3) ∈ (scatterA V N D E wf).sKept from
    (show (2 : Fin 3) ∈ (List.finRange 3).filter (fun a => a ∉ [(0 : Fin 3)]) by decide))]
  rfl

/-- WHERE AN UPDATE LANDS, ARRANGEMENT A: update element `(j, n, d)` lands on operand element `(v, n', d')` exactly
    when the row number `idx[j, 0]`, read as a signed integer and not clamped, is `v`, and the place inside the row is
    the same, `n = n'` and `d = d'`. A row number outside `[0, V)` lands nowhere: the update is dropped. -/
theorem resultIdx_A (idx : IVec ⟨2, ![E, 1]⟩ w) (j : Fin E) (n : Fin N) (d : Fin D) (v : Fin V) (n' : Fin N)
    (d' : Fin D) :
    (scatterA V N D E wf).resultIdx? (ix3 j n d) idx = some (ix3 v n' d') ↔
      ((idx (ix2 j (0 : Fin 1))).toInt = (v.val : ℤ) ∧ n = n' ∧ d = d') := by
  have e0 : (scatterA V N D E wf).start (ix3 j n d) idx 0 + ((scatterA V N D E wf).window (ix3 j n d) 0 : ℕ)
      = (idx (ix2 j (0 : Fin 1))).toInt := by
    rw [startA0, windowA0]; simp
  have e1 : (scatterA V N D E wf).start (ix3 j n d) idx 1 + ((scatterA V N D E wf).window (ix3 j n d) 1 : ℕ)
      = (n.val : ℤ) := by
    rw [startA1, windowA1]; simp
  have e2 : (scatterA V N D E wf).start (ix3 j n d) idx 2 + ((scatterA V N D E wf).window (ix3 j n d) 2 : ℕ)
      = (d.val : ℤ) := by
    rw [startA2, windowA2]; simp
  unfold ScatterDims.resultIdx?
  constructor
  · intro h
    split at h
    · next hall =>
      have h' := Option.some.inj h
      have h0 : ((scatterA V N D E wf).start (ix3 j n d) idx 0
          + ((scatterA V N D E wf).window (ix3 j n d) 0 : ℕ)).toNat = v.val := congrArg (fun i => (i 0).val) h'
      have h1 : ((scatterA V N D E wf).start (ix3 j n d) idx 1
          + ((scatterA V N D E wf).window (ix3 j n d) 1 : ℕ)).toNat = n'.val := congrArg (fun i => (i 1).val) h'
      have h2 : ((scatterA V N D E wf).start (ix3 j n d) idx 2
          + ((scatterA V N D E wf).window (ix3 j n d) 2 : ℕ)).toNat = d'.val := congrArg (fun i => (i 2).val) h'
      have p0 := (hall 0).1
      rw [e0] at h0 p0
      rw [e1] at h1
      rw [e2] at h2
      refine ⟨by omega, Fin.ext (by omega), Fin.ext (by omega)⟩
    · exact absurd h (by simp)
  · rintro ⟨hs, rfl, rfl⟩
    have hall : ∀ a : Fin 3,
        0 ≤ (scatterA V N D E wf).start (ix3 j n d) idx a + ((scatterA V N D E wf).window (ix3 j n d) a : ℕ) ∧
        (scatterA V N D E wf).start (ix3 j n d) idx a + ((scatterA V N D E wf).window (ix3 j n d) a : ℕ)
          < ((⟨3, ![V, N, D]⟩ : Shape).size a : ℕ) := by
      intro a
      match a with
      | ⟨0, _⟩ =>
        have := v.isLt
        show 0 ≤ (scatterA V N D E wf).start (ix3 j n d) idx 0 + ((scatterA V N D E wf).window (ix3 j n d) 0 : ℕ) ∧
          (scatterA V N D E wf).start (ix3 j n d) idx 0 + ((scatterA V N D E wf).window (ix3 j n d) 0 : ℕ) < (V : ℤ)
        rw [e0, hs]; omega
      | ⟨1, _⟩ =>
        have := n.isLt
        show 0 ≤ (scatterA V N D E wf).start (ix3 j n d) idx 1 + ((scatterA V N D E wf).window (ix3 j n d) 1 : ℕ) ∧
          (scatterA V N D E wf).start (ix3 j n d) idx 1 + ((scatterA V N D E wf).window (ix3 j n d) 1 : ℕ) < (N : ℤ)
        rw [e1]; omega
      | ⟨2, _⟩ =>
        have := d.isLt
        show 0 ≤ (scatterA V N D E wf).start (ix3 j n d) idx 2 + ((scatterA V N D E wf).window (ix3 j n d) 2 : ℕ) ∧
          (scatterA V N D E wf).start (ix3 j n d) idx 2 + ((scatterA V N D E wf).window (ix3 j n d) 2 : ℕ) < (D : ℤ)
        rw [e2]; omega
    rw [dif_pos hall]
    congr 1
    funext a
    refine Fin.ext ?_
    match a with
    | ⟨0, _⟩ =>
      show ((scatterA V N D E wf).start (ix3 j n d) idx 0
        + ((scatterA V N D E wf).window (ix3 j n d) 0 : ℕ)).toNat = v.val
      rw [e0, hs]; omega
    | ⟨1, _⟩ =>
      show ((scatterA V N D E wf).start (ix3 j n d) idx 1
        + ((scatterA V N D E wf).window (ix3 j n d) 1 : ℕ)).toNat = n.val
      rw [e1]; omega
    | ⟨2, _⟩ =>
      show ((scatterA V N D E wf).start (ix3 j n d) idx 2
        + ((scatterA V N D E wf).window (ix3 j n d) 2 : ℕ)).toNat = d.val
      rw [e2]; omega

/-- THE SEGMENT SUM OF ARRANGEMENT A READ AT `(v, n, d)`: the operand there plus the sum, over the update rows `j`
    whose row number `idx[j, 0]` (signed, not clamped) is `v`, of the update's element at `(n, d)` inside the row. -/
theorem scatterA_apply (x : (⟨3, ![V, N, D]⟩ : Shape).Idx → EReal) (idx : IVec ⟨2, ![E, 1]⟩ w)
    (upd : (⟨3, ![E, N, D]⟩ : Shape).Idx → EReal) (v : Fin V) (n : Fin N) (d : Fin D) :
    Ideal.hostScatterAdd (scatterA V N D E wf) x idx upd (ix3 v n d)
      = x (ix3 v n d) + ∑ j : Fin E,
          (if (idx (ix2 j (0 : Fin 1))).toInt = (v.val : ℤ) then upd (ix3 j n d) else 0) := by
  unfold Ideal.hostScatterAdd
  congr 1
  rw [Finset.sum_filter, sum_idx3]
  refine Finset.sum_congr rfl (fun j _ => ?_)
  simp only [resultIdx_A]
  by_cases h : (idx (ix2 j (0 : Fin 1))).toInt = (v.val : ℤ)
  · simp [h, ite_and]
  · simp [h]

end

/-! ## Arrangement B: operand `[N, V, D]`, row numbers `[E, 1]`, gathered array and updates `[N, E, D]` -/

/-- The dimension numbers of the gather `x[:, idx, :]` for an operand `[N, V, D]`, start indices `[E, 1]` and a result
    `[N, E, D]`: the operand's axis 1 is collapsed and is the one the start index names, its axes 0 and 2 are offset
    axes of full width (the result's axes 0 and 2), the index vector lies on axis 1 of the start indices. Their
    conditions `wf` are decided on a program's literal shapes. -/
abbrev gatherB (N V D E : ℕ)
    (wf : GatherDims.WF ⟨3, ![N, V, D]⟩ ⟨2, ![E, 1]⟩ ⟨3, ![N, E, D]⟩ [0, 2] [1] [] [1] [] 1 ![N, 1, D]) :
    GatherDims ⟨3, ![N, V, D]⟩ ⟨2, ![E, 1]⟩ ⟨3, ![N, E, D]⟩ where
  offsetDims := [0, 2]
  collapsedSliceDims := [1]
  operandBatchingDims := []
  startIndicesBatchingDims := []
  startIndexMap := [1]
  indexVectorDim := 1
  sliceSizes := ![N, 1, D]
  wf := wf

/-- THE GATHER OF ARRANGEMENT B READ AT `(n, j, d)`: the operand at `(n, idx[j, 0], d)`, the row number `idx[j, 0]`
    read signed and clamped into `[0, V − 1]`. -/
theorem gatherB_apply {α : Type} {N V D E w : ℕ} (hV : 0 < V)
    (wf : GatherDims.WF ⟨3, ![N, V, D]⟩ ⟨2, ![E, 1]⟩ ⟨3, ![N, E, D]⟩ [0, 2] [1] [] [1] [] 1 ![N, 1, D])
    (x : (⟨3, ![N, V, D]⟩ : Shape).Idx → α) (idx : IVec ⟨2, ![E, 1]⟩ w) (n : Fin N) (j : Fin E) (d : Fin D) :
    Host.gather (gatherB N V D E wf) x idx (ix3 n j d)
      = x (ix3 n ⟨min (idx (ix2 j (0 : Fin 1))).toInt.toNat (V - 1), by omega⟩ d) := by
  unfold Host.gather
  refine congrArg x (funext fun a => Fin.ext ?_)
  match a with
  | ⟨0, _⟩ =>
    show (gatherB N V D E wf).start (ix3 n j d) idx 0 + (gatherB N V D E wf).batchCoord (ix3 n j d) 0
        + (gatherB N V D E wf).offCoord (ix3 n j d) 0 = n.val
    rw [GatherDims.batchCoord_eq_zero _ _ _ List.not_mem_nil]
    have hs : (gatherB N V D E wf).start (ix3 n j d) idx 0 = 0 := by
      unfold GatherDims.start
      rw [dif_neg (show ¬ (0 : Fin 3) ∈ ([1] : List (Fin 3)) from by decide)]
    rw [hs]
    have ho : (gatherB N V D E wf).offCoord (ix3 n j d) 0 = n.val := by
      unfold GatherDims.offCoord
      rw [dif_pos ((GatherDims.mem_sKept (gatherB N V D E wf) 0).mpr
        ⟨show ¬ (0 : Fin 3) ∈ ([1] : List (Fin 3)) from by decide, List.not_mem_nil⟩)]
      rfl
    rw [ho]
    omega
  | ⟨1, _⟩ =>
    show (gatherB N V D E wf).start (ix3 n j d) idx 1 + (gatherB N V D E wf).batchCoord (ix3 n j d) 1
        + (gatherB N V D E wf).offCoord (ix3 n j d) 1 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (1 : Fin 3) ∈ (gatherB N V D E wf).startIndexMap from List.mem_singleton.mpr rfl)]
    have hsi : (gatherB N V D E wf).siIdx (ix3 n j d) ⟨List.idxOf (1 : Fin 3) (gatherB N V D E wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨2, _⟩ =>
    show (gatherB N V D E wf).start (ix3 n j d) idx 2 + (gatherB N V D E wf).batchCoord (ix3 n j d) 2
        + (gatherB N V D E wf).offCoord (ix3 n j d) 2 = d.val
    rw [GatherDims.batchCoord_eq_zero _ _ _ List.not_mem_nil]
    have hs : (gatherB N V D E wf).start (ix3 n j d) idx 2 = 0 := by
      unfold GatherDims.start
      rw [dif_neg (show ¬ (2 : Fin 3) ∈ ([1] : List (Fin 3)) from by decide)]
    rw [hs]
    have ho : (gatherB N V D E wf).offCoord (ix3 n j d) 2 = d.val := by
      unfold GatherDims.offCoord
      rw [dif_pos ((GatherDims.mem_sKept (gatherB N V D E wf) 2).mpr
        ⟨show ¬ (2 : Fin 3) ∈ ([1] : List (Fin 3)) from by decide, List.not_mem_nil⟩)]
      rfl
    rw [ho]
    omega

/-- The dimension numbers of the segment sum of arrangement B: operand `[N, V, D]`, scatter indices `[E, 1]`, updates
    `[N, E, D]`; the updates' axes 0 and 2 are the window axes, the operand's axis 1 is inserted and is the one the
    index names, the index vector lies on axis 1 of the scatter indices. Their conditions `wf` are decided on literal
    shapes. -/
abbrev scatterB (N V D E : ℕ)
    (wf : ScatterDims.WF ⟨3, ![N, V, D]⟩ ⟨2, ![E, 1]⟩ ⟨3, ![N, E, D]⟩ [0, 2] [1] [1] 1) :
    ScatterDims ⟨3, ![N, V, D]⟩ ⟨2, ![E, 1]⟩ ⟨3, ![N, E, D]⟩ where
  updateWindowDims := [0, 2]
  insertedWindowDims := [1]
  scatterDimsToOperandDims := [1]
  indexVectorDim := 1
  wf := wf

section
variable {N V D E w : ℕ} (wf : ScatterDims.WF ⟨3, ![N, V, D]⟩ ⟨2, ![E, 1]⟩ ⟨3, ![N, E, D]⟩ [0, 2] [1] [1] 1)

/-- On the operand's axis 0 the window starts at `0`: the index names the row axis (axis 1) only. -/
theorem startB0 (idx : IVec ⟨2, ![E, 1]⟩ w) (n : Fin N) (j : Fin E) (d : Fin D) :
    (scatterB N V D E wf).start (ix3 n j d) idx 0 = 0 := by
  unfold ScatterDims.start
  rw [dif_neg (show ¬ (0 : Fin 3) ∈ (scatterB N V D E wf).scatterDimsToOperandDims from
    (show (0 : Fin 3) ∉ [(1 : Fin 3)] by decide))]

/-- On the operand's row axis (axis 1) an update's window starts at its row number `idx[j, 0]`, read as a signed
    integer. -/
theorem startB1 (idx : IVec ⟨2, ![E, 1]⟩ w) (n : Fin N) (j : Fin E) (d : Fin D) :
    (scatterB N V D E wf).start (ix3 n j d) idx 1 = (idx (ix2 j (0 : Fin 1))).toInt := by
  unfold ScatterDims.start
  rw [dif_pos (show (1 : Fin 3) ∈ (scatterB N V D E wf).scatterDimsToOperandDims from List.mem_singleton.mpr rfl)]
  congr 2
  funext b
  refine Fin.ext ?_
  match b with
  | ⟨0, _⟩ => rfl
  | ⟨1, _⟩ => rfl

/-- On the operand's axis 2 the window starts at `0`. -/
theorem startB2 (idx : IVec ⟨2, ![E, 1]⟩ w) (n : Fin N) (j : Fin E) (d : Fin D) :
    (scatterB N V D E wf).start (ix3 n j d) idx 2 = 0 := by
  unfold ScatterDims.start
  rw [dif_neg (show ¬ (2 : Fin 3) ∈ (scatterB N V D E wf).scatterDimsToOperandDims from
    (show (2 : Fin 3) ∉ [(1 : Fin 3)] by decide))]

/-- On the operand's axis 0 the window coordinate is the update's coordinate on its axis 0. -/
theorem windowB0 (n : Fin N) (j : Fin E) (d : Fin D) : (scatterB N V D E wf).window (ix3 n j d) 0 = n.val := by
  unfold ScatterDims.window
  rw [dif_pos (show (0 : Fin 3) ∈ (scatterB N V D E wf).sKept from
    (show (0 : Fin 3) ∈ (List.finRange 3).filter (fun a => a ∉ [(1 : Fin 3)]) by decide))]
  rfl

/-- The row axis (axis 1) is inserted: the window coordinate there is `0`. -/
theorem windowB1 (n : Fin N) (j : Fin E) (d : Fin D) : (scatterB N V D E wf).window (ix3 n j d) 1 = 0 := by
  unfold ScatterDims.window
  rw [dif_neg (show ¬ (1 : Fin 3) ∈ (scatterB N V D E wf).sKept from
    (show (1 : Fin 3) ∉ (List.finRange 3).filter (fun a => a ∉ [(1 : Fin 3)]) by decide))]

/-- On the operand's axis 2 the window coordinate is the update's coordinate on its axis 2. -/
theorem windowB2 (n : Fin N) (j : Fin E) (d : Fin D) : (scatterB N V D E wf).window (ix3 n j d) 2 = d.val := by
  unfold ScatterDims.window
  rw [dif_pos (show (2 : Fin 3) ∈ (scatterB N V D E wf).sKept from
    (show (2 : Fin 3) ∈ (List.finRange 3).filter (fun a => a ∉ [(1 : Fin 3)]) by decide))]
  rfl

/-- WHERE AN UPDATE LANDS, ARRANGEMENT B: update element `(n, j, d)` lands on operand element `(n', v, d')` exactly
    when the row number `idx[j, 0]`, read as a signed integer and not clamped, is `v`, and the other two coordinates
    are the same, `n = n'` and `d = d'`. A row number outside `[0, V)` lands nowhere: the update is dropped. -/
theorem resultIdx_B (idx : IVec ⟨2, ![E, 1]⟩ w) (n : Fin N) (j : Fin E) (d : Fin D) (n' : Fin N) (v : Fin V)
    (d' : Fin D) :
    (scatterB N V D E wf).resultIdx? (ix3 n j d) idx = some (ix3 n' v d') ↔
      ((idx (ix2 j (0 : Fin 1))).toInt = (v.val : ℤ) ∧ n = n' ∧ d = d') := by
  have e0 : (scatterB N V D E wf).start (ix3 n j d) idx 0 + ((scatterB N V D E wf).window (ix3 n j d) 0 : ℕ)
      = (n.val : ℤ) := by
    rw [startB0, windowB0]; simp
  have e1 : (scatterB N V D E wf).start (ix3 n j d) idx 1 + ((scatterB N V D E wf).window (ix3 n j d) 1 : ℕ)
      = (idx (ix2 j (0 : Fin 1))).toInt := by
    rw [startB1, windowB1]; simp
  have e2 : (scatterB N V D E wf).start (ix3 n j d) idx 2 + ((scatterB N V D E wf).window (ix3 n j d) 2 : ℕ)
      = (d.val : ℤ) := by
    rw [startB2, windowB2]; simp
  unfold ScatterDims.resultIdx?
  constructor
  · intro h
    split at h
    · next hall =>
      have h' := Option.some.inj h
      have h0 : ((scatterB N V D E wf).start (ix3 n j d) idx 0
          + ((scatterB N V D E wf).window (ix3 n j d) 0 : ℕ)).toNat = n'.val := congrArg (fun i => (i 0).val) h'
      have h1 : ((scatterB N V D E wf).start (ix3 n j d) idx 1
          + ((scatterB N V D E wf).window (ix3 n j d) 1 : ℕ)).toNat = v.val := congrArg (fun i => (i 1).val) h'
      have h2 : ((scatterB N V D E wf).start (ix3 n j d) idx 2
          + ((scatterB N V D E wf).window (ix3 n j d) 2 : ℕ)).toNat = d'.val := congrArg (fun i => (i 2).val) h'
      have p1 := (hall 1).1
      rw [e0] at h0
      rw [e1] at h1 p1
      rw [e2] at h2
      refine ⟨by omega, Fin.ext (by omega), Fin.ext (by omega)⟩
    · exact absurd h (by simp)
  · rintro ⟨hs, rfl, rfl⟩
    have hall : ∀ a : Fin 3,
        0 ≤ (scatterB N V D E wf).start (ix3 n j d) idx a + ((scatterB N V D E wf).window (ix3 n j d) a : ℕ) ∧
        (scatterB N V D E wf).start (ix3 n j d) idx a + ((scatterB N V D E wf).window (ix3 n j d) a : ℕ)
          < ((⟨3, ![N, V, D]⟩ : Shape).size a : ℕ) := by
      intro a
      match a with
      | ⟨0, _⟩ =>
        have := n.isLt
        show 0 ≤ (scatterB N V D E wf).start (ix3 n j d) idx 0 + ((scatterB N V D E wf).window (ix3 n j d) 0 : ℕ) ∧
          (scatterB N V D E wf).start (ix3 n j d) idx 0 + ((scatterB N V D E wf).window (ix3 n j d) 0 : ℕ) < (N : ℤ)
        rw [e0]; omega
      | ⟨1, _⟩ =>
        have := v.isLt
        show 0 ≤ (scatterB N V D E wf).start (ix3 n j d) idx 1 + ((scatterB N V D E wf).window (ix3 n j d) 1 : ℕ) ∧
          (scatterB N V D E wf).start (ix3 n j d) idx 1 + ((scatterB N V D E wf).window (ix3 n j d) 1 : ℕ) < (V : ℤ)
        rw [e1, hs]; omega
      | ⟨2, _⟩ =>
        have := d.isLt
        show 0 ≤ (scatterB N V D E wf).start (ix3 n j d) idx 2 + ((scatterB N V D E wf).window (ix3 n j d) 2 : ℕ) ∧
          (scatterB N V D E wf).start (ix3 n j d) idx 2 + ((scatterB N V D E wf).window (ix3 n j d) 2 : ℕ) < (D : ℤ)
        rw [e2]; omega
    rw [dif_pos hall]
    congr 1
    funext a
    refine Fin.ext ?_
    match a with
    | ⟨0, _⟩ =>
      show ((scatterB N V D E wf).start (ix3 n j d) idx 0
        + ((scatterB N V D E wf).window (ix3 n j d) 0 : ℕ)).toNat = n.val
      rw [e0]; omega
    | ⟨1, _⟩ =>
      show ((scatterB N V D E wf).start (ix3 n j d) idx 1
        + ((scatterB N V D E wf).window (ix3 n j d) 1 : ℕ)).toNat = v.val
      rw [e1, hs]; omega
    | ⟨2, _⟩ =>
      show ((scatterB N V D E wf).start (ix3 n j d) idx 2
        + ((scatterB N V D E wf).window (ix3 n j d) 2 : ℕ)).toNat = d.val
      rw [e2]; omega

/-- THE SEGMENT SUM OF ARRANGEMENT B READ AT `(n, v, d)`: the operand there plus the sum, over the update rows `j`
    whose row number `idx[j, 0]` (signed, not clamped) is `v`, of the update's element `(n, j, d)`. -/
theorem scatterB_apply (x : (⟨3, ![N, V, D]⟩ : Shape).Idx → EReal) (idx : IVec ⟨2, ![E, 1]⟩ w)
    (upd : (⟨3, ![N, E, D]⟩ : Shape).Idx → EReal) (n : Fin N) (v : Fin V) (d : Fin D) :
    Ideal.hostScatterAdd (scatterB N V D E wf) x idx upd (ix3 n v d)
      = x (ix3 n v d) + ∑ j : Fin E,
          (if (idx (ix2 j (0 : Fin 1))).toInt = (v.val : ℤ) then upd (ix3 n j d) else 0) := by
  unfold Ideal.hostScatterAdd
  congr 1
  rw [Finset.sum_filter, sum_idx3, Finset.sum_comm]
  refine Finset.sum_congr rfl (fun j _ => ?_)
  simp only [resultIdx_B]
  by_cases h : (idx (ix2 j (0 : Fin 1))).toInt = (v.val : ℤ)
  · simp [h, ite_and]
  · simp [h]

end

end Cert.LibScatter3

end
-- ==== Proof.LibStackSlab.lean ====
/-
  One matrix of a stack, read at an entry.

  A stack X of N matrices of a × b (shape [N, a, b]) cut to its n-th matrix (the slice [n : n+1, 0 : a, 0 : b], shape
  [1, a, b]) and stripped of the unit axis (reshaped to [a, b]) reads, at (k, d), the stack at (n, k, d) — how `T[n]`
  of a rank-3 array reads at an index.
-/
import Idealize.ShloMosaic.Lib.ValueLayout
import Idealize.ShloMosaic.Lib.Pipeline.Value

noncomputable section

namespace Cert.LibStackSlab

open Idealize.ShloMosaic Idealize.ShloMosaic.ValueIdx

/-- Matrix n of a stack of N matrices, cut out at offset `off = n` along the leading axis and reshaped to a matrix,
    read at (k, d): the stack at (n, k, d). -/
theorem stackSlab_apply {α : Type} {N a b : ℕ} (off : Nat) (n : Fin N) (hn : n.val = off)
    (X : (⟨3, ![N, a, b]⟩ : Shape).Idx → α)
    (h : (⟨3, ![N, a, b]⟩ : Shape).Slices ![off, 0, 0] ⟨3, ![1, a, b]⟩)
    (h' : (⟨3, ![1, a, b]⟩ : Shape).ShapeCasts ⟨2, ![a, b]⟩) (k : Fin a) (d : Fin b) :
    shapeCast ⟨2, ![a, b]⟩ (extractStridedSlice ⟨3, ![1, a, b]⟩ ![off, 0, 0] X h) h' (ix2 k d) = X (ix3 n k d) := by
  refine (shapeCast_1ab_ab_apply _ h' k d).trans ?_
  refine extractStridedSlice_apply ![off, 0, 0] X h (ix3 (0 : Fin 1) k d) (ix3 n k d) fun ax => ?_
  match ax with
  | ⟨0, _⟩ => show n.val = off + 0; omega
  | ⟨1, _⟩ => show k.val = 0 + k.val; omega
  | ⟨2, _⟩ => show d.val = 0 + d.val; omega

end Cert.LibStackSlab

end
-- ==== Proof.RefRead.lean ====
/-
  The reference's layer read at an index.

  Each array operation of the reference's layer is read at one index (n, v, e) and the result is matched with the
  coordinate functions of the layer's mathematics:
  * the dense part: a product x · Wᵀ contracting the last axis of both operands is, at (n, v, e), the inner product of
    x's row (n, v) with W's row e; the aggregation is a row gather along the node axis (start index read signed and
    clamped after the negative-index wrap), a product with the edge weight, and a segment sum into zeros along the
    node axis (destination read signed, not clamped);
  * the normalisation: a sum over the (graph, node) axes from zero is the double sum over nodes and graphs; a length-C
    vector laid along the last axis and broadcast over the array reads the vector at the last coordinate; the guard
    "count − 0 > 0" of the variance routine holds, so the routine returns the quotient, and its divisor is the count;
  * a layer's weight or parameter is the stack read at the layer's leading coordinate.
  The count word is 2¹⁸ = 262144 and the epsilon word a positive real.
-/
import proofs.«163542_j78460462563808_2_alg».proof.Proof.RefLayer
import proofs.«163542_j78460462563808_2_alg».proof.Proof.EdgeIdx
import proofs.«163542_j78460462563808_2_alg».proof.Proof.NormLaw
import proofs.«163542_j78460462563808_2_alg».proof.Proof.LibScatter3
import proofs.«163542_j78460462563808_2_alg».proof.Proof.LibStackSlab
import Idealize.ShloMosaic.Lib.IdealHost
import Idealize.ShloMosaic.Lib.Pipeline.Value

noncomputable section

open scoped BigOperators

namespace Cert.ReferenceIdeal.RefRead

open Cert.ReferenceIdeal Cert.ReferenceIdeal.RefLayer Cert.Gnn Idealize.ShloMosaic Idealize.ShloMosaic.ValueIdx
open Facts₀ Facts

theorem count_word : Ideal.ofBits .f32 0x48800000#32 = ((262144 : ℝ) : EReal) := by
  simp [Ideal.ofBits, Ideal.ieee, -EReal.coe_mul] <;> norm_num

theorem eps_word : ∃ ε : ℝ, 0 < ε ∧ Ideal.ofBits .f32 0x3727C5AC#32 = (ε : EReal) := by
  refine ⟨((2 ^ 23 + 2606508 : ℕ) : ℝ) * (2 : ℝ) ^ (-40 : ℤ), by positivity, ?_⟩
  simp [Ideal.ofBits, Ideal.ieee, -EReal.coe_mul] <;> norm_num

section General
variable {α : Type} {B T C : ℕ}

/-- A length-C vector placed on the last axis of a [1, 1, C] row reads, at (0, 0, c), the vector at c. -/
theorem vec_to_row (z : (⟨1, ![C]⟩ : Shape).Idx → α) (h : (⟨1, ![C]⟩ : Shape).BroadcastsInDim ⟨3, ![1, 1, C]⟩ ![2]) (c : Fin C) :
    broadcastInDim ⟨3, ![1, 1, C]⟩ ![2] h z (ix3 (0 : Fin 1) (0 : Fin 1) c) = z (ix1 c) := by
  refine broadcastInDim_apply _ h z _ (ix1 c) fun a => ?_
  match a with
  | ⟨0, _⟩ =>
    show c.val = if C = 1 then 0 else c.val
    split
    · have := c.isLt; omega
    · rfl

/-- A [1, 1, C] row broadcast over a [B, T, C] array reads, at (n, t, c), the row at c. -/
theorem row_to_slab (w : (⟨3, ![1, 1, C]⟩ : Shape).Idx → α)
    (h : (⟨3, ![1, 1, C]⟩ : Shape).BroadcastsInDim ⟨3, ![B, T, C]⟩ ![0, 1, 2]) (n : Fin B) (t : Fin T) (c : Fin C) :
    broadcastInDim ⟨3, ![B, T, C]⟩ ![0, 1, 2] h w (ix3 n t c) = w (ix3 (0 : Fin 1) (0 : Fin 1) c) := by
  refine broadcastInDim_apply _ h w _ (ix3 (0 : Fin 1) (0 : Fin 1) c) fun a => ?_
  match a with
  | ⟨0, _⟩ => rfl
  | ⟨1, _⟩ => rfl
  | ⟨2, _⟩ =>
    show c.val = if C = 1 then 0 else c.val
    split
    · have := c.isLt; omega
    · rfl

/-- Dropping axes 0 and 1 keeps the last coordinate. -/
theorem drop01_val (h : (⟨3, ![B, T, C]⟩ : Shape).ReducesTo [0, 1] ⟨1, ![C]⟩) (i : (⟨3, ![B, T, C]⟩ : Shape).Idx) :
    (h.drop i (0 : Fin 1)).val = (i (2 : Fin 3)).val := rfl

theorem drop01_eq_iff (h : (⟨3, ![B, T, C]⟩ : Shape).ReducesTo [0, 1] ⟨1, ![C]⟩) (i : (⟨3, ![B, T, C]⟩ : Shape).Idx) (c : Fin C) :
    h.drop i = ix1 c ↔ (i (2 : Fin 3)).val = c.val := by
  constructor
  · intro e
    have := congrArg (fun j : (⟨1, ![C]⟩ : Shape).Idx => (j (0 : Fin 1)).val) e
    simpa [drop01_val] using this
  · intro e
    funext b
    match b with
    | ⟨0, _⟩ => exact Fin.ext ((drop01_val h i).trans e)

/-- The indices that drop to feature c, summed, are the (t, n) pairs, summed. -/
theorem sum_filter_drop01 {M : Type} [AddCommMonoid M] (h : (⟨3, ![B, T, C]⟩ : Shape).ReducesTo [0, 1] ⟨1, ![C]⟩)
    (x : (⟨3, ![B, T, C]⟩ : Shape).Idx → M) (c : Fin C) :
    ∑ i ∈ Finset.univ.filter (fun i => h.drop i = ix1 c), x i = ∑ t : Fin T, ∑ n : Fin B, x (ix3 n t c) := by
  rw [← Finset.sum_product' (s := (Finset.univ : Finset (Fin T))) (t := (Finset.univ : Finset (Fin B))) (f := fun t n => x (ix3 n t c))]
  refine Finset.sum_nbij' (fun i => ((i (1 : Fin 3) : Fin T), (i (0 : Fin 3) : Fin B))) (fun p => ix3 p.2 p.1 c) ?_ ?_ ?_ ?_ ?_
  · intro i _; exact Finset.mem_product.2 ⟨Finset.mem_univ _, Finset.mem_univ _⟩
  · intro p _; exact Finset.mem_filter.2 ⟨Finset.mem_univ _, (drop01_eq_iff h _ c).2 rfl⟩
  · intro i hi
    have e := (drop01_eq_iff h i c).1 (Finset.mem_filter.1 hi).2
    funext a
    match a with
    | ⟨0, _⟩ => rfl
    | ⟨1, _⟩ => rfl
    | ⟨2, _⟩ => exact Fin.ext e.symm
  · intro p _; rfl
  · intro i hi
    have e := (drop01_eq_iff h i c).1 (Finset.mem_filter.1 hi).2
    refine congrArg x ?_
    funext a
    match a with
    | ⟨0, _⟩ => rfl
    | ⟨1, _⟩ => rfl
    | ⟨2, _⟩ => exact Fin.ext e

/-- The host's float sum over axes 0 and 1 from a zero initial value, at feature c. -/
theorem hostReduceAdd01 (y : FVec Ideal ⟨3, ![B, T, C]⟩ .f32) (h : (⟨3, ![B, T, C]⟩ : Shape).ReducesTo [0, 1] ⟨1, ![C]⟩)
    (hu : 0 < (⟨0, ![]⟩ : Shape).numel) (c : Fin C) :
    Host.reduceAdd y (constant ⟨0, ![]⟩ .f32 0x00000000#32) h hu (ix1 c) = ∑ t : Fin T, ∑ n : Fin B, y (ix3 n t c) := by
  rw [hostReduceAdd_apply]
  unfold Ideal.hostReduceAdd
  rw [constant_apply, Ideal.ofBits_zero_f32, zero_add]
  exact sum_filter_drop01 h y c

end General

section GeneralLin
variable {α : Type} {B T C E K Nn : ℕ}

/-- A length-E vector laid down an [E, 1] column reads, at (j, 0), the vector at j. -/
theorem vec_to_col (z : (⟨1, ![E]⟩ : Shape).Idx → α) (h : (⟨1, ![E]⟩ : Shape).BroadcastsInDim ⟨2, ![E, 1]⟩ ![0]) (j : Fin E) :
    broadcastInDim ⟨2, ![E, 1]⟩ ![0] h z (ix2 j (0 : Fin 1)) = z (ix1 j) := by
  refine broadcastInDim_apply _ h z _ (ix1 j) fun a => ?_
  match a with
  | ⟨0, _⟩ =>
    show j.val = if E = 1 then 0 else j.val
    split
    · have := j.isLt; omega
    · rfl

/-- A length-E vector laid along the middle axis of [1, E, 1] and broadcast over [B, E, C] reads, at (n, j, c), the
    vector at j. -/
theorem edge_to_slab (z : (⟨1, ![E]⟩ : Shape).Idx → α) (h' : (⟨1, ![E]⟩ : Shape).BroadcastsInDim ⟨3, ![1, E, 1]⟩ ![1])
    (h : (⟨3, ![1, E, 1]⟩ : Shape).BroadcastsInDim ⟨3, ![B, E, C]⟩ ![0, 1, 2]) (n : Fin B) (j : Fin E) (c : Fin C) :
    broadcastInDim ⟨3, ![B, E, C]⟩ ![0, 1, 2] h (broadcastInDim ⟨3, ![1, E, 1]⟩ ![1] h' z) (ix3 n j c) = z (ix1 j) := by
  refine (broadcastInDim_apply _ h _ _ (ix3 (0 : Fin 1) j (0 : Fin 1)) fun a => ?_).trans
    (broadcastInDim_apply _ h' z _ (ix1 j) fun a => ?_)
  · match a with
    | ⟨0, _⟩ => rfl
    | ⟨1, _⟩ =>
      show j.val = if E = 1 then 0 else j.val
      split
      · have := j.isLt; omega
      · rfl
    | ⟨2, _⟩ => rfl
  · match a with
    | ⟨0, _⟩ =>
      show j.val = if E = 1 then 0 else j.val
      split
      · have := j.isLt; omega
      · rfl

/-- A [T, C] plane broadcast over [B, T, C] reads, at (n, t, c), the plane at (t, c). -/
theorem plane_to_slab (w : (⟨2, ![T, C]⟩ : Shape).Idx → α) (h : (⟨2, ![T, C]⟩ : Shape).BroadcastsInDim ⟨3, ![B, T, C]⟩ ![1, 2])
    (n : Fin B) (t : Fin T) (c : Fin C) :
    broadcastInDim ⟨3, ![B, T, C]⟩ ![1, 2] h w (ix3 n t c) = w (ix2 t c) := by
  refine broadcastInDim_apply _ h w _ (ix2 t c) fun a => ?_
  match a with
  | ⟨0, _⟩ =>
    show t.val = if T = 1 then 0 else t.val
    split
    · have := t.isLt; omega
    · rfl
  | ⟨1, _⟩ =>
    show c.val = if C = 1 then 0 else c.val
    split
    · have := c.isLt; omega
    · rfl

/-- The dimension numbers of x · Wᵀ for x : [B, T, K] and W : [Nn, K]: contract the last axis of both. -/
abbrev dotNT (w : DotDims.WF ⟨3, ![B, T, K]⟩ ⟨2, ![Nn, K]⟩ ⟨3, ![B, T, Nn]⟩ [2] [1] [0, 1] [0] [] []) :
    DotDims ⟨3, ![B, T, K]⟩ ⟨2, ![Nn, K]⟩ ⟨3, ![B, T, Nn]⟩ := ⟨[2], [1], [0, 1], [0], [], [], w⟩

/-- The host's product x · Wᵀ read at (n, t, e): the inner product of x's row (n, t) with W's row e. -/
theorem dotNT_apply {φ₁ φ₂ : FTy} (w : DotDims.WF ⟨3, ![B, T, K]⟩ ⟨2, ![Nn, K]⟩ ⟨3, ![B, T, Nn]⟩ [2] [1] [0, 1] [0] [] [])
    (prec : Option ContractPrecision) (X : FVec Ideal ⟨3, ![B, T, K]⟩ φ₁) (W : FVec Ideal ⟨2, ![Nn, K]⟩ φ₂)
    (n : Fin B) (t : Fin T) (e : Fin Nn) :
    Host.dotGeneral (dotNT w) prec X W (ix3 n t e) = ∑ d : Fin K, X (ix3 n t d) * W (ix2 e d) := by
  show FloatOps.dotGeneral (dotNT w) prec .single X W (ix3 n t e) = _
  rw [Ideal.dotGeneral_apply, ← Equiv.sum_comp (contrEquiv1 (dotNT w) K rfl rfl).symm]
  refine Finset.sum_congr rfl fun c _ => ?_
  have c2 := contrEquiv1_symm_val (dotNT w) K rfl rfl c
  have l2 : (dotNT w).lhsIdx (ix3 n t e) ((contrEquiv1 (dotNT w) K rfl rfl).symm c) = ix3 n t c := by
    funext ax; apply Fin.ext
    match ax with
    | ⟨0, _⟩ =>
      unfold DotDims.lhsIdx
      rw [dif_neg (show ¬(⟨0, _⟩ : Fin 3) ∈ (dotNT w).lhsBatch from List.not_mem_nil),
        dif_pos (show (⟨0, _⟩ : Fin 3) ∈ (dotNT w).lhsNonContracting from List.mem_cons.mpr (Or.inl rfl))]
      rfl
    | ⟨1, _⟩ =>
      unfold DotDims.lhsIdx
      rw [dif_neg (show ¬(⟨1, _⟩ : Fin 3) ∈ (dotNT w).lhsBatch from List.not_mem_nil),
        dif_pos (show (⟨1, _⟩ : Fin 3) ∈ (dotNT w).lhsNonContracting from List.mem_cons.mpr (Or.inr (List.mem_cons.mpr (Or.inl rfl))))]
      rfl
    | ⟨2, _⟩ => exact ((dotNT w).lhsIdx_val_of_single rfl _ _).trans c2
  have r2 : (dotNT w).rhsIdx (ix3 n t e) ((contrEquiv1 (dotNT w) K rfl rfl).symm c) = ix2 e c := by
    funext ax; apply Fin.ext
    match ax with
    | ⟨0, _⟩ =>
      unfold DotDims.rhsIdx
      rw [dif_neg (show ¬(⟨0, _⟩ : Fin 2) ∈ (dotNT w).rhsBatch from List.not_mem_nil),
        dif_pos (show (⟨0, _⟩ : Fin 2) ∈ (dotNT w).rhsNonContracting from List.mem_cons.mpr (Or.inl rfl))]
      rfl
    | ⟨1, _⟩ => exact ((dotNT w).rhsIdx_val_of_single rfl _ _).trans c2
  rw [l2, r2]

end GeneralLin

section Norm
variable [Facts]

/-- A length-C vector laid along the last axis and broadcast over a [B, T, C] array reads, at (n, t, c), the vector at c. -/
theorem vec_to_slab {α : Type} {B T C : ℕ} (z : (⟨1, ![C]⟩ : Shape).Idx → α)
    (h' : (⟨1, ![C]⟩ : Shape).BroadcastsInDim ⟨3, ![1, 1, C]⟩ ![2])
    (h : (⟨3, ![1, 1, C]⟩ : Shape).BroadcastsInDim ⟨3, ![B, T, C]⟩ ![0, 1, 2]) (n : Fin B) (t : Fin T) (c : Fin C) :
    broadcastInDim ⟨3, ![B, T, C]⟩ ![0, 1, 2] h (broadcastInDim ⟨3, ![1, 1, C]⟩ ![2] h' z) (ix3 n t c) = z (ix1 c) :=
  (row_to_slab _ h n t c).trans (vec_to_row z h' c)

/-- The count minus the integer word 0 converted is the count. -/
theorem count_sub_zero :
    Ideal.ofBits .f32 0x48800000#32 - (((0#32 : BitVec 32).toInt : ℝ) : EReal) = Ideal.ofBits .f32 0x48800000#32 := by
  simp

/-- The guard "count − 0 > 0" holds. -/
theorem guard_true :
    Ideal.cmp .ogt (Ideal.ofBits .f32 0x48800000#32 - (((0#32 : BitVec 32).toInt : ℝ) : EReal)) (Ideal.ofBits .f32 0x00000000#32) = 1#1 := by
  rw [count_sub_zero, count_word, Ideal.ofBits_zero_f32]
  have h : (0 : EReal) < ((262144 : ℝ) : EReal) := by exact_mod_cast (by norm_num : (0 : ℝ) < 262144)
  simp [Ideal.cmp, h]

theorem meanOf_apply (y : FVec Ideal S16x16384x128 .f32) (e : Fin 128) :
    meanOf (F := Ideal) y (ix1 e)
      = Ideal.div (tot (fun n v e => y (ix3 n v e)) e) (Ideal.ofBits .f32 0x48800000#32) := by
  unfold meanOf
  rw [hostDivf_apply, hostReduceAdd01, broadcastInDim_scalar_apply, constant_apply]
  rfl

/-- The mean as the variance routine spells it (through [1, 1, 128] rows), at (n, v, e). -/
theorem innerMean_apply (y : FVec Ideal S16x16384x128 .f32) (n : Fin 16) (v : Fin 16384) (e : Fin 128) :
    broadcastInDim S16x16384x128 ![0, 1, 2] bcast_S1x1x128_S16x16384x128_0_1_2
        (Host.divf
          (broadcastInDim S1x1x128 ![2] bcast_S128_S1x1x128_2
            (Host.reduceAdd y (constant S_ .f32 0x00000000#32) reducesTo_S16x16384x128_S128_d0_1 h_S_))
          (broadcastInDim S1x1x128 ![] bcast_S_S1x1x128 (constant S_ .f32 0x48800000#32))) (ix3 n v e)
      = Ideal.div (tot (fun n v e => y (ix3 n v e)) e) (Ideal.ofBits .f32 0x48800000#32) := by
  rw [row_to_slab, hostDivf_apply, vec_to_row, hostReduceAdd01, broadcastInDim_scalar_apply, constant_apply]
  rfl

theorem varOf_apply (y : FVec Ideal S16x16384x128 .f32) (e : Fin 128) :
    varOf (F := Ideal) y (ix1 e)
      = Ideal.div (tot (fun n' v' e' =>
            (y (ix3 n' v' e') - Ideal.div (tot (fun n v e => y (ix3 n v e)) e') (Ideal.ofBits .f32 0x48800000#32))
              * (y (ix3 n' v' e') - Ideal.div (tot (fun n v e => y (ix3 n v e)) e') (Ideal.ofBits .f32 0x48800000#32))) e)
          (Ideal.ofBits .f32 0x48800000#32) := by
  unfold varOf
  rw [select_apply, broadcastInDim_scalar_apply]
  have hg : cmpf (F := Ideal) .ogt (subf (constant (F := Ideal) S_ .f32 0x48800000#32) (sitofp .f32 (constantI S_ 32 0#32)))
      (constant (F := Ideal) S_ .f32 0x00000000#32) ix0 = 1#1 := guard_true
  rw [hg, select_one, hostDivf_apply, hostReduceAdd01, broadcastInDim_scalar_apply]
  have hd : subf (constant (F := Ideal) S_ .f32 0x48800000#32) (sitofp .f32 (constantI S_ 32 0#32)) ix0
      = Ideal.ofBits .f32 0x48800000#32 := count_sub_zero
  rw [hd]
  unfold tot
  refine congrArg (fun s => Ideal.div s (Ideal.ofBits .f32 0x48800000#32)) ?_
  refine Finset.sum_congr rfl fun t _ => Finset.sum_congr rfl fun n _ => ?_
  rw [mulf_apply, subf_apply, innerMean_apply]
  rfl

theorem normPart_apply (y : FVec Ideal S16x16384x128 .f32) (g b : FVec Ideal S128 .f32) (n : Fin 16) (v : Fin 16384) (e : Fin 128) :
    normPart (F := Ideal) y g b (ix3 n v e)
      = refNorm (Ideal.ofBits .f32 0x48800000#32) (Ideal.ofBits .f32 0x3727C5AC#32) (fun n v e => y (ix3 n v e))
          (fun e => g (ix1 e)) (fun e => b (ix1 e)) n v e := by
  unfold normPart
  rw [maximumf_apply, addf_apply, mulf_apply, mulf_apply, subf_apply, vec_to_slab, vec_to_slab, vec_to_slab, vec_to_slab,
    broadcastInDim_scalar_apply, constant_apply, Ideal.ofBits_zero_f32, meanOf_apply]
  have hr : Host.rsqrt (addf (varOf (F := Ideal) y) (broadcastInDim S128 ![] bcast_S_S128 (constant (F := Ideal) S_ .f32 0x3727C5AC#32))) (ix1 e)
      = Ideal.rsqrt (varOf (F := Ideal) y (ix1 e) + Ideal.ofBits .f32 0x3727C5AC#32) := by
    show Ideal.rsqrt (varOf (F := Ideal) y (ix1 e) + broadcastInDim S128 ![] bcast_S_S128 (constant (F := Ideal) S_ .f32 0x3727C5AC#32) (ix1 e)) = _
    rw [broadcastInDim_scalar_apply, constant_apply]
  rw [hr, varOf_apply]
  rfl

end Norm

section Lin
variable [Facts]

open Cert.LibScatter3

/-- A scalar word broadcast to any shape is the constant function. -/
theorem bcast_word {T : Shape} (h : (⟨0, ![]⟩ : Shape).BroadcastsInDim T ![]) (w : BitVec 32) :
    broadcastInDim T ![] h (constantI ⟨0, ![]⟩ 32 w) = fun _ => w :=
  funext fun j => broadcastInDim_scalar_apply h _ j

/-- The host's segment sum at the exact reading. -/
theorem hostScatterAdd_read {s si u : Shape} {w : ℕ} (d : ScatterDims s si u) (x : FVec Ideal s .f32) (idx : IVec si w)
    (upd : FVec Ideal u .f32) (i : s.Idx) : Host.scatterAdd d x idx upd i = Ideal.hostScatterAdd d x idx upd i := rfl

/-- The row gather read at (n, j, d), the row named as an element of Fin V. -/
theorem gather_row {α : Type} {N V D E w : ℕ} (hV : 0 < V)
    (wf : GatherDims.WF ⟨3, ![N, V, D]⟩ ⟨2, ![E, 1]⟩ ⟨3, ![N, E, D]⟩ [0, 2] [1] [] [1] [] 1 ![N, 1, D])
    (x : (⟨3, ![N, V, D]⟩ : Shape).Idx → α) (idx : IVec ⟨2, ![E, 1]⟩ w) (n : Fin N) (j : Fin E) (d : Fin D) (s : Fin V)
    (hs : s.val = min (idx (ix2 j (0 : Fin 1))).toInt.toNat (V - 1)) :
    Host.gather (gatherB N V D E wf) x idx (ix3 n j d) = x (ix3 n s d) := by
  rw [gatherB_apply hV]
  exact congrArg (fun q => x (ix3 n q d)) (Fin.ext hs.symm)

/-- The gather's start-index column at (j, 0): the wrapped source word of edge j. -/
theorem startIdx_apply (i1 : IVec S65536 32) (j : Fin 65536) :
    broadcastInDim S65536x1 ![0] bcast_S65536_S65536x1_0
        (select (cmpi .slt i1 (broadcastInDim S65536 ![] bcast_S_S65536 (constantI S_ 32 0#32)))
          (addi i1 (broadcastInDim S65536 ![] bcast_S_S65536 (constantI S_ 32 16384#32))) i1) (ix2 j (0 : Fin 1))
      = wrapped 16384#32 i1 (ix1 j) := by
  rw [vec_to_col, bcast_word, bcast_word]
  rfl

/-- The neighbour aggregation of the reference read at (n, v, d). -/
theorem agg_apply (x : FVec Ideal S16x16384x128 .f32) (i1 i2 : IVec S65536 32) (a : FVec Ideal S65536 .f32)
    (n : Fin 16) (v : Fin 16384) (d : Fin 128) :
    Host.scatterAdd scatter_S16x16384x128_S65536x1_S16x65536x128_02_1_1_1
        (broadcastInDim S16x16384x128 ![1, 2] bcast_S16384x128_S16x16384x128_1_2
          (broadcastInDim S16384x128 ![] bcast_S_S16384x128 (constant (F := Ideal) S_ .f32 0x00000000#32)))
        (broadcastInDim S65536x1 ![0] bcast_S65536_S65536x1_0 i2)
        (mulf
          (Host.gather gather_S16x16384x128_S65536x1_S16x65536x128_02_1_n_n_1_1_161128 x
            (broadcastInDim S65536x1 ![0] bcast_S65536_S65536x1_0
              (select (cmpi .slt i1 (broadcastInDim S65536 ![] bcast_S_S65536 (constantI S_ 32 0#32)))
                (addi i1 (broadcastInDim S65536 ![] bcast_S_S65536 (constantI S_ 32 16384#32))) i1)))
          (broadcastInDim S16x65536x128 ![0, 1, 2] bcast_S1x65536x1_S16x65536x128_0_1_2
            (broadcastInDim S1x65536x1 ![1] bcast_S65536_S1x65536x1_1 a))) (ix3 n v d)
      = nei (fun n v d => x (ix3 n v d)) (srcOf 16384 (by decide) 16384#32 i1) (dstOf i2) (fun j => a (ix1 j)) n v d := by
  have hs : scatter_S16x16384x128_S65536x1_S16x65536x128_02_1_1_1
      = scatterB 16 16384 128 65536 scatter_S16x16384x128_S65536x1_S16x65536x128_02_1_1_1_wf := rfl
  have hg : gather_S16x16384x128_S65536x1_S16x65536x128_02_1_n_n_1_1_161128
      = gatherB 16 16384 128 65536 gather_S16x16384x128_S65536x1_S16x65536x128_02_1_n_n_1_1_161128_wf := rfl
  rw [hostScatterAdd_read, hs, scatterB_apply, plane_to_slab, broadcastInDim_scalar_apply, constant_apply,
    Ideal.ofBits_zero_f32, zero_add]
  unfold nei
  refine Finset.sum_congr rfl fun j _ => ?_
  rw [vec_to_col, mulf_apply, hg,
    gather_row (by decide) _ x _ n j d (srcOf 16384 (by decide) 16384#32 i1 j)
      (by rw [startIdx_apply]; rfl),
    edge_to_slab]
  rfl

theorem linPart_apply (x : FVec Ideal S16x16384x128 .f32) (i1 i2 : IVec S65536 32) (a : FVec Ideal S65536 .f32)
    (ws wn : FVec Ideal S128x128 .f32) (n : Fin 16) (v : Fin 16384) (e : Fin 128) :
    linPart (F := Ideal) x i1 i2 a ws wn (ix3 n v e)
      = lin (fun n v d => x (ix3 n v d))
          (nei (fun n v d => x (ix3 n v d)) (srcOf 16384 (by decide) 16384#32 i1) (dstOf i2) (fun j => a (ix1 j)))
          (fun e d => ws (ix2 e d)) (fun e d => wn (ix2 e d)) n v e := by
  have hD : dot_S16x16384x128_S128x128_S16x16384x128_2_1_01_0_n_n
      = dotNT dot_S16x16384x128_S128x128_S16x16384x128_2_1_01_0_n_n_wf := rfl
  unfold linPart
  rw [addf_apply, hD, dotNT_apply, dotNT_apply]
  simp only [lin]
  refine congrArg (fun s => (∑ d : Fin 128, x (ix3 n v d) * ws (ix2 e d)) + s) ?_
  refine Finset.sum_congr rfl fun d _ => ?_
  rw [agg_apply]

end Lin

section Cut
variable [Facts]

theorem wOf0_apply (w : FVec Ideal S2x128x128 .f32) (e d : Fin 128) :
    wOf0 (F := Ideal) w (ix2 e d) = w (ix3 (0 : Fin 2) e d) := by
  unfold wOf0
  exact Cert.LibStackSlab.stackSlab_apply 0 (0 : Fin 2) rfl w _ _ e d

theorem wOf1_apply (w : FVec Ideal S2x128x128 .f32) (e d : Fin 128) :
    wOf1 (F := Ideal) w (ix2 e d) = w (ix3 (1 : Fin 2) e d) := by
  unfold wOf1
  exact Cert.LibStackSlab.stackSlab_apply 1 (1 : Fin 2) rfl w _ _ e d

/-- Row n of a stack of N vectors of length a, cut out and stripped of the unit axis, read at k. -/
theorem stackVec_apply {α : Type} {N a : ℕ} (off : ℕ) (n : Fin N) (hn : n.val = off) (X : (⟨2, ![N, a]⟩ : Shape).Idx → α)
    (h : (⟨2, ![N, a]⟩ : Shape).Slices ![off, 0] ⟨2, ![1, a]⟩) (h' : (⟨2, ![1, a]⟩ : Shape).ShapeCasts ⟨1, ![a]⟩) (k : Fin a) :
    shapeCast ⟨1, ![a]⟩ (extractStridedSlice ⟨2, ![1, a]⟩ ![off, 0] X h) h' (ix1 k) = X (ix2 n k) := by
  refine (shapeCast_apply _ h' _ (ix2 (0 : Fin 1) k) ?_).trans ?_
  · rw [Shape.rowMajor_val_two, Shape.rowMajor_val_one]
    show 0 * a + k.val = k.val
    rw [Nat.zero_mul, Nat.zero_add]
  · refine extractStridedSlice_apply ![off, 0] X h (ix2 (0 : Fin 1) k) (ix2 n k) fun ax => ?_
    match ax with
    | ⟨0, _⟩ => show n.val = off + 0; omega
    | ⟨1, _⟩ => show k.val = 0 + k.val; omega

theorem vOf0_apply (p : FVec Ideal S2x128 .f32) (e : Fin 128) : vOf0 (F := Ideal) p (ix1 e) = p (ix2 (0 : Fin 2) e) := by
  unfold vOf0
  exact stackVec_apply 0 (0 : Fin 2) rfl p _ _ e

theorem vOf1_apply (p : FVec Ideal S2x128 .f32) (e : Fin 128) : vOf1 (F := Ideal) p (ix1 e) = p (ix2 (1 : Fin 2) e) := by
  unfold vOf1
  exact stackVec_apply 1 (1 : Fin 2) rfl p _ _ e

end Cut

end Cert.ReferenceIdeal.RefRead

end
-- ==== Proof.KerLayer.lean ====
/-
  One layer of the kernel program as pure functions of arrays, spelt with the program's own host operations, in the
  node-major arrangement [16384, 16, 128] flattened to [262144, 128] rows (row = 16·node + graph):
  `flat` / `unflat` — the two reshapes; `aggFlat` — the neighbour aggregation (negative-index wrap, row gather along the
  node axis, edge weights, segment sum into zeros) flattened; `wK0` / `wK1` — a layer's dense weight cut out of the stack;
  `meanRow`, `scaleRow`, `shiftRow` — the batch statistics from the two [512,128] arrays of per-block partial sums, and
  the folded scale γ·rsqrt(var+ε) and shift β − mean·scale; `gK0` / `gK1` — a layer's affine parameter as a [1,128] row.
-/
import proofs.«163542_j78460462563808_2_alg».proof.KernelIdeal

noncomputable section

namespace Cert.KernelIdeal.KerLayer

open Cert.KernelIdeal Idealize.ShloMosaic
open Facts₀ Facts

variable {F : FTy → Type} [FloatOps F] [Facts]

/-- The node-major input: the (graph, node) axes exchanged. -/
def toNodeMajor (h : FVec F S16x16384x128 .f32) : FVec F S16384x16x128 .f32 :=
  transpose S16384x16x128 [1, 0, 2] h transposes_S16x16384x128_S16384x16x128_1_0_2
/-- Back to graph-major. -/
def toGraphMajor (o : FVec F S16384x16x128 .f32) : FVec F S16x16384x128 .f32 :=
  transpose S16x16384x128 [1, 0, 2] o transposes_S16384x16x128_S16x16384x128_1_0_2

/-- [16384,16,128] read as [262144,128] rows. -/
def flat (xt : FVec F S16384x16x128 .f32) : FVec F S262144x128 .f32 :=
  shapeCast S262144x128 xt shapeCasts_S16384x16x128_S262144x128
/-- [262144,128] rows read as [16384,16,128]. -/
def unflat (o : FVec F S262144x128 .f32) : FVec F S16384x16x128 .f32 :=
  shapeCast S16384x16x128 o shapeCasts_S262144x128_S16384x16x128

/-- The neighbour aggregation in the node-major arrangement, flattened to rows. -/
def aggFlat (xt : FVec F S16384x16x128 .f32) (i1 i2 : IVec S65536 32) (a : FVec F S65536 .f32) : FVec F S262144x128 .f32 :=
  shapeCast S262144x128
    (Host.scatterAdd scatter_S16384x16x128_S65536x1_S65536x16x128_12_0_0_1
      (broadcastInDim S16384x16x128 ![] bcast_S_S16384x16x128 (constant S_ .f32 0x00000000#32))
      (broadcastInDim S65536x1 ![0] bcast_S65536_S65536x1_0 i2)
      (mulf
        (Host.gather gather_S16384x16x128_S65536x1_S65536x16x128_12_0_n_n_0_1_116128 xt
          (broadcastInDim S65536x1 ![0] bcast_S65536_S65536x1_0
            (select (cmpi .slt i1 (broadcastInDim S65536 ![] bcast_S_S65536 (constantI S_ 32 0#32)))
              (addi i1 (broadcastInDim S65536 ![] bcast_S_S65536 (constantI S_ 32 16384#32))) i1)))
        (broadcastInDim S65536x16x128 ![0, 1, 2] bcast_S65536x1x1_S65536x16x128_0_1_2
          (broadcastInDim S65536x1x1 ![0] bcast_S65536_S65536x1x1_0 a))))
    shapeCasts_S16384x16x128_S262144x128

/-- Layer 0's / layer 1's dense weight as the kernel takes it. -/
def wK0 (w : FVec F S2x128x128 .f32) : FVec F S128x128 .bf16 :=
  truncf .bf16 (shapeCast S128x128 (extractStridedSlice S1x128x128 ![0, 0, 0] w slices_S2x128x128_S1x128x128_0_0_0) shapeCasts_S1x128x128_S128x128) bitsLt_bf16_f32
def wK1 (w : FVec F S2x128x128 .f32) : FVec F S128x128 .bf16 :=
  truncf .bf16 (shapeCast S128x128 (extractStridedSlice S1x128x128 ![1, 0, 0] w slices_S2x128x128_S1x128x128_1_0_0) shapeCasts_S1x128x128_S128x128) bitsLt_bf16_f32

/-- Layer 0's / layer 1's affine parameter as a [1,128] row. -/
def gK0 (p : FVec F S2x128 .f32) : FVec F S1x128 .f32 :=
  shapeCast S1x128 (shapeCast S128 (extractStridedSlice S1x128 ![0, 0] p slices_S2x128_S1x128_0_0) shapeCasts_S1x128_S128) shapeCasts_S128_S1x128
def gK1 (p : FVec F S2x128 .f32) : FVec F S1x128 .f32 :=
  shapeCast S1x128 (shapeCast S128 (extractStridedSlice S1x128 ![1, 0] p slices_S2x128_S1x128_1_0) shapeCasts_S1x128_S128) shapeCasts_S128_S1x128

/-- The [512,128] array of partial sums added over its rows and divided by the count, as a [1,128] row. -/
def meanRow (s : FVec F S512x128 .f32) : FVec F S1x128 .f32 :=
  shapeCast S1x128
    (Host.divf (Host.reduceAdd s (constant S_ .f32 0x00000000#32) reducesTo_S512x128_S128_d0 h_S_)
      (broadcastInDim S128 ![] bcast_S_S128 (constant S_ .f32 0x48800000#32)))
    shapeCasts_S128_S1x128

/-- γ · rsqrt(mean of squares − squared mean + ε). -/
def scaleRow (s1 s2 : FVec F S512x128 .f32) (g : FVec F S1x128 .f32) : FVec F S1x128 .f32 :=
  mulf g (Host.rsqrt (addf (subf (meanRow s2) (mulf (meanRow s1) (meanRow s1)))
    (broadcastInDim S1x128 ![] bcast_S_S1x128 (constant S_ .f32 0x3727C5AC#32))))

/-- β − mean · scale. -/
def shiftRow (s1 s2 : FVec F S512x128 .f32) (g b : FVec F S1x128 .f32) : FVec F S1x128 .f32 :=
  subf b (mulf (meanRow s1) (scaleRow s1 s2 g))

end Cert.KernelIdeal.KerLayer

end
-- ==== Proof.KerHost.lean ====
/-
  What each stretch of host operations of the kernel program leaves in the buffers the regions read, over ANY contents
  the stretch starts from: the flattened node-major input and its flattened neighbour aggregation, the layer's weights,
  the folded scale and shift rows, the reshaped result; and that a stretch leaves alone every buffer it does not write.
-/
import proofs.«163542_j78460462563808_2_alg».proof.Proof.Gen.KernelIdeal.Launch
import proofs.«163542_j78460462563808_2_alg».proof.Proof.KerLayer
import Idealize.ShloMosaic.Lib.StableHlo.Run

noncomputable section

namespace Cert.KernelIdeal.KerHost

open Cert.KernelIdeal Cert.KernelIdeal.Gen Cert.KernelIdeal.KerLayer
open Idealize.ShloMosaic Idealize.ShloMosaic.TcCoe Idealize.SL.Sem Idealize.ShloMosaic.StableHlo

variable {F : FTy → Type} [FloatOps F] (W : Valuation τ sig (Elt F))

/-! ## The first stretch: from the arguments to the first dense region's inputs -/

theorem h0_v14 : after hostOps0 W (Proc.devRef .tc main_v14) = flat (toNodeMajor (W (Proc.devRef .tc main_arg0))) := by
  after_results_simp; unfold flat toNodeMajor; rfl
theorem h0_v15 : after hostOps0 W (Proc.devRef .tc main_v15)
    = aggFlat (toNodeMajor (W (Proc.devRef .tc main_arg0))) (W (Proc.devRef .tc main_arg1)) (W (Proc.devRef .tc main_arg2)) (W (Proc.devRef .tc main_arg3)) := by
  after_results_simp; unfold aggFlat toNodeMajor; rfl
theorem h0_v18 : after hostOps0 W (Proc.devRef .tc main_v18) = wK0 (W (Proc.devRef .tc main_arg4)) := by
  after_results_simp; unfold wK0; rfl
theorem h0_v21 : after hostOps0 W (Proc.devRef .tc main_v21) = wK0 (W (Proc.devRef .tc main_arg5)) := by
  after_results_simp; unfold wK0; rfl
theorem h0_keep_arg1 : after hostOps0 W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg2 : after hostOps0 W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg3 : after hostOps0 W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg4 : after hostOps0 W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg5 : after hostOps0 W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg6 : after hostOps0 W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h0_keep_arg7 : after hostOps0 W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The second stretch: from the partial sums to the folded scale and shift of layer 0 -/

theorem h1_v42 : after hostOps1 W (Proc.devRef .tc main_v42) = scaleRow (W (Proc.devRef .tc main_v22_1)) (W (Proc.devRef .tc main_v22_2)) (gK0 (W (Proc.devRef .tc main_arg6))) := by
  after_results_simp; unfold scaleRow meanRow gK0; rfl
theorem h1_v44 : after hostOps1 W (Proc.devRef .tc main_v44)
    = shiftRow (W (Proc.devRef .tc main_v22_1)) (W (Proc.devRef .tc main_v22_2)) (gK0 (W (Proc.devRef .tc main_arg6))) (gK0 (W (Proc.devRef .tc main_arg7))) := by
  after_results_simp; unfold shiftRow scaleRow meanRow gK0; rfl
theorem h1_keep_v22_0 : after hostOps1 W (Proc.devRef .tc main_v22_0) = W (Proc.devRef .tc main_v22_0) :=
  StableHlo.after_of_forall_not_mem (b := Proc.devRef .tc main_v22_0) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg1 : after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg2 : after hostOps1 W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg3 : after hostOps1 W (Proc.devRef .tc main_arg3) = W (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg4 : after hostOps1 W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg5 : after hostOps1 W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg6 : after hostOps1 W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h1_keep_arg7 : after hostOps1 W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The third stretch: from layer 0's output to the second dense region's inputs -/

theorem h2_v60 : after hostOps2 W (Proc.devRef .tc main_v60) = flat (unflat (W (Proc.devRef .tc main_v45))) := by
  after_results_simp; unfold flat unflat; rfl
theorem h2_v61 : after hostOps2 W (Proc.devRef .tc main_v61)
    = aggFlat (unflat (W (Proc.devRef .tc main_v45))) (W (Proc.devRef .tc main_arg1)) (W (Proc.devRef .tc main_arg2)) (W (Proc.devRef .tc main_arg3)) := by
  after_results_simp; unfold aggFlat unflat; rfl
theorem h2_v64 : after hostOps2 W (Proc.devRef .tc main_v64) = wK1 (W (Proc.devRef .tc main_arg4)) := by
  after_results_simp; unfold wK1; rfl
theorem h2_v67 : after hostOps2 W (Proc.devRef .tc main_v67) = wK1 (W (Proc.devRef .tc main_arg5)) := by
  after_results_simp; unfold wK1; rfl
theorem h2_keep_arg6 : after hostOps2 W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem h2_keep_arg7 : after hostOps2 W (Proc.devRef .tc main_arg7) = W (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The fourth stretch: the folded scale and shift of layer 1 -/

theorem h3_v88 : after hostOps3 W (Proc.devRef .tc main_v88) = scaleRow (W (Proc.devRef .tc main_v68_1)) (W (Proc.devRef .tc main_v68_2)) (gK1 (W (Proc.devRef .tc main_arg6))) := by
  after_results_simp; unfold scaleRow meanRow gK1; rfl
theorem h3_v90 : after hostOps3 W (Proc.devRef .tc main_v90)
    = shiftRow (W (Proc.devRef .tc main_v68_1)) (W (Proc.devRef .tc main_v68_2)) (gK1 (W (Proc.devRef .tc main_arg6))) (gK1 (W (Proc.devRef .tc main_arg7))) := by
  after_results_simp; unfold shiftRow scaleRow meanRow gK1; rfl
theorem h3_keep_v68_0 : after hostOps3 W (Proc.devRef .tc main_v68_0) = W (Proc.devRef .tc main_v68_0) :=
  StableHlo.after_of_forall_not_mem (b := Proc.devRef .tc main_v68_0) _ _ (List.forall_iff_forall_mem.mp (by
    simp only [hostOps3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The last stretch: the result back in graph-major arrangement -/

theorem h4_v93 : after hostOps4 W (Proc.devRef .tc main_v93) = toGraphMajor (unflat (W (Proc.devRef .tc main_v91))) := by
  after_results_simp; unfold toGraphMajor unflat; rfl

end Cert.KernelIdeal.KerHost

end
-- ==== Proof.KerChainArgs.lean ====
/-
  The arguments as every boundary of the kernel program's run finds them: no host operation and no region writes an
  argument, so each boundary's contents at an argument are the launch contents.
-/
import proofs.«163542_j78460462563808_2_alg».proof.Proof.Gen.KernelIdeal.Frame
import proofs.«163542_j78460462563808_2_alg».proof.Proof.KerHost
import Idealize.ShloMosaic.PureOps.Ideal

set_option maxRecDepth 16384

noncomputable section

namespace Cert.KernelIdeal.KerChain

open Cert.KernelIdeal Cert.KernelIdeal.Gen Cert.KernelIdeal.KerLayer Cert.KernelIdeal.KerHost
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem w1_arg1 : W1 m ρ c (Proc.devRef .tc main_arg1) = (m ((c : Thread nD τ).loc main_arg1)) := h0_keep_arg1 (W0 m ρ c)
theorem w2_arg1 : W2 m ρ c (Proc.devRef .tc main_arg1) = (m ((c : Thread nD τ).loc main_arg1)) := (W2_of_ne m ρ c main_arg1 (by decide)).trans (w1_arg1 m ρ c)
theorem w3_arg1 : W3 m ρ c (Proc.devRef .tc main_arg1) = (m ((c : Thread nD τ).loc main_arg1)) := (h1_keep_arg1 (W2 m ρ c)).trans (w2_arg1 m ρ c)
theorem w4_arg1 : W4 m ρ c (Proc.devRef .tc main_arg1) = (m ((c : Thread nD τ).loc main_arg1)) := (W4_of_ne m ρ c main_arg1 (by decide)).trans (w3_arg1 m ρ c)
theorem w1_arg2 : W1 m ρ c (Proc.devRef .tc main_arg2) = (m ((c : Thread nD τ).loc main_arg2)) := h0_keep_arg2 (W0 m ρ c)
theorem w2_arg2 : W2 m ρ c (Proc.devRef .tc main_arg2) = (m ((c : Thread nD τ).loc main_arg2)) := (W2_of_ne m ρ c main_arg2 (by decide)).trans (w1_arg2 m ρ c)
theorem w3_arg2 : W3 m ρ c (Proc.devRef .tc main_arg2) = (m ((c : Thread nD τ).loc main_arg2)) := (h1_keep_arg2 (W2 m ρ c)).trans (w2_arg2 m ρ c)
theorem w4_arg2 : W4 m ρ c (Proc.devRef .tc main_arg2) = (m ((c : Thread nD τ).loc main_arg2)) := (W4_of_ne m ρ c main_arg2 (by decide)).trans (w3_arg2 m ρ c)
theorem w1_arg3 : W1 m ρ c (Proc.devRef .tc main_arg3) = (m ((c : Thread nD τ).loc main_arg3)) := h0_keep_arg3 (W0 m ρ c)
theorem w2_arg3 : W2 m ρ c (Proc.devRef .tc main_arg3) = (m ((c : Thread nD τ).loc main_arg3)) := (W2_of_ne m ρ c main_arg3 (by decide)).trans (w1_arg3 m ρ c)
theorem w3_arg3 : W3 m ρ c (Proc.devRef .tc main_arg3) = (m ((c : Thread nD τ).loc main_arg3)) := (h1_keep_arg3 (W2 m ρ c)).trans (w2_arg3 m ρ c)
theorem w4_arg3 : W4 m ρ c (Proc.devRef .tc main_arg3) = (m ((c : Thread nD τ).loc main_arg3)) := (W4_of_ne m ρ c main_arg3 (by decide)).trans (w3_arg3 m ρ c)
theorem w1_arg4 : W1 m ρ c (Proc.devRef .tc main_arg4) = (m ((c : Thread nD τ).loc main_arg4)) := h0_keep_arg4 (W0 m ρ c)
theorem w2_arg4 : W2 m ρ c (Proc.devRef .tc main_arg4) = (m ((c : Thread nD τ).loc main_arg4)) := (W2_of_ne m ρ c main_arg4 (by decide)).trans (w1_arg4 m ρ c)
theorem w3_arg4 : W3 m ρ c (Proc.devRef .tc main_arg4) = (m ((c : Thread nD τ).loc main_arg4)) := (h1_keep_arg4 (W2 m ρ c)).trans (w2_arg4 m ρ c)
theorem w4_arg4 : W4 m ρ c (Proc.devRef .tc main_arg4) = (m ((c : Thread nD τ).loc main_arg4)) := (W4_of_ne m ρ c main_arg4 (by decide)).trans (w3_arg4 m ρ c)
theorem w1_arg5 : W1 m ρ c (Proc.devRef .tc main_arg5) = (m ((c : Thread nD τ).loc main_arg5)) := h0_keep_arg5 (W0 m ρ c)
theorem w2_arg5 : W2 m ρ c (Proc.devRef .tc main_arg5) = (m ((c : Thread nD τ).loc main_arg5)) := (W2_of_ne m ρ c main_arg5 (by decide)).trans (w1_arg5 m ρ c)
theorem w3_arg5 : W3 m ρ c (Proc.devRef .tc main_arg5) = (m ((c : Thread nD τ).loc main_arg5)) := (h1_keep_arg5 (W2 m ρ c)).trans (w2_arg5 m ρ c)
theorem w4_arg5 : W4 m ρ c (Proc.devRef .tc main_arg5) = (m ((c : Thread nD τ).loc main_arg5)) := (W4_of_ne m ρ c main_arg5 (by decide)).trans (w3_arg5 m ρ c)
theorem w1_arg6 : W1 m ρ c (Proc.devRef .tc main_arg6) = (m ((c : Thread nD τ).loc main_arg6)) := h0_keep_arg6 (W0 m ρ c)
theorem w2_arg6 : W2 m ρ c (Proc.devRef .tc main_arg6) = (m ((c : Thread nD τ).loc main_arg6)) := (W2_of_ne m ρ c main_arg6 (by decide)).trans (w1_arg6 m ρ c)
theorem w3_arg6 : W3 m ρ c (Proc.devRef .tc main_arg6) = (m ((c : Thread nD τ).loc main_arg6)) := (h1_keep_arg6 (W2 m ρ c)).trans (w2_arg6 m ρ c)
theorem w4_arg6 : W4 m ρ c (Proc.devRef .tc main_arg6) = (m ((c : Thread nD τ).loc main_arg6)) := (W4_of_ne m ρ c main_arg6 (by decide)).trans (w3_arg6 m ρ c)
theorem w1_arg7 : W1 m ρ c (Proc.devRef .tc main_arg7) = (m ((c : Thread nD τ).loc main_arg7)) := h0_keep_arg7 (W0 m ρ c)
theorem w2_arg7 : W2 m ρ c (Proc.devRef .tc main_arg7) = (m ((c : Thread nD τ).loc main_arg7)) := (W2_of_ne m ρ c main_arg7 (by decide)).trans (w1_arg7 m ρ c)
theorem w3_arg7 : W3 m ρ c (Proc.devRef .tc main_arg7) = (m ((c : Thread nD τ).loc main_arg7)) := (h1_keep_arg7 (W2 m ρ c)).trans (w2_arg7 m ρ c)
theorem w4_arg7 : W4 m ρ c (Proc.devRef .tc main_arg7) = (m ((c : Thread nD τ).loc main_arg7)) := (W4_of_ne m ρ c main_arg7 (by decide)).trans (w3_arg7 m ρ c)
theorem w5_arg6 : W5 m ρ c (Proc.devRef .tc main_arg6) = (m ((c : Thread nD τ).loc main_arg6)) := (h2_keep_arg6 (W4 m ρ c)).trans (w4_arg6 m ρ c)
theorem w6_arg6 : W6 m ρ c (Proc.devRef .tc main_arg6) = (m ((c : Thread nD τ).loc main_arg6)) := (W6_of_ne m ρ c main_arg6 (by decide)).trans (w5_arg6 m ρ c)
theorem w5_arg7 : W5 m ρ c (Proc.devRef .tc main_arg7) = (m ((c : Thread nD τ).loc main_arg7)) := (h2_keep_arg7 (W4 m ρ c)).trans (w4_arg7 m ρ c)
theorem w6_arg7 : W6 m ρ c (Proc.devRef .tc main_arg7) = (m ((c : Thread nD τ).loc main_arg7)) := (W6_of_ne m ρ c main_arg7 (by decide)).trans (w5_arg7 m ρ c)

end Cert.KernelIdeal.KerChain

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LinPay.lean ====
/-
  One grid point of the dense map with column statistics, read at an index, at the exact (extended-real) reading of
  the float operations.

  A block is 4096 rows of the two row arrays x and xn, with the two 128 × 128 weight matrices ws and wn whole. The body
  forms y = x·wsᵀ + xn·wnᵀ (entry (p, e): row p of x against row e of ws, plus row p of xn against row e of wn; rounding
  the operands to a narrower format is the identity here), and two 8 × 128 statistics blocks: the column sums of y, and
  of y·y, over the block's 4096 rows, laid in row 0 with the other seven rows zero.
-/
import proofs.«163542_j78460462563808_2_alg».proof.Proof.Gen.KernelIdeal.Skeleton
import proofs.«163542_j78460462563808_2_alg».proof.Proof.Spec
import proofs.«163542_j78460462563808_2_alg».proof.Proof.LibMatmulNT
import proofs.«163542_j78460462563808_2_alg».proof.Proof.LibAxisReduce
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx Cert.Gnn

/-- The two products added: y at (p, e). -/
theorem dense_apply (x0 x1 : Vec Ideal S4096x128 .f32) (w0 w1 : Vec Ideal S128x128 .bf16) (p : Fin 4096) (e : Fin 128) :
    k0_pay1 (F := Ideal) x0 x1 w0 w1 (ix2 p e)
      = (∑ d : Fin 128, x0 (ix2 p d) * w0 (ix2 e d)) + ∑ d : Fin 128, x1 (ix2 p d) * w1 (ix2 e d) := by
  unfold k0_pay1
  refine (addf_apply _ _ _).trans ?_
  refine congrArg₂ (· + ·) ?_ ?_
  · refine (Cert.Gram.matmul_nt_zero_apply dot_S4096x128_S128x128_S4096x128_1_1_0_0_n_n_wf none _ _ p e).trans ?_
    refine Finset.sum_congr rfl fun d _ => ?_
    rw [shapeCast_self, shapeCast_self]
    rfl
  · refine (Cert.Gram.matmul_nt_zero_apply dot_S4096x128_S128x128_S4096x128_1_1_0_0_n_n_wf none _ _ p e).trans ?_
    refine Finset.sum_congr rfl fun d _ => ?_
    rw [shapeCast_self, shapeCast_self]
    rfl

/-- A select whose condition is "row b is row 0", b below 8, is the `if` on b. -/
theorem select_row0 {α : Type} (b : Nat) (hb : b < 8) (A B : α) :
    Scalar.select (IntOp.cmpi .eq (BitVec.ofNat 32 b) 0#32) A B = if b = 0 then A else B := by
  interval_cases b <;> rfl

/-- The column sums of a 4096 × 128 matrix laid in row 0 of an 8 × 128 block, the other rows zero. -/
def rowZeroSums (M : FVec Ideal S4096x128 .f32) : FVec Ideal S8x128 .f32 :=
  select (cmpi .eq (iota .tc S8x128 32 [0] iota_S8x128_d0_w32) (broadcast S8x128 0#32))
    (broadcastTo S8x128 (shapeCast S1x128 (shapeCast S1x128
      (multiReduction .add [0] S128 M 0x00000000#32 reduces_S4096x128_S128 (.inl rfl) rfl)
      shapeCasts_S128_S1x128) shapeCasts_S1x128_S1x128) broadcasts_S1x128_S8x128)
    (broadcast S8x128 (Scalar.ofBits (F := Ideal) .f32 0x00000000#32))

/-- Read at (b, e): the column sum in row 0, zero below. -/
theorem rowZeroSums_apply (M : FVec Ideal S4096x128 .f32) (b : Fin 8) (e : Fin 128) :
    rowZeroSums M (ix2 b e) = if b.val = 0 then ∑ q : Fin 4096, M (ix2 q e) else 0 := by
  unfold rowZeroSums
  refine (select_apply _ _ _ _).trans ?_
  have hc : cmpi .eq (iota .tc S8x128 32 [0] iota_S8x128_d0_w32) (broadcast S8x128 0#32) (ix2 b e)
      = IntOp.cmpi .eq (BitVec.ofNat 32 b.val) 0#32 := by
    show IntOp.cmpi .eq (iota .tc S8x128 32 [0] iota_S8x128_d0_w32 (ix2 b e)) 0#32 = _
    rw [iota_single_apply]
  rw [hc, broadcast_apply]
  refine (select_row0 b.val b.isLt _ _).trans ?_
  refine if_congr Iff.rfl ?_ Ideal.ofBits_zero_f32
  refine (broadcastTo_1b_ab_apply _ broadcasts_S1x128_S8x128 b e).trans ?_
  rw [shapeCast_self]
  refine (shapeCast_a_1a_apply _ shapeCasts_S128_S1x128 (0 : Fin 1) e).trans ?_
  exact Cert.LibAxisReduce.add_rows_apply M 0x00000000#32 reduces_S4096x128_S128 (.inl rfl) rfl e

/-- The first statistics block is the column sums of y in row 0. -/
theorem stat1_eq (x0 x1 : Vec Ideal S4096x128 .f32) (w0 w1 : Vec Ideal S128x128 .bf16) :
    k0_pay2 (F := Ideal) x0 x1 w0 w1 = rowZeroSums (k0_pay1 (F := Ideal) x0 x1 w0 w1) := rfl

/-- The second statistics block is the column sums of y·y in row 0. -/
theorem stat2_eq (x0 x1 : Vec Ideal S4096x128 .f32) (w0 w1 : Vec Ideal S128x128 .bf16) :
    k0_pay3 (F := Ideal) x0 x1 w0 w1
      = rowZeroSums (mulf (k0_pay1 (F := Ideal) x0 x1 w0 w1) (k0_pay1 (F := Ideal) x0 x1 w0 w1)) := rfl

/-- The same body printed a second time is the same three functions. -/
theorem dense_again' (x0 x1 : Vec Ideal S4096x128 .f32) (w0 w1 : Vec Ideal S128x128 .bf16) :
    k2_pay1 (F := Ideal) x0 x1 w0 w1 = k0_pay1 (F := Ideal) x0 x1 w0 w1 := rfl
theorem stat1_eq2 (x0 x1 : Vec Ideal S4096x128 .f32) (w0 w1 : Vec Ideal S128x128 .bf16) :
    k2_pay2 (F := Ideal) x0 x1 w0 w1 = rowZeroSums (k0_pay1 (F := Ideal) x0 x1 w0 w1) := rfl
theorem stat2_eq2 (x0 x1 : Vec Ideal S4096x128 .f32) (w0 w1 : Vec Ideal S128x128 .bf16) :
    k2_pay3 (F := Ideal) x0 x1 w0 w1
      = rowZeroSums (mulf (k0_pay1 (F := Ideal) x0 x1 w0 w1) (k0_pay1 (F := Ideal) x0 x1 w0 w1)) := rfl

/-- A block offset of two zeros is the zero offset. -/
theorem lin_off00 : (![0, 0] : Fin 2 → Nat) = fun _ => 0 := funext fun a => by fin_cases a <;> rfl

/-! ## The whole arrays the blocks are cut from -/

/-- The dense map of the whole row arrays: entry (r, e) is row r of x against row e of ws plus row r of xn against
    row e of wn. -/
def linY (x xn : S262144x128.Idx → EReal) (ws wn : S128x128.Idx → EReal) : S262144x128.Idx → EReal :=
  fun i => linRows (fun r d => x (ix2 r d)) (fun r d => xn (ix2 r d)) (fun e d => ws (ix2 e d)) (fun e d => wn (ix2 e d))
    (i 0 : Fin 262144) (i 1 : Fin 128)

theorem linY_apply (x xn : S262144x128.Idx → EReal) (ws wn : S128x128.Idx → EReal) (r : Fin 262144) (e : Fin 128) :
    linY x xn ws wn (ix2 r e)
      = linRows (fun r d => x (ix2 r d)) (fun r d => xn (ix2 r d)) (fun e d => ws (ix2 e d)) (fun e d => wn (ix2 e d)) r e := rfl

/-- The statistics array of a row array Y: row 8·t holds the column sums of Y over rows 4096·t … 4096·t + 4095, every
    other row is zero. -/
def linS (Y : S262144x128.Idx → EReal) : S512x128.Idx → EReal :=
  fun i => if (i 0).val % 8 = 0 then
      ∑ q : Fin 4096, Y (ix2 (⟨4096 * ((i 0).val / 8) + q.val, by have := idx2_lt0 i; have := q.isLt; omega⟩ : Fin 262144) (i 1 : Fin 128))
    else 0

theorem linS_apply (Y : S262144x128.Idx → EReal) (p : Fin 512) (e : Fin 128) :
    linS Y (ix2 p e) = if p.val % 8 = 0 then
      ∑ q : Fin 4096, Y (ix2 (⟨4096 * (p.val / 8) + q.val, by have := p.isLt; have := q.isLt; omega⟩ : Fin 262144) e) else 0 := rfl

/-- An entry of a block's y is the whole-array y at an array index, once the loaded rows are the arrays' rows there. -/
theorem dense_eq_linY (x0 x1 : Vec Ideal S4096x128 .f32) (w0 w1 : Vec Ideal S128x128 .bf16)
    (x xn : S262144x128.Idx → EReal) (ws wn : S128x128.Idx → EReal) (p : Fin 4096) (e : Fin 128) (r : Fin 262144)
    (h0 : ∀ d : Fin 128, x0 (ix2 p d) = x (ix2 r d)) (h1 : ∀ d : Fin 128, x1 (ix2 p d) = xn (ix2 r d))
    (h2 : ∀ d : Fin 128, w0 (ix2 e d) = ws (ix2 e d)) (h3 : ∀ d : Fin 128, w1 (ix2 e d) = wn (ix2 e d)) :
    k0_pay1 (F := Ideal) x0 x1 w0 w1 (ix2 p e) = linY x xn ws wn (ix2 r e) := by
  refine (dense_apply x0 x1 w0 w1 p e).trans ?_
  show _ = (∑ d : Fin 128, x (ix2 r d) * ws (ix2 e d)) + ∑ d : Fin 128, xn (ix2 r d) * wn (ix2 e d)
  refine congrArg₂ (· + ·) (Finset.sum_congr rfl fun d _ => ?_) (Finset.sum_congr rfl fun d _ => ?_)
  · rw [h0 d, h2 d]
  · rw [h1 d, h3 d]

/-- An entry of a block's statistics is the statistics array at an array index: block t's row b sits at row 8·t + b,
    and its row 0 sums the 4096 rows of Y from row 4096·t. -/
theorem stat_eq_linS (M : FVec Ideal S4096x128 .f32) (Y : S262144x128.Idx → EReal) (t : Nat) (ht : t < 64)
    (b : Fin 8) (e : Fin 128) (p : Fin 512) (hp : p.val = 8 * t + b.val)
    (hM : ∀ (q : Fin 4096) (r : Fin 262144), r.val = 4096 * t + q.val → M (ix2 q e) = Y (ix2 r e)) :
    rowZeroSums M (ix2 b e) = linS Y (ix2 p e) := by
  refine (rowZeroSums_apply M b e).trans ?_
  refine ((linS_apply Y p e).trans ?_).symm
  have hb := b.isLt
  refine if_congr (by omega) (Finset.sum_congr rfl fun q _ => ?_) rfl
  exact (hM q _ (by show 4096 * (p.val / 8) + q.val = 4096 * t + q.val; omega)).symm

end Cert.KernelIdeal.RegionValue

end
-- ==== Proof.LinRegion0.lean ====
/-
  The dense map with column statistics, region one of two (the first layer's), read as whole arrays.

  The region walks 64 grid points. Point t holds rows 4096·t … 4096·t + 4095 of the two [262144,128] row arrays and the
  two [128,128] weight matrices whole; it writes back the same rows of y = x·wsᵀ + xn·wnᵀ and rows 8·t … 8·t + 7 of
  two [512,128] statistics arrays, whose row 8·t holds the column sums of that block of y (of y·y) and whose other
  rows are zero. Each write-back is the restriction of one whole-array function to the point's rows, and the 64 row
  blocks cover each array (row r of y lies in block r / 4096, row p of a statistics array in block p / 8), so after
  all points each output array is that function of the region's input arrays.
-/
import proofs.«163542_j78460462563808_2_alg».proof.Proof.Gen.KernelIdeal.Frame
import proofs.«163542_j78460462563808_2_alg».proof.Proof.LinPay
import Idealize.ShloMosaic.Lib.Pipeline.Value

noncomputable section

open scoped BigOperators

namespace Cert.KernelIdeal.RegionValue

open Cert.KernelIdeal Cert.KernelIdeal.Gen Idealize.ShloMosaic Idealize.ShloMosaic.ValueIdx Cert.Gnn
open Idealize.ShloMosaic.TcCoe Idealize.SL.Sem
open Idealize.ShloMosaic.Pipeline (Dat)

variable (V : (c : Dev nD) → (b : Ref sig .tc) → Buf (Elt Ideal) ((c : Thread nD τ).loc b))

/-- The printed index maps over the grid: the row arrays' and the outputs' block at point t is block row t, the weight
    matrices stay where they are. -/
theorem lin0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry (p, e) of point t's block of y is the whole-array y at row 4096·t + p. -/
theorem lin0_blockY (c : Dev nD) (t : Fin cfg0.N) (p : Fin 4096) (e : Fin 128) (r : Fin 262144)
    (hr : r.val = 4096 * t.val + p.val) :
    k0_pay1 (F := Ideal) (iblk0 V c 0 t) (iblk0 V c 1 t) (iblk0 V c 2 t) (iblk0 V c 3 t) (ix2 p e) = (linY (V c main_v14) (V c main_v15) (V c main_v18) (V c main_v21)) (ix2 r e) := by
  obtain ⟨a0, a1, b0, b1, c0, c1, d0, d1, -⟩ := lin0_idx t
  refine dense_eq_linY (iblk0 V c 0 t) (iblk0 V c 1 t) (iblk0 V c 2 t) (iblk0 V c 3 t) (V c main_v14) (V c main_v15) (V c main_v18) (V c main_v21) p e r ?_ ?_ ?_ ?_
  · intro d
    show V c main_v14 (((cfg0.win 0).blk t).view.emb (ix2 p d)) = V c main_v14 (ix2 r d)
    refine congrArg (V c main_v14) ?_
    funext a; apply Fin.ext
    match a with
    | ⟨0, _⟩ => show win0_0.index t (0 : Fin 2) * 4096 + 1 * p.val = r.val; omega
    | ⟨1, _⟩ => show win0_0.index t (1 : Fin 2) * 128 + 1 * d.val = d.val; omega
  · intro d
    show V c main_v15 (((cfg0.win 1).blk t).view.emb (ix2 p d)) = V c main_v15 (ix2 r d)
    refine congrArg (V c main_v15) ?_
    funext a; apply Fin.ext
    match a with
    | ⟨0, _⟩ => show win0_1.index t (0 : Fin 2) * 4096 + 1 * p.val = r.val; omega
    | ⟨1, _⟩ => show win0_1.index t (1 : Fin 2) * 128 + 1 * d.val = d.val; omega
  · intro d
    show V c main_v18 (((cfg0.win 2).blk t).view.emb (ix2 e d)) = V c main_v18 (ix2 e d)
    refine congrArg (V c main_v18) ?_
    funext a; apply Fin.ext
    match a with
    | ⟨0, _⟩ => show win0_2.index t (0 : Fin 2) * 128 + 1 * e.val = e.val; omega
    | ⟨1, _⟩ => show win0_2.index t (1 : Fin 2) * 128 + 1 * d.val = d.val; omega
  · intro d
    show V c main_v21 (((cfg0.win 3).blk t).view.emb (ix2 e d)) = V c main_v21 (ix2 e d)
    refine congrArg (V c main_v21) ?_
    funext a; apply Fin.ext
    match a with
    | ⟨0, _⟩ => show win0_3.index t (0 : Fin 2) * 128 + 1 * e.val = e.val; omega
    | ⟨1, _⟩ => show win0_3.index t (1 : Fin 2) * 128 + 1 * d.val = d.val; omega

/-! ## The array y -/

/-- What point t writes back of y is block t of the whole-array y. -/
theorem lin0_flushed_y (c : Dev nD) (t : Fin cfg0.N) :
    (dat0 (F := Ideal) V c).flushed 4 t = ((cfg0.win 4).blk t).view.read (Elt Ideal) (linY (V c main_v14) (V c main_v15) (V c main_v18) (V c main_v21)) := by
  show (cfg0.win 4).cut (grid0.coords t) ((dat0 V c).after 4 t) = _
  rw [after0_4]
  unfold out0_4
  rw [View.canon_unit_zero lin_off00]
  simp only [View.ld_unit_zero (S := S4096x128) lin_off00, View.ld_unit_zero (S := S128x128) lin_off00]
  obtain ⟨-, -, -, -, -, -, -, -, o0, o1, -⟩ := lin0_idx t
  funext j
  have hj0 : (j 0).val < 4096 := (j 0).isLt
  have hj1 : (j 1).val < 128 := (j 1).isLt
  have ht : t.val < 64 := lt_of_lt_of_eq t.isLt N_0
  refine (lin0_blockY V c t (j 0 : Fin 4096) (j 1 : Fin 128) ⟨4096 * t.val + (j 0).val, by omega⟩ rfl).trans ?_
  show (linY (V c main_v14) (V c main_v15) (V c main_v18) (V c main_v21)) _ = (linY (V c main_v14) (V c main_v15) (V c main_v18) (V c main_v21)) (((cfg0.win 4).blk t).view.emb j)
  refine congrArg (linY (V c main_v14) (V c main_v15) (V c main_v18) (V c main_v21)) ?_
  funext a; apply Fin.ext
  match a with
  | ⟨0, _⟩ => show 4096 * t.val + (j 0).val = win0_4.index t (0 : Fin 2) * 4096 + 1 * (j 0).val; omega
  | ⟨1, _⟩ => show (j 1).val = win0_4.index t (1 : Fin 2) * 128 + 1 * (j 1).val; omega

/-- An index of y is in point t's block iff each coordinate is in the block's range on its axis. -/
theorem lin0_mem_y (t : Fin cfg0.N) (i : S262144x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v22_0).slice (win0_4.rect t)).set ↔ _
  rw [View.set_slice_whole, Rect.mem_set_unit]
  exact Iff.rfl

/-- Every index of y is in some point's block: row r lies in block r / 4096. -/
theorem lin0_cover_y (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 64 := N_0
  have hlt : (i 0).val / 4096 < cfg0.N := by rw [hN]; omega
  obtain ⟨-, -, -, -, -, -, -, -, o0, o1, -⟩ := lin0_idx ⟨(i 0).val / 4096, hlt⟩
  have o0' : win0_4.index ⟨(i 0).val / 4096, hlt⟩ (0 : Fin 2) = (i 0).val / 4096 := o0
  refine ⟨⟨(i 0).val / 4096, hlt⟩, flush0_4 _, ?_⟩
  rw [lin0_mem_y]
  intro a
  match a with
  | ⟨0, _⟩ => show win0_4.index ⟨(i 0).val / 4096, hlt⟩ (0 : Fin 2) * 4096 ≤ (i 0).val ∧ (i 0).val < win0_4.index ⟨(i 0).val / 4096, hlt⟩ (0 : Fin 2) * 4096 + 4096; omega
  | ⟨1, _⟩ => show win0_4.index ⟨(i 0).val / 4096, hlt⟩ (1 : Fin 2) * 128 ≤ (i 1).val ∧ (i 1).val < win0_4.index ⟨(i 0).val / 4096, hlt⟩ (1 : Fin 2) * 128 + 128; omega

/-- The array y after all grid points, as one function of the region's four input arrays. -/
theorem lin0_final_y (c : Dev nD) : (dat0 (F := Ideal) V c).arrAt 4 cfg0.N = (linY (V c main_v14) (V c main_v15) (V c main_v18) (V c main_v21)) :=
  (dat0 (F := Ideal) V c).arrAt_eq_of_cover 4 (linY (V c main_v14) (V c main_v15) (V c main_v18) (V c main_v21)) (fun t _ => lin0_flushed_y V c t) lin0_cover_y

/-! ## The two statistics arrays -/

/-- An index of a statistics array is in point t's block iff each coordinate is in the block's range on its axis. -/
theorem lin0_mem_s1 (t : Fin cfg0.N) (i : S512x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v22_1).slice (win0_5.rect t)).set ↔ _
  rw [View.set_slice_whole, Rect.mem_set_unit]
  exact Iff.rfl

theorem lin0_mem_s2 (t : Fin cfg0.N) (i : S512x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v22_2).slice (win0_6.rect t)).set ↔ _
  rw [View.set_slice_whole, Rect.mem_set_unit]
  exact Iff.rfl

/-- Every index of the first statistics array is in some point's block: row p lies in block p / 8. -/
theorem lin0_cover_s1 (i : S512x128.Idx) :
    ∃ t : Fin cfg0.N, (cfg0.win 5).flush t = true ∧ i ∈ ((cfg0.win 5).blk t).view.set := by
  have hi0 : (i 0).val < 512 := (i 0).isLt
  have hi1 : (i 1).val < 128 := (i 1).isLt
  have hN : cfg0.N = 64 := N_0
  have hlt : (i 0).val / 8 < cfg0.N := by rw [hN]; omega
  obtain ⟨-, -, -, -, -, -, -, -, -, -, o0, o1, -⟩ := lin0_idx ⟨(i 0).val / 8, hlt⟩
  have o0' : win0_5.index ⟨(i 0).val / 8, hlt⟩ (0 : Fin 2) = (i 0).val / 8 := o0
  refine ⟨⟨(i 0).val / 8, hlt⟩, flush0_5 _, ?_⟩
  rw [lin0_mem_s1]
  intro a
  match a with
  | ⟨0, _⟩ => show win0_5.index ⟨(i 0).val / 8, hlt⟩ (0 : Fin 2) * 8 ≤ (i 0).val ∧ (i 0).val < win0_5.index ⟨(i 0).val / 8, hlt⟩ (0 : Fin 2) * 8 + 8; omega
  | ⟨1, _⟩ => show win0_5.index ⟨(i 0).val / 8, hlt⟩ (1 : Fin 2) * 128 ≤ (i 1).val ∧ (i 1).val < win0_5.index ⟨(i 0).val / 8, hlt⟩ (1 : Fin 2) * 128 + 128; omega

/-- Every index of the second statistics array is in some point's block: row p lies in block p / 8. -/
theorem lin0_cover_s2 (i : S512x128.Idx) :
    ∃ t : Fin cfg0.N, (cfg0.win 6).flush t = true ∧ i ∈ ((cfg0.win 6).blk t).view.set := by
  have hi0 : (i 0).val < 512 := (i 0).isLt
  have hi1 : (i 1).val < 128 := (i 1).isLt
  have hN : cfg0.N = 64 := N_0
  have hlt : (i 0).val / 8 < cfg0.N := by rw [hN]; omega
  obtain ⟨-, -, -, -, -, -, -, -, -, -, -, -, o0, o1⟩ := lin0_idx ⟨(i 0).val / 8, hlt⟩
  have o0' : win0_6.index ⟨(i 0).val / 8, hlt⟩ (0 : Fin 2) = (i 0).val / 8 := o0
  refine ⟨⟨(i 0).val / 8, hlt⟩, flush0_6 _, ?_⟩
  rw [lin0_mem_s2]
  intro a
  match a with
  | ⟨0, _⟩ => show win0_6.index ⟨(i 0).val / 8, hlt⟩ (0 : Fin 2) * 8 ≤ (i 0).val ∧ (i 0).val < win0_6.index ⟨(i 0).val / 8, hlt⟩ (0 : Fin 2) * 8 + 8; omega
  | ⟨1, _⟩ => show win0_6.index ⟨(i 0).val / 8, hlt⟩ (1 : Fin 2) * 128 ≤ (i 1).val ∧ (i 1).val < win0_6.index ⟨(i 0).val / 8, hlt⟩ (1 : Fin 2) * 128 + 128; omega

/-- What point t writes back of the first statistics array is block t of the statistics of the whole-array y. -/
theorem lin0_flushed_s1 (c : Dev nD) (t : Fin cfg0.N) :
    (dat0 (F := Ideal) V c).flushed 5 t = ((cfg0.win 5).blk t).view.read (Elt Ideal) (linS (linY (V c main_v14) (V c main_v15) (V c main_v18) (V c main_v21))) := by
  show (cfg0.win 5).cut (grid0.coords t) ((dat0 V c).after 5 t) = _
  rw [after0_5]
  unfold out0_5
  rw [View.canon_unit_zero lin_off00]
  simp only [View.ld_unit_zero (S := S4096x128) lin_off00, View.ld_unit_zero (S := S128x128) lin_off00]
  obtain ⟨-, -, -, -, -, -, -, -, -, -, o0, o1, -⟩ := lin0_idx t
  funext j
  have hj0 : (j 0).val < 8 := (j 0).isLt
  have hj1 : (j 1).val < 128 := (j 1).isLt
  have ht : t.val < 64 := lt_of_lt_of_eq t.isLt N_0
  refine (congrFun (stat1_eq (iblk0 V c 0 t) (iblk0 V c 1 t) (iblk0 V c 2 t) (iblk0 V c 3 t)) _).trans ?_
  refine (stat_eq_linS (k0_pay1 (F := Ideal) (iblk0 V c 0 t) (iblk0 V c 1 t) (iblk0 V c 2 t) (iblk0 V c 3 t)) (linY (V c main_v14) (V c main_v15) (V c main_v18) (V c main_v21)) t.val ht (j 0 : Fin 8) (j 1 : Fin 128)
    ⟨8 * t.val + (j 0).val, by omega⟩ rfl (fun q r hr => ?_)).trans ?_
  · exact lin0_blockY V c t q (j 1 : Fin 128) r hr
  show linS (linY (V c main_v14) (V c main_v15) (V c main_v18) (V c main_v21)) _ = linS (linY (V c main_v14) (V c main_v15) (V c main_v18) (V c main_v21)) (((cfg0.win 5).blk t).view.emb j)
  refine congrArg (linS (linY (V c main_v14) (V c main_v15) (V c main_v18) (V c main_v21))) ?_
  funext a; apply Fin.ext
  match a with
  | ⟨0, _⟩ => show 8 * t.val + (j 0).val = win0_5.index t (0 : Fin 2) * 8 + 1 * (j 0).val; omega
  | ⟨1, _⟩ => show (j 1).val = win0_5.index t (1 : Fin 2) * 128 + 1 * (j 1).val; omega

/-- What point t writes back of the second statistics array is block t of the statistics of the whole-array y·y. -/
theorem lin0_flushed_s2 (c : Dev nD) (t : Fin cfg0.N) :
    (dat0 (F := Ideal) V c).flushed 6 t
      = ((cfg0.win 6).blk t).view.read (Elt Ideal) (linS fun i => (linY (V c main_v14) (V c main_v15) (V c main_v18) (V c main_v21)) i * (linY (V c main_v14) (V c main_v15) (V c main_v18) (V c main_v21)) i) := by
  show (cfg0.win 6).cut (grid0.coords t) ((dat0 V c).after 6 t) = _
  rw [after0_6]
  unfold out0_6
  rw [View.canon_unit_zero lin_off00]
  simp only [View.ld_unit_zero (S := S4096x128) lin_off00, View.ld_unit_zero (S := S128x128) lin_off00]
  obtain ⟨-, -, -, -, -, -, -, -, -, -, -, -, o0, o1⟩ := lin0_idx t
  funext j
  have hj0 : (j 0).val < 8 := (j 0).isLt
  have hj1 : (j 1).val < 128 := (j 1).isLt
  have ht : t.val < 64 := lt_of_lt_of_eq t.isLt N_0
  refine (congrFun (stat2_eq (iblk0 V c 0 t) (iblk0 V c 1 t) (iblk0 V c 2 t) (iblk0 V c 3 t)) _).trans ?_
  refine (stat_eq_linS (mulf (k0_pay1 (F := Ideal) (iblk0 V c 0 t) (iblk0 V c 1 t) (iblk0 V c 2 t) (iblk0 V c 3 t)) (k0_pay1 (F := Ideal) (iblk0 V c 0 t) (iblk0 V c 1 t) (iblk0 V c 2 t) (iblk0 V c 3 t)))
    (fun i => (linY (V c main_v14) (V c main_v15) (V c main_v18) (V c main_v21)) i * (linY (V c main_v14) (V c main_v15) (V c main_v18) (V c main_v21)) i) t.val ht (j 0 : Fin 8) (j 1 : Fin 128)
    ⟨8 * t.val + (j 0).val, by omega⟩ rfl (fun q r hr => ?_)).trans ?_
  · refine (mulf_apply _ _ _).trans ?_
    have hy := lin0_blockY V c t q (j 1 : Fin 128) r hr
    exact congrArg₂ (· * ·) hy hy
  show linS (fun i => (linY (V c main_v14) (V c main_v15) (V c main_v18) (V c main_v21)) i * (linY (V c main_v14) (V c main_v15) (V c main_v18) (V c main_v21)) i) _ = linS (fun i => (linY (V c main_v14) (V c main_v15) (V c main_v18) (V c main_v21)) i * (linY (V c main_v14) (V c main_v15) (V c main_v18) (V c main_v21)) i) (((cfg0.win 6).blk t).view.emb j)
  refine congrArg (linS fun i => (linY (V c main_v14) (V c main_v15) (V c main_v18) (V c main_v21)) i * (linY (V c main_v14) (V c main_v15) (V c main_v18) (V c main_v21)) i) ?_
  funext a; apply Fin.ext
  match a with
  | ⟨0, _⟩ => show 8 * t.val + (j 0).val = win0_6.index t (0 : Fin 2) * 8 + 1 * (j 0).val; omega
  | ⟨1, _⟩ => show (j 1).val = win0_6.index t (1 : Fin 2) * 128 + 1 * (j 1).val; omega

/-- The first statistics array after all grid points: the statistics of the whole-array y. -/
theorem lin0_final_s1 (c : Dev nD) : (dat0 (F := Ideal) V c).arrAt 5 cfg0.N = linS (linY (V c main_v14) (V c main_v15) (V c main_v18) (V c main_v21)) :=
  (dat0 (F := Ideal) V c).arrAt_eq_of_cover 5 (linS (linY (V c main_v14) (V c main_v15) (V c main_v18) (V c main_v21))) (fun t _ => lin0_flushed_s1 V c t) lin0_cover_s1

/-- The second statistics array after all grid points: the statistics of the whole-array y·y. -/
theorem lin0_final_s2 (c : Dev nD) :
    (dat0 (F := Ideal) V c).arrAt 6 cfg0.N = linS fun i => (linY (V c main_v14) (V c main_v15) (V c main_v18) (V c main_v21)) i * (linY (V c main_v14) (V c main_v15) (V c main_v18) (V c main_v21)) i :=
  (dat0 (F := Ideal) V c).arrAt_eq_of_cover 6 (linS fun i => (linY (V c main_v14) (V c main_v15) (V c main_v18) (V c main_v21)) i * (linY (V c main_v14) (V c main_v15) (V c main_v18) (V c main_v21)) i) (fun t _ => lin0_flushed_s2 V c t) lin0_cover_s2

/-! ## The three arrays read at an index -/

/-- y at (r, e): row r of x against row e of ws, plus row r of xn against row e of wn. -/
theorem lin0_y (c : Dev nD) (r : Fin 262144) (e : Fin 128) :
    ((dat0 (F := Ideal) V c).arrAt 4 cfg0.N : S262144x128.Idx → EReal) (ix2 r e)
      = linRows (fun r d => (V c main_v14 : S262144x128.Idx → EReal) (ix2 r d)) (fun r d => (V c main_v15 : S262144x128.Idx → EReal) (ix2 r d))
          (fun e d => (V c main_v18 : S128x128.Idx → EReal) (ix2 e d)) (fun e d => (V c main_v21 : S128x128.Idx → EReal) (ix2 e d)) r e := by
  rw [lin0_final_y V c]
  rfl

/-- The first statistics array at (p, e), over the array y named `Y`: row 8·t holds the column sums of rows
    4096·t … 4096·t + 4095 of y, every other row is zero. -/
theorem lin0_s1 (c : Dev nD) (Y : S262144x128.Idx → EReal) (hY : (dat0 (F := Ideal) V c).arrAt 4 cfg0.N = Y)
    (p : Fin 512) (e : Fin 128) :
    ((dat0 (F := Ideal) V c).arrAt 5 cfg0.N : S512x128.Idx → EReal) (ix2 p e)
      = if p.val % 8 = 0 then ∑ q : Fin 4096, Y (ix2 ⟨4096 * (p.val / 8) + q.val, by have := p.isLt; have := q.isLt; omega⟩ e) else 0 := by
  rw [lin0_final_s1 V c, ← hY, lin0_final_y V c]
  rfl

/-- The second statistics array at (p, e), over the array y named `Y`: the same with y·y. -/
theorem lin0_s2 (c : Dev nD) (Y : S262144x128.Idx → EReal) (hY : (dat0 (F := Ideal) V c).arrAt 4 cfg0.N = Y)
    (p : Fin 512) (e : Fin 128) :
    ((dat0 (F := Ideal) V c).arrAt 6 cfg0.N : S512x128.Idx → EReal) (ix2 p e)
      = if p.val % 8 = 0 then ∑ q : Fin 4096, (Y (ix2 ⟨4096 * (p.val / 8) + q.val, by have := p.isLt; have := q.isLt; omega⟩ e) * Y (ix2 ⟨4096 * (p.val / 8) + q.val, by have := p.isLt; have := q.isLt; omega⟩ e)) else 0 := by
  rw [lin0_final_s2 V c, ← hY, lin0_final_y V c]
  rfl

end Cert.KernelIdeal.RegionValue

end
-- ==== Proof.LinRegion2.lean ====
/-
  The dense map with column statistics, region two of two (the second layer's), read as whole arrays.

  The region walks 64 grid points. Point t holds rows 4096·t … 4096·t + 4095 of the two [262144,128] row arrays and the
  two [128,128] weight matrices whole; it writes back the same rows of y = x·wsᵀ + xn·wnᵀ and rows 8·t … 8·t + 7 of
  two [512,128] statistics arrays, whose row 8·t holds the column sums of that block of y (of y·y) and whose other
  rows are zero. Each write-back is the restriction of one whole-array function to the point's rows, and the 64 row
  blocks cover each array (row r of y lies in block r / 4096, row p of a statistics array in block p / 8), so after
  all points each output array is that function of the region's input arrays.
-/
import proofs.«163542_j78460462563808_2_alg».proof.Proof.Gen.KernelIdeal.Frame
import proofs.«163542_j78460462563808_2_alg».proof.Proof.LinPay
import Idealize.ShloMosaic.Lib.Pipeline.Value

noncomputable section

open scoped BigOperators

namespace Cert.KernelIdeal.RegionValue

open Cert.KernelIdeal Cert.KernelIdeal.Gen Idealize.ShloMosaic Idealize.ShloMosaic.ValueIdx Cert.Gnn
open Idealize.ShloMosaic.TcCoe Idealize.SL.Sem
open Idealize.ShloMosaic.Pipeline (Dat)

variable (V : (c : Dev nD) → (b : Ref sig .tc) → Buf (Elt Ideal) ((c : Thread nD τ).loc b))

/-- The printed index maps over the grid: the row arrays' and the outputs' block at point t is block row t, the weight
    matrices stay where they are. -/
theorem lin2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Entry (p, e) of point t's block of y is the whole-array y at row 4096·t + p. -/
theorem lin2_blockY (c : Dev nD) (t : Fin cfg2.N) (p : Fin 4096) (e : Fin 128) (r : Fin 262144)
    (hr : r.val = 4096 * t.val + p.val) :
    k2_pay1 (F := Ideal) (iblk2 V c 0 t) (iblk2 V c 1 t) (iblk2 V c 2 t) (iblk2 V c 3 t) (ix2 p e) = (linY (V c main_v60) (V c main_v61) (V c main_v64) (V c main_v67)) (ix2 r e) := by
  obtain ⟨a0, a1, b0, b1, c0, c1, d0, d1, -⟩ := lin2_idx t
  refine (congrFun (dense_again' (iblk2 V c 0 t) (iblk2 V c 1 t) (iblk2 V c 2 t) (iblk2 V c 3 t)) _).trans ?_
  refine dense_eq_linY (iblk2 V c 0 t) (iblk2 V c 1 t) (iblk2 V c 2 t) (iblk2 V c 3 t) (V c main_v60) (V c main_v61) (V c main_v64) (V c main_v67) p e r ?_ ?_ ?_ ?_
  · intro d
    show V c main_v60 (((cfg2.win 0).blk t).view.emb (ix2 p d)) = V c main_v60 (ix2 r d)
    refine congrArg (V c main_v60) ?_
    funext a; apply Fin.ext
    match a with
    | ⟨0, _⟩ => show win2_0.index t (0 : Fin 2) * 4096 + 1 * p.val = r.val; omega
    | ⟨1, _⟩ => show win2_0.index t (1 : Fin 2) * 128 + 1 * d.val = d.val; omega
  · intro d
    show V c main_v61 (((cfg2.win 1).blk t).view.emb (ix2 p d)) = V c main_v61 (ix2 r d)
    refine congrArg (V c main_v61) ?_
    funext a; apply Fin.ext
    match a with
    | ⟨0, _⟩ => show win2_1.index t (0 : Fin 2) * 4096 + 1 * p.val = r.val; omega
    | ⟨1, _⟩ => show win2_1.index t (1 : Fin 2) * 128 + 1 * d.val = d.val; omega
  · intro d
    show V c main_v64 (((cfg2.win 2).blk t).view.emb (ix2 e d)) = V c main_v64 (ix2 e d)
    refine congrArg (V c main_v64) ?_
    funext a; apply Fin.ext
    match a with
    | ⟨0, _⟩ => show win2_2.index t (0 : Fin 2) * 128 + 1 * e.val = e.val; omega
    | ⟨1, _⟩ => show win2_2.index t (1 : Fin 2) * 128 + 1 * d.val = d.val; omega
  · intro d
    show V c main_v67 (((cfg2.win 3).blk t).view.emb (ix2 e d)) = V c main_v67 (ix2 e d)
    refine congrArg (V c main_v67) ?_
    funext a; apply Fin.ext
    match a with
    | ⟨0, _⟩ => show win2_3.index t (0 : Fin 2) * 128 + 1 * e.val = e.val; omega
    | ⟨1, _⟩ => show win2_3.index t (1 : Fin 2) * 128 + 1 * d.val = d.val; omega

/-! ## The array y -/

/-- What point t writes back of y is block t of the whole-array y. -/
theorem lin2_flushed_y (c : Dev nD) (t : Fin cfg2.N) :
    (dat2 (F := Ideal) V c).flushed 4 t = ((cfg2.win 4).blk t).view.read (Elt Ideal) (linY (V c main_v60) (V c main_v61) (V c main_v64) (V c main_v67)) := by
  show (cfg2.win 4).cut (grid2.coords t) ((dat2 V c).after 4 t) = _
  rw [after2_4]
  unfold out2_4
  rw [View.canon_unit_zero lin_off00]
  simp only [View.ld_unit_zero (S := S4096x128) lin_off00, View.ld_unit_zero (S := S128x128) lin_off00]
  obtain ⟨-, -, -, -, -, -, -, -, o0, o1, -⟩ := lin2_idx t
  funext j
  have hj0 : (j 0).val < 4096 := (j 0).isLt
  have hj1 : (j 1).val < 128 := (j 1).isLt
  have ht : t.val < 64 := lt_of_lt_of_eq t.isLt N_2
  refine (lin2_blockY V c t (j 0 : Fin 4096) (j 1 : Fin 128) ⟨4096 * t.val + (j 0).val, by omega⟩ rfl).trans ?_
  show (linY (V c main_v60) (V c main_v61) (V c main_v64) (V c main_v67)) _ = (linY (V c main_v60) (V c main_v61) (V c main_v64) (V c main_v67)) (((cfg2.win 4).blk t).view.emb j)
  refine congrArg (linY (V c main_v60) (V c main_v61) (V c main_v64) (V c main_v67)) ?_
  funext a; apply Fin.ext
  match a with
  | ⟨0, _⟩ => show 4096 * t.val + (j 0).val = win2_4.index t (0 : Fin 2) * 4096 + 1 * (j 0).val; omega
  | ⟨1, _⟩ => show (j 1).val = win2_4.index t (1 : Fin 2) * 128 + 1 * (j 1).val; omega

/-- An index of y is in point t's block iff each coordinate is in the block's range on its axis. -/
theorem lin2_mem_y (t : Fin cfg2.N) (i : S262144x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v68_0).slice (win2_4.rect t)).set ↔ _
  rw [View.set_slice_whole, Rect.mem_set_unit]
  exact Iff.rfl

/-- Every index of y is in some point's block: row r lies in block r / 4096. -/
theorem lin2_cover_y (i : S262144x128.Idx) :
    ∃ t : Fin cfg2.N, (cfg2.win 4).flush t = true ∧ i ∈ ((cfg2.win 4).blk t).view.set := by
  have hi0 : (i 0).val < 262144 := (i 0).isLt
  have hi1 : (i 1).val < 128 := (i 1).isLt
  have hN : cfg2.N = 64 := N_2
  have hlt : (i 0).val / 4096 < cfg2.N := by rw [hN]; omega
  obtain ⟨-, -, -, -, -, -, -, -, o0, o1, -⟩ := lin2_idx ⟨(i 0).val / 4096, hlt⟩
  have o0' : win2_4.index ⟨(i 0).val / 4096, hlt⟩ (0 : Fin 2) = (i 0).val / 4096 := o0
  refine ⟨⟨(i 0).val / 4096, hlt⟩, flush2_4 _, ?_⟩
  rw [lin2_mem_y]
  intro a
  match a with
  | ⟨0, _⟩ => show win2_4.index ⟨(i 0).val / 4096, hlt⟩ (0 : Fin 2) * 4096 ≤ (i 0).val ∧ (i 0).val < win2_4.index ⟨(i 0).val / 4096, hlt⟩ (0 : Fin 2) * 4096 + 4096; omega
  | ⟨1, _⟩ => show win2_4.index ⟨(i 0).val / 4096, hlt⟩ (1 : Fin 2) * 128 ≤ (i 1).val ∧ (i 1).val < win2_4.index ⟨(i 0).val / 4096, hlt⟩ (1 : Fin 2) * 128 + 128; omega

/-- The array y after all grid points, as one function of the region's four input arrays. -/
theorem lin2_final_y (c : Dev nD) : (dat2 (F := Ideal) V c).arrAt 4 cfg2.N = (linY (V c main_v60) (V c main_v61) (V c main_v64) (V c main_v67)) :=
  (dat2 (F := Ideal) V c).arrAt_eq_of_cover 4 (linY (V c main_v60) (V c main_v61) (V c main_v64) (V c main_v67)) (fun t _ => lin2_flushed_y V c t) lin2_cover_y

/-! ## The two statistics arrays -/

/-- An index of a statistics array is in point t's block iff each coordinate is in the block's range on its axis. -/
theorem lin2_mem_s1 (t : Fin cfg2.N) (i : S512x128.Idx) :
    i ∈ ((cfg2.win 5).blk t).view.set ↔ ∀ a : Fin 2, win2_5.index t a * S8x128.size a ≤ (i a).val ∧ (i a).val < win2_5.index t a * S8x128.size a + S8x128.size a := by
  show i ∈ ((View.whole main_v68_1).slice (win2_5.rect t)).set ↔ _
  rw [View.set_slice_whole, Rect.mem_set_unit]
  exact Iff.rfl

theorem lin2_mem_s2 (t : Fin cfg2.N) (i : S512x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v68_2).slice (win2_6.rect t)).set ↔ _
  rw [View.set_slice_whole, Rect.mem_set_unit]
  exact Iff.rfl

/-- Every index of the first statistics array is in some point's block: row p lies in block p / 8. -/
theorem lin2_cover_s1 (i : S512x128.Idx) :
    ∃ t : Fin cfg2.N, (cfg2.win 5).flush t = true ∧ i ∈ ((cfg2.win 5).blk t).view.set := by
  have hi0 : (i 0).val < 512 := (i 0).isLt
  have hi1 : (i 1).val < 128 := (i 1).isLt
  have hN : cfg2.N = 64 := N_2
  have hlt : (i 0).val / 8 < cfg2.N := by rw [hN]; omega
  obtain ⟨-, -, -, -, -, -, -, -, -, -, o0, o1, -⟩ := lin2_idx ⟨(i 0).val / 8, hlt⟩
  have o0' : win2_5.index ⟨(i 0).val / 8, hlt⟩ (0 : Fin 2) = (i 0).val / 8 := o0
  refine ⟨⟨(i 0).val / 8, hlt⟩, flush2_5 _, ?_⟩
  rw [lin2_mem_s1]
  intro a
  match a with
  | ⟨0, _⟩ => show win2_5.index ⟨(i 0).val / 8, hlt⟩ (0 : Fin 2) * 8 ≤ (i 0).val ∧ (i 0).val < win2_5.index ⟨(i 0).val / 8, hlt⟩ (0 : Fin 2) * 8 + 8; omega
  | ⟨1, _⟩ => show win2_5.index ⟨(i 0).val / 8, hlt⟩ (1 : Fin 2) * 128 ≤ (i 1).val ∧ (i 1).val < win2_5.index ⟨(i 0).val / 8, hlt⟩ (1 : Fin 2) * 128 + 128; omega

/-- Every index of the second statistics array is in some point's block: row p lies in block p / 8. -/
theorem lin2_cover_s2 (i : S512x128.Idx) :
    ∃ t : Fin cfg2.N, (cfg2.win 6).flush t = true ∧ i ∈ ((cfg2.win 6).blk t).view.set := by
  have hi0 : (i 0).val < 512 := (i 0).isLt
  have hi1 : (i 1).val < 128 := (i 1).isLt
  have hN : cfg2.N = 64 := N_2
  have hlt : (i 0).val / 8 < cfg2.N := by rw [hN]; omega
  obtain ⟨-, -, -, -, -, -, -, -, -, -, -, -, o0, o1⟩ := lin2_idx ⟨(i 0).val / 8, hlt⟩
  have o0' : win2_6.index ⟨(i 0).val / 8, hlt⟩ (0 : Fin 2) = (i 0).val / 8 := o0
  refine ⟨⟨(i 0).val / 8, hlt⟩, flush2_6 _, ?_⟩
  rw [lin2_mem_s2]
  intro a
  match a with
  | ⟨0, _⟩ => show win2_6.index ⟨(i 0).val / 8, hlt⟩ (0 : Fin 2) * 8 ≤ (i 0).val ∧ (i 0).val < win2_6.index ⟨(i 0).val / 8, hlt⟩ (0 : Fin 2) * 8 + 8; omega
  | ⟨1, _⟩ => show win2_6.index ⟨(i 0).val / 8, hlt⟩ (1 : Fin 2) * 128 ≤ (i 1).val ∧ (i 1).val < win2_6.index ⟨(i 0).val / 8, hlt⟩ (1 : Fin 2) * 128 + 128; omega

/-- What point t writes back of the first statistics array is block t of the statistics of the whole-array y. -/
theorem lin2_flushed_s1 (c : Dev nD) (t : Fin cfg2.N) :
    (dat2 (F := Ideal) V c).flushed 5 t = ((cfg2.win 5).blk t).view.read (Elt Ideal) (linS (linY (V c main_v60) (V c main_v61) (V c main_v64) (V c main_v67))) := by
  show (cfg2.win 5).cut (grid2.coords t) ((dat2 V c).after 5 t) = _
  rw [after2_5]
  unfold out2_5
  rw [View.canon_unit_zero lin_off00]
  simp only [View.ld_unit_zero (S := S4096x128) lin_off00, View.ld_unit_zero (S := S128x128) lin_off00]
  obtain ⟨-, -, -, -, -, -, -, -, -, -, o0, o1, -⟩ := lin2_idx t
  funext j
  have hj0 : (j 0).val < 8 := (j 0).isLt
  have hj1 : (j 1).val < 128 := (j 1).isLt
  have ht : t.val < 64 := lt_of_lt_of_eq t.isLt N_2
  refine (congrFun (stat1_eq2 (iblk2 V c 0 t) (iblk2 V c 1 t) (iblk2 V c 2 t) (iblk2 V c 3 t)) _).trans ?_
  refine (stat_eq_linS (k0_pay1 (F := Ideal) (iblk2 V c 0 t) (iblk2 V c 1 t) (iblk2 V c 2 t) (iblk2 V c 3 t)) (linY (V c main_v60) (V c main_v61) (V c main_v64) (V c main_v67)) t.val ht (j 0 : Fin 8) (j 1 : Fin 128)
    ⟨8 * t.val + (j 0).val, by omega⟩ rfl (fun q r hr => ?_)).trans ?_
  · exact (congrFun (dense_again' (iblk2 V c 0 t) (iblk2 V c 1 t) (iblk2 V c 2 t) (iblk2 V c 3 t)) _).symm.trans (lin2_blockY V c t q (j 1 : Fin 128) r hr)
  show linS (linY (V c main_v60) (V c main_v61) (V c main_v64) (V c main_v67)) _ = linS (linY (V c main_v60) (V c main_v61) (V c main_v64) (V c main_v67)) (((cfg2.win 5).blk t).view.emb j)
  refine congrArg (linS (linY (V c main_v60) (V c main_v61) (V c main_v64) (V c main_v67))) ?_
  funext a; apply Fin.ext
  match a with
  | ⟨0, _⟩ => show 8 * t.val + (j 0).val = win2_5.index t (0 : Fin 2) * 8 + 1 * (j 0).val; omega
  | ⟨1, _⟩ => show (j 1).val = win2_5.index t (1 : Fin 2) * 128 + 1 * (j 1).val; omega

/-- What point t writes back of the second statistics array is block t of the statistics of the whole-array y·y. -/
theorem lin2_flushed_s2 (c : Dev nD) (t : Fin cfg2.N) :
    (dat2 (F := Ideal) V c).flushed 6 t
      = ((cfg2.win 6).blk t).view.read (Elt Ideal) (linS fun i => (linY (V c main_v60) (V c main_v61) (V c main_v64) (V c main_v67)) i * (linY (V c main_v60) (V c main_v61) (V c main_v64) (V c main_v67)) i) := by
  show (cfg2.win 6).cut (grid2.coords t) ((dat2 V c).after 6 t) = _
  rw [after2_6]
  unfold out2_6
  rw [View.canon_unit_zero lin_off00]
  simp only [View.ld_unit_zero (S := S4096x128) lin_off00, View.ld_unit_zero (S := S128x128) lin_off00]
  obtain ⟨-, -, -, -, -, -, -, -, -, -, -, -, o0, o1⟩ := lin2_idx t
  funext j
  have hj0 : (j 0).val < 8 := (j 0).isLt
  have hj1 : (j 1).val < 128 := (j 1).isLt
  have ht : t.val < 64 := lt_of_lt_of_eq t.isLt N_2
  refine (congrFun (stat2_eq2 (iblk2 V c 0 t) (iblk2 V c 1 t) (iblk2 V c 2 t) (iblk2 V c 3 t)) _).trans ?_
  refine (stat_eq_linS (mulf (k0_pay1 (F := Ideal) (iblk2 V c 0 t) (iblk2 V c 1 t) (iblk2 V c 2 t) (iblk2 V c 3 t)) (k0_pay1 (F := Ideal) (iblk2 V c 0 t) (iblk2 V c 1 t) (iblk2 V c 2 t) (iblk2 V c 3 t)))
    (fun i => (linY (V c main_v60) (V c main_v61) (V c main_v64) (V c main_v67)) i * (linY (V c main_v60) (V c main_v61) (V c main_v64) (V c main_v67)) i) t.val ht (j 0 : Fin 8) (j 1 : Fin 128)
    ⟨8 * t.val + (j 0).val, by omega⟩ rfl (fun q r hr => ?_)).trans ?_
  · refine (mulf_apply _ _ _).trans ?_
    have hy := (congrFun (dense_again' (iblk2 V c 0 t) (iblk2 V c 1 t) (iblk2 V c 2 t) (iblk2 V c 3 t)) _).symm.trans (lin2_blockY V c t q (j 1 : Fin 128) r hr)
    exact congrArg₂ (· * ·) hy hy
  show linS (fun i => (linY (V c main_v60) (V c main_v61) (V c main_v64) (V c main_v67)) i * (linY (V c main_v60) (V c main_v61) (V c main_v64) (V c main_v67)) i) _ = linS (fun i => (linY (V c main_v60) (V c main_v61) (V c main_v64) (V c main_v67)) i * (linY (V c main_v60) (V c main_v61) (V c main_v64) (V c main_v67)) i) (((cfg2.win 6).blk t).view.emb j)
  refine congrArg (linS fun i => (linY (V c main_v60) (V c main_v61) (V c main_v64) (V c main_v67)) i * (linY (V c main_v60) (V c main_v61) (V c main_v64) (V c main_v67)) i) ?_
  funext a; apply Fin.ext
  match a with
  | ⟨0, _⟩ => show 8 * t.val + (j 0).val = win2_6.index t (0 : Fin 2) * 8 + 1 * (j 0).val; omega
  | ⟨1, _⟩ => show (j 1).val = win2_6.index t (1 : Fin 2) * 128 + 1 * (j 1).val; omega

/-- The first statistics array after all grid points: the statistics of the whole-array y. -/
theorem lin2_final_s1 (c : Dev nD) : (dat2 (F := Ideal) V c).arrAt 5 cfg2.N = linS (linY (V c main_v60) (V c main_v61) (V c main_v64) (V c main_v67)) :=
  (dat2 (F := Ideal) V c).arrAt_eq_of_cover 5 (linS (linY (V c main_v60) (V c main_v61) (V c main_v64) (V c main_v67))) (fun t _ => lin2_flushed_s1 V c t) lin2_cover_s1

/-- The second statistics array after all grid points: the statistics of the whole-array y·y. -/
theorem lin2_final_s2 (c : Dev nD) :
    (dat2 (F := Ideal) V c).arrAt 6 cfg2.N = linS fun i => (linY (V c main_v60) (V c main_v61) (V c main_v64) (V c main_v67)) i * (linY (V c main_v60) (V c main_v61) (V c main_v64) (V c main_v67)) i :=
  (dat2 (F := Ideal) V c).arrAt_eq_of_cover 6 (linS fun i => (linY (V c main_v60) (V c main_v61) (V c main_v64) (V c main_v67)) i * (linY (V c main_v60) (V c main_v61) (V c main_v64) (V c main_v67)) i) (fun t _ => lin2_flushed_s2 V c t) lin2_cover_s2

/-! ## The three arrays read at an index -/

/-- y at (r, e): row r of x against row e of ws, plus row r of xn against row e of wn. -/
theorem lin2_y (c : Dev nD) (r : Fin 262144) (e : Fin 128) :
    ((dat2 (F := Ideal) V c).arrAt 4 cfg2.N : S262144x128.Idx → EReal) (ix2 r e)
      = linRows (fun r d => (V c main_v60 : S262144x128.Idx → EReal) (ix2 r d)) (fun r d => (V c main_v61 : S262144x128.Idx → EReal) (ix2 r d))
          (fun e d => (V c main_v64 : S128x128.Idx → EReal) (ix2 e d)) (fun e d => (V c main_v67 : S128x128.Idx → EReal) (ix2 e d)) r e := by
  rw [lin2_final_y V c]
  rfl

/-- The first statistics array at (p, e), over the array y named `Y`: row 8·t holds the column sums of rows
    4096·t … 4096·t + 4095 of y, every other row is zero. -/
theorem lin2_s1 (c : Dev nD) (Y : S262144x128.Idx → EReal) (hY : (dat2 (F := Ideal) V c).arrAt 4 cfg2.N = Y)
    (p : Fin 512) (e : Fin 128) :
    ((dat2 (F := Ideal) V c).arrAt 5 cfg2.N : S512x128.Idx → EReal) (ix2 p e)
      = if p.val % 8 = 0 then ∑ q : Fin 4096, Y (ix2 ⟨4096 * (p.val / 8) + q.val, by have := p.isLt; have := q.isLt; omega⟩ e) else 0 := by
  rw [lin2_final_s1 V c, ← hY, lin2_final_y V c]
  rfl

/-- The second statistics array at (p, e), over the array y named `Y`: the same with y·y. -/
theorem lin2_s2 (c : Dev nD) (Y : S262144x128.Idx → EReal) (hY : (dat2 (F := Ideal) V c).arrAt 4 cfg2.N = Y)
    (p : Fin 512) (e : Fin 128) :
    ((dat2 (F := Ideal) V c).arrAt 6 cfg2.N : S512x128.Idx → EReal) (ix2 p e)
      = if p.val % 8 = 0 then ∑ q : Fin 4096, (Y (ix2 ⟨4096 * (p.val / 8) + q.val, by have := p.isLt; have := q.isLt; omega⟩ e) * Y (ix2 ⟨4096 * (p.val / 8) + q.val, by have := p.isLt; have := q.isLt; omega⟩ e)) else 0 := by
  rw [lin2_final_s2 V c, ← hY, lin2_final_y V c]
  rfl

end Cert.KernelIdeal.RegionValue

end
-- ==== Proof.NormRegion.lean ====
/-
  The two "scale, shift, positive part" regions, read as whole arrays.

  A region walks 32 grid points; point t holds rows 8192·t … 8192·t + 8191 of the [262144,128] input, the whole
  [1,128] scale row and the whole [1,128] shift row, and writes back the same rows of the output. Inside a block the
  body computes, entry by entry, max(y·scale + shift, 0), the two rows broadcast down the block. So the output array,
  after all points, is that one function of the three input arrays at every index: each point's write-back is the
  function's restriction to the point's rows, and the 32 row blocks cover the array (row r lies in block r / 8192).
-/
import proofs.«163542_j78460462563808_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- A block offset of two zeros is the zero offset. -/
theorem off00 : (![0, 0] : Fin 2 → Nat) = fun _ => 0 := funext fun a => by fin_cases a <;> rfl

/-- The whole-array function: entry (r, e) is max(y(r,e)·scale(0,e) + shift(0,e), 0). -/
def normG (y : S262144x128.Idx → EReal) (sc sh : S1x128.Idx → EReal) : S262144x128.Idx → EReal :=
  fun i => max (y i * sc (ix2 (0 : Fin 1) (i 1 : Fin 128)) + sh (ix2 (0 : Fin 1) (i 1 : Fin 128))) 0

theorem normG_apply (y : S262144x128.Idx → EReal) (sc sh : S1x128.Idx → EReal) (r : Fin 262144) (e : Fin 128) :
    normG y sc sh (ix2 r e) = max (y (ix2 r e) * sc (ix2 (0 : Fin 1) e) + sh (ix2 (0 : Fin 1) e)) 0 := rfl

/-! ## The body's arithmetic at an entry of a block -/

/-- Region 1's payload at entry (p, q) of a block. -/
theorem pay1_apply (x0 : Vec Ideal S8192x128 .f32) (x1 x2 : Vec Ideal S1x128 .f32) (p : Fin 8192) (q : Fin 128) :
    k1_pay1 x0 x1 x2 (ix2 p q) = max (x0 (ix2 p q) * x1 (ix2 (0 : Fin 1) q) + x2 (ix2 (0 : Fin 1) q)) 0 := by
  unfold k1_pay1
  simp only [shapeCast_self]
  show max (x0 (ix2 p q) * broadcastTo S8192x128 x1 _ (ix2 p q) + broadcastTo S8192x128 x2 _ (ix2 p q))
      (Ideal.ofBits .f32 0x00000000#32) = _
  rw [broadcastTo_1b_ab_apply x1 _ p q, broadcastTo_1b_ab_apply x2 _ p q, Ideal.ofBits_zero_f32]

/-- Region 3's payload at entry (p, q) of a block: the same arithmetic. -/
theorem pay3_apply (x0 : Vec Ideal S8192x128 .f32) (x1 x2 : Vec Ideal S1x128 .f32) (p : Fin 8192) (q : Fin 128) :
    k3_pay1 x0 x1 x2 (ix2 p q) = max (x0 (ix2 p q) * x1 (ix2 (0 : Fin 1) q) + x2 (ix2 (0 : Fin 1) q)) 0 := by
  unfold k3_pay1
  simp only [shapeCast_self]
  show max (x0 (ix2 p q) * broadcastTo S8192x128 x1 _ (ix2 p q) + broadcastTo S8192x128 x2 _ (ix2 p q))
      (Ideal.ofBits .f32 0x00000000#32) = _
  rw [broadcastTo_1b_ab_apply x1 _ p q, broadcastTo_1b_ab_apply x2 _ p q, Ideal.ofBits_zero_f32]

/-! ## Region 1: from blocks to the array -/

/-- Region 1's payload at an entry of a block is the whole-array function at an array index, once the three loaded
    values are the arrays' values there. -/
theorem pay1_eq_normG (x0 : Vec Ideal S8192x128 .f32) (x1 x2 : Vec Ideal S1x128 .f32)
    (y : S262144x128.Idx → EReal) (sc sh : S1x128.Idx → EReal) (j : S8192x128.Idx) (i : S262144x128.Idx)
    (h0 : x0 j = y i)
    (h1 : x1 (ix2 (0 : Fin 1) (j 1 : Fin 128)) = sc (ix2 (0 : Fin 1) (i 1 : Fin 128)))
    (h2 : x2 (ix2 (0 : Fin 1) (j 1 : Fin 128)) = sh (ix2 (0 : Fin 1) (i 1 : Fin 128))) :
    k1_pay1 x0 x1 x2 j = normG y sc sh i := by
  obtain ⟨p, q, rfl⟩ : ∃ (p : Fin 8192) (q : Fin 128), j = ix2 p q := ⟨j 0, j 1, eq_ix2 j⟩
  refine (pay1_apply x0 x1 x2 p q).trans ?_
  unfold normG
  rw [h0]
  exact congrArg₂ (fun a b => max (y i * a + b) 0) h1 h2

/-- The printed index maps over the grid: the big input's block moves with the output's, block t sits at block row t,
    and the two [1,128] rows stay where they are. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- What point t writes back is block t of the whole-array function of the region's input arrays. -/
theorem flushed1_eq (c : Dev nD) (t : Fin cfg1.N) :
    (dat1 (F := Ideal) V c).flushed 3 t = ((cfg1.win 3).blk t).view.read (Elt Ideal)
      (normG (V c main_v22_0) (V c main_v42) (V c main_v44)) := by
  show (cfg1.win 3).cut (grid1.coords t) ((dat1 V c).after 3 t) = _
  rw [after1_3]
  unfold out1_3
  rw [View.canon_unit_zero off00]
  simp only [View.ld_unit_zero (S := S8192x128) off00, View.ld_unit_zero (S := S1x128) off00]
  obtain ⟨e0, e1, e2, e3, e4, e5, e6, e7⟩ := idx_facts1 t
  funext j
  have hj1 : (j 1).val < 128 := (j 1).isLt
  refine pay1_eq_normG (iblk1 V c 0 t) (iblk1 V c 1 t) (iblk1 V c 2 t) (V c main_v22_0) (V c main_v42) (V c main_v44)
    j (((cfg1.win 3).blk t).view.emb j) ?_ ?_ ?_
  · show V c main_v22_0 (((cfg1.win 0).blk t).view.emb j) = V c main_v22_0 (((cfg1.win 3).blk t).view.emb j)
    refine congrArg (V c main_v22_0) ?_
    funext a; apply Fin.ext
    match a with
    | ⟨0, _⟩ => show win1_0.index t (0 : Fin 2) * 8192 + 1 * (j 0).val = win1_3.index t (0 : Fin 2) * 8192 + 1 * (j 0).val; omega
    | ⟨1, _⟩ => show win1_0.index t (1 : Fin 2) * 128 + 1 * (j 1).val = win1_3.index t (1 : Fin 2) * 128 + 1 * (j 1).val; omega
  · show V c main_v42 (((cfg1.win 1).blk t).view.emb (ix2 (0 : Fin 1) (j 1 : Fin 128))) = V c main_v42 _
    refine congrArg (V c main_v42) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  · show V c main_v44 (((cfg1.win 2).blk t).view.emb (ix2 (0 : Fin 1) (j 1 : Fin 128))) = V c main_v44 _
    refine congrArg (V c main_v44) ?_
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the output array is in point t's block iff each coordinate is in the block's range on its axis. -/
theorem mem_blk1 (t : Fin cfg1.N) (i : S262144x128.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v45).slice (win1_3.rect t)).set ↔ _
  rw [View.set_slice_whole, Rect.mem_set_unit]
  exact Iff.rfl

/-- Every index is in some point's block: row r lies in block r / 8192. -/
theorem cover1 (i : S262144x128.Idx) :
    ∃ t : Fin cfg1.N, (cfg1.win 3).flush t = true ∧ i ∈ ((cfg1.win 3).blk t).view.set := by
  have hi0 : (i 0).val < 262144 := (i 0).isLt
  have hi1 : (i 1).val < 128 := (i 1).isLt
  have hN : cfg1.N = 32 := N_1
  have hlt : (i 0).val / 8192 < cfg1.N := by rw [hN]; omega
  obtain ⟨e0, e1, e2, e3, e4, e5, e6, e7⟩ := idx_facts1 ⟨(i 0).val / 8192, hlt⟩
  have e7' : win1_3.index ⟨(i 0).val / 8192, hlt⟩ (0 : Fin 2) = (i 0).val / 8192 := e7
  refine ⟨⟨(i 0).val / 8192, hlt⟩, flush1_3 _, ?_⟩
  rw [mem_blk1]
  intro a
  match a with
  | ⟨0, _⟩ => show win1_3.index ⟨(i 0).val / 8192, hlt⟩ (0 : Fin 2) * 8192 ≤ (i 0).val ∧ (i 0).val < win1_3.index ⟨(i 0).val / 8192, hlt⟩ (0 : Fin 2) * 8192 + 8192; omega
  | ⟨1, _⟩ => show win1_3.index ⟨(i 0).val / 8192, hlt⟩ (1 : Fin 2) * 128 ≤ (i 1).val ∧ (i 1).val < win1_3.index ⟨(i 0).val / 8192, hlt⟩ (1 : Fin 2) * 128 + 128; omega

/-- Region 1's output array after all grid points, as one function of its three input arrays. -/
theorem final1 (c : Dev nD) :
    (dat1 (F := Ideal) V c).arrAt 3 cfg1.N = normG (V c main_v22_0) (V c main_v42) (V c main_v44) :=
  (dat1 (F := Ideal) V c).arrAt_eq_of_cover 3 (normG (V c main_v22_0) (V c main_v42) (V c main_v44))
    (fun t _ => flushed1_eq V c t) cover1

/-- Region 1's output array at an index: max(y·scale + shift, 0) of the three input arrays `y`, `sc`, `sh`. -/
theorem norm1_out (c : Dev nD) (y : S262144x128.Idx → EReal) (sc sh : S1x128.Idx → EReal)
    (hy : V c main_v22_0 = y) (hsc : V c main_v42 = sc) (hsh : V c main_v44 = sh) (r : Fin 262144) (e : Fin 128) :
    ((dat1 (F := Ideal) V c).arrAt 3 cfg1.N : S262144x128.Idx → EReal) (ix2 r e)
      = max (y (ix2 r e) * sc (ix2 (0 : Fin 1) e) + sh (ix2 (0 : Fin 1) e)) 0 := by
  rw [final1 V c, hy, hsc, hsh]
  exact normG_apply y sc sh r e

/-! ## Region 3: from blocks to the array -/

/-- Region 3's payload at an entry of a block is the whole-array function at an array index, once the three loaded
    values are the arrays' values there. -/
theorem pay3_eq_normG (x0 : Vec Ideal S8192x128 .f32) (x1 x2 : Vec Ideal S1x128 .f32)
    (y : S262144x128.Idx → EReal) (sc sh : S1x128.Idx → EReal) (j : S8192x128.Idx) (i : S262144x128.Idx)
    (h0 : x0 j = y i)
    (h1 : x1 (ix2 (0 : Fin 1) (j 1 : Fin 128)) = sc (ix2 (0 : Fin 1) (i 1 : Fin 128)))
    (h2 : x2 (ix2 (0 : Fin 1) (j 1 : Fin 128)) = sh (ix2 (0 : Fin 1) (i 1 : Fin 128))) :
    k3_pay1 x0 x1 x2 j = normG y sc sh i := by
  obtain ⟨p, q, rfl⟩ : ∃ (p : Fin 8192) (q : Fin 128), j = ix2 p q := ⟨j 0, j 1, eq_ix2 j⟩
  refine (pay3_apply x0 x1 x2 p q).trans ?_
  unfold normG
  rw [h0]
  exact congrArg₂ (fun a b => max (y i * a + b) 0) h1 h2

/-- The printed index maps over the grid: the big input's block moves with the output's, block t sits at block row t,
    and the two [1,128] rows stay where they are. -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val :=
  (by decide +kernel : ∀ t : Fin grid3.N, _)

/-- What point t writes back is block t of the whole-array function of the region's input arrays. -/
theorem flushed3_eq (c : Dev nD) (t : Fin cfg3.N) :
    (dat3 (F := Ideal) V c).flushed 3 t = ((cfg3.win 3).blk t).view.read (Elt Ideal)
      (normG (V c main_v68_0) (V c main_v88) (V c main_v90)) := by
  show (cfg3.win 3).cut (grid3.coords t) ((dat3 V c).after 3 t) = _
  rw [after3_3]
  unfold out3_3
  rw [View.canon_unit_zero off00]
  simp only [View.ld_unit_zero (S := S8192x128) off00, View.ld_unit_zero (S := S1x128) off00]
  obtain ⟨e0, e1, e2, e3, e4, e5, e6, e7⟩ := idx_facts3 t
  funext j
  have hj1 : (j 1).val < 128 := (j 1).isLt
  refine pay3_eq_normG (iblk3 V c 0 t) (iblk3 V c 1 t) (iblk3 V c 2 t) (V c main_v68_0) (V c main_v88) (V c main_v90)
    j (((cfg3.win 3).blk t).view.emb j) ?_ ?_ ?_
  · show V c main_v68_0 (((cfg3.win 0).blk t).view.emb j) = V c main_v68_0 (((cfg3.win 3).blk t).view.emb j)
    refine congrArg (V c main_v68_0) ?_
    funext a; apply Fin.ext
    match a with
    | ⟨0, _⟩ => show win3_0.index t (0 : Fin 2) * 8192 + 1 * (j 0).val = win3_3.index t (0 : Fin 2) * 8192 + 1 * (j 0).val; omega
    | ⟨1, _⟩ => show win3_0.index t (1 : Fin 2) * 128 + 1 * (j 1).val = win3_3.index t (1 : Fin 2) * 128 + 1 * (j 1).val; omega
  · show V c main_v88 (((cfg3.win 1).blk t).view.emb (ix2 (0 : Fin 1) (j 1 : Fin 128))) = V c main_v88 _
    refine congrArg (V c main_v88) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  · show V c main_v90 (((cfg3.win 2).blk t).view.emb (ix2 (0 : Fin 1) (j 1 : Fin 128))) = V c main_v90 _
    refine congrArg (V c main_v90) ?_
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the output array is in point t's block iff each coordinate is in the block's range on its axis. -/
theorem mem_blk3 (t : Fin cfg3.N) (i : S262144x128.Idx) :
    i ∈ ((cfg3.win 3).blk t).view.set ↔ ∀ a : Fin 2, win3_3.index t a * S8192x128.size a ≤ (i a).val ∧ (i a).val < win3_3.index t a * S8192x128.size a + S8192x128.size a := by
  show i ∈ ((View.whole main_v91).slice (win3_3.rect t)).set ↔ _
  rw [View.set_slice_whole, Rect.mem_set_unit]
  exact Iff.rfl

/-- Every index is in some point's block: row r lies in block r / 8192. -/
theorem cover3 (i : S262144x128.Idx) :
    ∃ t : Fin cfg3.N, (cfg3.win 3).flush t = true ∧ i ∈ ((cfg3.win 3).blk t).view.set := by
  have hi0 : (i 0).val < 262144 := (i 0).isLt
  have hi1 : (i 1).val < 128 := (i 1).isLt
  have hN : cfg3.N = 32 := N_3
  have hlt : (i 0).val / 8192 < cfg3.N := by rw [hN]; omega
  obtain ⟨e0, e1, e2, e3, e4, e5, e6, e7⟩ := idx_facts3 ⟨(i 0).val / 8192, hlt⟩
  have e7' : win3_3.index ⟨(i 0).val / 8192, hlt⟩ (0 : Fin 2) = (i 0).val / 8192 := e7
  refine ⟨⟨(i 0).val / 8192, hlt⟩, flush3_3 _, ?_⟩
  rw [mem_blk3]
  intro a
  match a with
  | ⟨0, _⟩ => show win3_3.index ⟨(i 0).val / 8192, hlt⟩ (0 : Fin 2) * 8192 ≤ (i 0).val ∧ (i 0).val < win3_3.index ⟨(i 0).val / 8192, hlt⟩ (0 : Fin 2) * 8192 + 8192; omega
  | ⟨1, _⟩ => show win3_3.index ⟨(i 0).val / 8192, hlt⟩ (1 : Fin 2) * 128 ≤ (i 1).val ∧ (i 1).val < win3_3.index ⟨(i 0).val / 8192, hlt⟩ (1 : Fin 2) * 128 + 128; omega

/-- Region 3's output array after all grid points, as one function of its three input arrays. -/
theorem final3 (c : Dev nD) :
    (dat3 (F := Ideal) V c).arrAt 3 cfg3.N = normG (V c main_v68_0) (V c main_v88) (V c main_v90) :=
  (dat3 (F := Ideal) V c).arrAt_eq_of_cover 3 (normG (V c main_v68_0) (V c main_v88) (V c main_v90))
    (fun t _ => flushed3_eq V c t) cover3

/-- Region 3's output array at an index: max(y·scale + shift, 0) of the three input arrays `y`, `sc`, `sh`. -/
theorem norm3_out (c : Dev nD) (y : S262144x128.Idx → EReal) (sc sh : S1x128.Idx → EReal)
    (hy : V c main_v68_0 = y) (hsc : V c main_v88 = sc) (hsh : V c main_v90 = sh) (r : Fin 262144) (e : Fin 128) :
    ((dat3 (F := Ideal) V c).arrAt 3 cfg3.N : S262144x128.Idx → EReal) (ix2 r e)
      = max (y (ix2 r e) * sc (ix2 (0 : Fin 1) e) + sh (ix2 (0 : Fin 1) e)) 0 := by
  rw [final3 V c, hy, hsc, hsh]
  exact normG_apply y sc sh r e

end Cert.KernelIdeal.RegionValue

end
-- ==== Proof.KerArrays.lean ====
/-
  The kernel's four regions as whole-array functions, and one kernel layer as a function of arrays.
  `yArr`  — the dense region's first output: row r of x against row e of ws plus row r of xn against row e of wn.
  `s1Arr`, `s2Arr` — its two [512,128] outputs: row 8·i holds the column sums of y (of y·y) over the 4096 rows of
  block i; the seven rows after it hold 0.
  `nrArr`  — the normalisation region: max(y·scale + shift, 0) with scale and shift [1,128] rows.
  `layerK` — one layer on the node-major array.
-/
import proofs.«163542_j78460462563808_2_alg».proof.Proof.KerLayer
import proofs.«163542_j78460462563808_2_alg».proof.Proof.Spec
import Idealize.ShloMosaic.Lib.ValueIdx

noncomputable section

open scoped BigOperators

namespace Cert.KernelIdeal.KerLayer

open Cert.KernelIdeal Idealize.ShloMosaic Idealize.ShloMosaic.ValueIdx Cert.Gnn

variable [Facts]

/-- y = x·wsᵀ + xn·wnᵀ on [262144,128] rows. -/
def yArr (x xn : FVec Ideal S262144x128 .f32) (ws wn : FVec Ideal S128x128 .bf16) : FVec Ideal S262144x128 .f32 :=
  fun i => linRows (fun (r : Fin 262144) (d : Fin 128) => x (ix2 r d)) (fun (r : Fin 262144) (d : Fin 128) => xn (ix2 r d))
    (fun (e d : Fin 128) => ws (ix2 e d)) (fun (e d : Fin 128) => wn (ix2 e d)) ⟨(i 0).val, idx2_lt0 i⟩ ⟨(i 1).val, idx2_lt1 i⟩

/-- The per-block column sums of y, in every eighth row. -/
def s1Arr (y : FVec Ideal S262144x128 .f32) : FVec Ideal S512x128 .f32 :=
  fun i => if (i 0).val % 8 = 0 then
      ∑ q : Fin 4096, y (ix2 (⟨4096 * ((i 0).val / 8) + q.val, by have := idx2_lt0 i; have := q.isLt; omega⟩ : Fin 262144) (⟨(i 1).val, idx2_lt1 i⟩ : Fin 128))
    else 0

/-- The per-block column sums of y·y, in every eighth row. -/
def s2Arr (y : FVec Ideal S262144x128 .f32) : FVec Ideal S512x128 .f32 :=
  fun i => if (i 0).val % 8 = 0 then
      ∑ q : Fin 4096, (y (ix2 (⟨4096 * ((i 0).val / 8) + q.val, by have := idx2_lt0 i; have := q.isLt; omega⟩ : Fin 262144) (⟨(i 1).val, idx2_lt1 i⟩ : Fin 128))
        * y (ix2 (⟨4096 * ((i 0).val / 8) + q.val, by have := idx2_lt0 i; have := q.isLt; omega⟩ : Fin 262144) (⟨(i 1).val, idx2_lt1 i⟩ : Fin 128)))
    else 0

/-- max(y·scale + shift, 0), the [1,128] rows read down every row. -/
def nrArr (y : FVec Ideal S262144x128 .f32) (sc sh : FVec Ideal S1x128 .f32) : FVec Ideal S262144x128 .f32 :=
  fun i => max (y i * sc (ix2 (0 : Fin 1) (⟨(i 1).val, idx2_lt1 i⟩ : Fin 128)) + sh (ix2 (0 : Fin 1) (⟨(i 1).val, idx2_lt1 i⟩ : Fin 128))) 0

/-- One kernel layer on the node-major array: aggregate, flatten, the dense region, the statistics, the
    normalisation region, unflatten. -/
def layerK (xt : FVec Ideal S16384x16x128 .f32) (i1 i2 : IVec S65536 32) (a : FVec Ideal S65536 .f32)
    (ws wn : FVec Ideal S128x128 .bf16) (g b : FVec Ideal S1x128 .f32) : FVec Ideal S16384x16x128 .f32 :=
  unflat (nrArr (yArr (flat xt) (aggFlat xt i1 i2 a) ws wn)
    (scaleRow (s1Arr (yArr (flat xt) (aggFlat xt i1 i2 a) ws wn)) (s2Arr (yArr (flat xt) (aggFlat xt i1 i2 a) ws wn)) g)
    (shiftRow (s1Arr (yArr (flat xt) (aggFlat xt i1 i2 a) ws wn)) (s2Arr (yArr (flat xt) (aggFlat xt i1 i2 a) ws wn)) g b))

/-- The whole kernel: to node-major, two layers, back. -/
def twoLayersK (h : FVec Ideal S16x16384x128 .f32) (i1 i2 : IVec S65536 32) (a : FVec Ideal S65536 .f32)
    (w4 w5 : FVec Ideal S2x128x128 .f32) (p6 p7 : FVec Ideal S2x128 .f32) : FVec Ideal S16x16384x128 .f32 :=
  toGraphMajor (layerK (layerK (toNodeMajor h) i1 i2 a (wK0 w4) (wK0 w5) (gK0 p6) (gK0 p7)) i1 i2 a (wK1 w4) (wK1 w5) (gK1 p6) (gK1 p7))

end Cert.KernelIdeal.KerLayer

end
-- ==== Proof.KerRegions.lean ====
/-
  The four regions' output arrays as the array functions of one kernel layer.

  The dense region's three outputs and the normalisation region's output were read as whole arrays, each one function of
  the region's input arrays. Here those functions are identified with the layer's array functions: the two spell the
  same entries, one naming an index's coordinates directly and the other rebuilding each coordinate from its value, and
  a coordinate rebuilt from its own value is the coordinate.
-/
import proofs.«163542_j78460462563808_2_alg».proof.Proof.LinRegion0
import proofs.«163542_j78460462563808_2_alg».proof.Proof.LinRegion2
import proofs.«163542_j78460462563808_2_alg».proof.Proof.NormRegion
import proofs.«163542_j78460462563808_2_alg».proof.Proof.KerArrays

noncomputable section

open scoped BigOperators

namespace Cert.KernelIdeal.RegionValue

open Cert.KernelIdeal Cert.KernelIdeal.Gen Idealize.ShloMosaic Idealize.ShloMosaic.ValueIdx Cert.Gnn
open Cert.KernelIdeal.KerLayer
open Idealize.ShloMosaic.TcCoe Idealize.SL.Sem
open Idealize.ShloMosaic.Pipeline (Dat)

variable (V : (c : Dev nD) → (b : Ref sig .tc) → Buf (Elt Ideal) ((c : Thread nD τ).loc b))

/-- The dense map, entry by entry, is the layer's y. -/
theorem linY_eq_yArr (x xn : S262144x128.Idx → EReal) (ws wn : S128x128.Idx → EReal) :
    linY x xn ws wn = yArr x xn ws wn := by
  funext i
  obtain ⟨r, e, rfl⟩ : ∃ (r : Fin 262144) (e : Fin 128), i = ix2 r e := ⟨i 0, i 1, eq_ix2 i⟩
  rfl

/-- The statistics of a row array are the layer's first statistics array. -/
theorem linS_eq_s1Arr (Y : S262144x128.Idx → EReal) : linS Y = s1Arr Y := by
  funext i
  obtain ⟨p, e, rfl⟩ : ∃ (p : Fin 512) (e : Fin 128), i = ix2 p e := ⟨i 0, i 1, eq_ix2 i⟩
  rfl

/-- The statistics of the squared entries are the layer's second statistics array. -/
theorem linS_sq_eq_s2Arr (Y : S262144x128.Idx → EReal) : (linS fun i => Y i * Y i) = s2Arr Y := by
  funext i
  obtain ⟨p, e, rfl⟩ : ∃ (p : Fin 512) (e : Fin 128), i = ix2 p e := ⟨i 0, i 1, eq_ix2 i⟩
  rfl

/-- Scale, shift and positive part, entry by entry, is the layer's normalisation array. -/
theorem normG_eq_nrArr (y : S262144x128.Idx → EReal) (sc sh : S1x128.Idx → EReal) : normG y sc sh = nrArr y sc sh := by
  funext i
  obtain ⟨r, e, rfl⟩ : ∃ (r : Fin 262144) (e : Fin 128), i = ix2 r e := ⟨i 0, i 1, eq_ix2 i⟩
  rfl

/-! ## The first layer's two regions -/

theorem reg0_y (c : Dev nD) :
    (dat0 (F := Ideal) V c).arrAt 4 cfg0.N = yArr (V c main_v14) (V c main_v15) (V c main_v18) (V c main_v21) :=
  (lin0_final_y V c).trans (linY_eq_yArr _ _ _ _)

theorem reg0_s1 (c : Dev nD) :
    (dat0 (F := Ideal) V c).arrAt 5 cfg0.N = s1Arr (yArr (V c main_v14) (V c main_v15) (V c main_v18) (V c main_v21)) :=
  (lin0_final_s1 V c).trans ((linS_eq_s1Arr _).trans (congrArg s1Arr (linY_eq_yArr _ _ _ _)))

theorem reg0_s2 (c : Dev nD) :
    (dat0 (F := Ideal) V c).arrAt 6 cfg0.N = s2Arr (yArr (V c main_v14) (V c main_v15) (V c main_v18) (V c main_v21)) :=
  (lin0_final_s2 V c).trans ((linS_sq_eq_s2Arr _).trans (congrArg s2Arr (linY_eq_yArr _ _ _ _)))

theorem reg1_out (c : Dev nD) :
    (dat1 (F := Ideal) V c).arrAt 3 cfg1.N = nrArr (V c main_v22_0) (V c main_v42) (V c main_v44) :=
  (final1 V c).trans (normG_eq_nrArr _ _ _)

/-! ## The second layer's two regions -/

theorem reg2_y (c : Dev nD) :
    (dat2 (F := Ideal) V c).arrAt 4 cfg2.N = yArr (V c main_v60) (V c main_v61) (V c main_v64) (V c main_v67) :=
  (lin2_final_y V c).trans (linY_eq_yArr _ _ _ _)

theorem reg2_s1 (c : Dev nD) :
    (dat2 (F := Ideal) V c).arrAt 5 cfg2.N = s1Arr (yArr (V c main_v60) (V c main_v61) (V c main_v64) (V c main_v67)) :=
  (lin2_final_s1 V c).trans ((linS_eq_s1Arr _).trans (congrArg s1Arr (linY_eq_yArr _ _ _ _)))

theorem reg2_s2 (c : Dev nD) :
    (dat2 (F := Ideal) V c).arrAt 6 cfg2.N = s2Arr (yArr (V c main_v60) (V c main_v61) (V c main_v64) (V c main_v67)) :=
  (lin2_final_s2 V c).trans ((linS_sq_eq_s2Arr _).trans (congrArg s2Arr (linY_eq_yArr _ _ _ _)))

theorem reg3_out (c : Dev nD) :
    (dat3 (F := Ideal) V c).arrAt 3 cfg3.N = nrArr (V c main_v68_0) (V c main_v88) (V c main_v90) :=
  (final3 V c).trans (normG_eq_nrArr _ _ _)

end Cert.KernelIdeal.RegionValue

end
-- ==== Proof.KerChainW.lean ====
/-
  The kernel program's run followed boundary by boundary: what each region's arrays and each host stretch's results hold,
  as functions of the arguments — layer 0's dense output and partial sums, its folded scale and shift, its normalised
  output; the same for layer 1 from layer 0's output; and the result, back in graph-major arrangement.
-/
import proofs.«163542_j78460462563808_2_alg».proof.Proof.KerChainArgs
import proofs.«163542_j78460462563808_2_alg».proof.Proof.KerRegions

set_option maxRecDepth 16384

noncomputable section

namespace Cert.KernelIdeal.KerChain

open Cert.KernelIdeal Cert.KernelIdeal.Gen Cert.KernelIdeal.KerLayer Cert.KernelIdeal.KerHost Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Layer 0 -/

theorem w1_v14 : W1 m ρ c (Proc.devRef .tc main_v14) = flat (F := Ideal) (toNodeMajor (F := Ideal) (m ((c : Thread nD τ).loc main_arg0))) := h0_v14 (W0 m ρ c)
theorem w1_v15 : W1 m ρ c (Proc.devRef .tc main_v15) = aggFlat (F := Ideal) (toNodeMajor (F := Ideal) (m ((c : Thread nD τ).loc main_arg0))) (m ((c : Thread nD τ).loc main_arg1)) (m ((c : Thread nD τ).loc main_arg2)) (m ((c : Thread nD τ).loc main_arg3)) := h0_v15 (W0 m ρ c)
theorem w1_v18 : W1 m ρ c (Proc.devRef .tc main_v18) = wK0 (F := Ideal) (m ((c : Thread nD τ).loc main_arg4)) := h0_v18 (W0 m ρ c)
theorem w1_v21 : W1 m ρ c (Proc.devRef .tc main_v21) = wK0 (F := Ideal) (m ((c : Thread nD τ).loc main_arg5)) := h0_v21 (W0 m ρ c)

theorem w2_y : W2 m ρ c (Proc.devRef .tc main_v22_0) = (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) :=
  (W2_arr m ρ c 4).trans ((reg0_y (V1 m ρ) c).trans (by
    show yArr (W1 m ρ c (Proc.devRef .tc main_v14)) (W1 m ρ c (Proc.devRef .tc main_v15)) (W1 m ρ c (Proc.devRef .tc main_v18)) (W1 m ρ c (Proc.devRef .tc main_v21)) = _
    rw [w1_v14 m ρ c, w1_v15 m ρ c, w1_v18 m ρ c, w1_v21 m ρ c]))
theorem w2_s1 : W2 m ρ c (Proc.devRef .tc main_v22_1) = s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) :=
  (W2_arr m ρ c 5).trans ((reg0_s1 (V1 m ρ) c).trans (by
    show s1Arr (yArr (W1 m ρ c (Proc.devRef .tc main_v14)) (W1 m ρ c (Proc.devRef .tc main_v15)) (W1 m ρ c (Proc.devRef .tc main_v18)) (W1 m ρ c (Proc.devRef .tc main_v21))) = _
    rw [w1_v14 m ρ c, w1_v15 m ρ c, w1_v18 m ρ c, w1_v21 m ρ c]))
theorem w2_s2 : W2 m ρ c (Proc.devRef .tc main_v22_2) = s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) :=
  (W2_arr m ρ c 6).trans ((reg0_s2 (V1 m ρ) c).trans (by
    show s2Arr (yArr (W1 m ρ c (Proc.devRef .tc main_v14)) (W1 m ρ c (Proc.devRef .tc main_v15)) (W1 m ρ c (Proc.devRef .tc main_v18)) (W1 m ρ c (Proc.devRef .tc main_v21))) = _
    rw [w1_v14 m ρ c, w1_v15 m ρ c, w1_v18 m ρ c, w1_v21 m ρ c]))

theorem w3_y : W3 m ρ c (Proc.devRef .tc main_v22_0) = (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) := (h1_keep_v22_0 (W2 m ρ c)).trans (w2_y m ρ c)
theorem w3_sc : W3 m ρ c (Proc.devRef .tc main_v42) = (scaleRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6)))) :=
  (h1_v42 (W2 m ρ c)).trans (by rw [w2_s1 m ρ c, w2_s2 m ρ c, w2_arg6 m ρ c])
theorem w3_sh : W3 m ρ c (Proc.devRef .tc main_v44) = (shiftRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6))) (gK0 (F := Ideal) (m ((c : Thread nD τ).loc main_arg7)))) :=
  (h1_v44 (W2 m ρ c)).trans (by rw [w2_s1 m ρ c, w2_s2 m ρ c, w2_arg6 m ρ c, w2_arg7 m ρ c])

theorem w4_out : W4 m ρ c (Proc.devRef .tc main_v45) = (nrArr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) (scaleRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6)))) (shiftRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6))) (gK0 (F := Ideal) (m ((c : Thread nD τ).loc main_arg7))))) :=
  (W4_arr m ρ c 3).trans ((reg1_out (V3 m ρ) c).trans (by
    show nrArr (W3 m ρ c (Proc.devRef .tc main_v22_0)) (W3 m ρ c (Proc.devRef .tc main_v42)) (W3 m ρ c (Proc.devRef .tc main_v44)) = _
    rw [w3_y m ρ c, w3_sc m ρ c, w3_sh m ρ c]))

/-- Layer 0's output, unflattened, is the layer function of the node-major input. -/
theorem x1_eq : unflat (F := Ideal) (nrArr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5)))) (scaleRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6)))) (shiftRow (F := Ideal) (s1Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (s2Arr (yArr (flat (F := Ideal) (toNodeMajor (F := Ideal) (m ((c : Thread nD τ).loc main_arg0)))) (aggFlat (F := Ideal) (toNodeMajor (F := Ideal) (m ((c : Thread nD τ).loc main_arg0))) (m ((c : Thread nD τ).loc main_arg1)) (m ((c : Thread nD τ).loc main_arg2)) (m ((c : Thread nD τ).loc main_arg3))) (wK0 (F := Ideal) (m ((c : Thread nD τ).loc main_arg4))) (wK0 (F := Ideal) (m ((c : Thread nD τ).loc main_arg5))))) (gK0 (F := Ideal) (m ((c : Thread nD τ).loc main_arg6))) (gK0 (F := Ideal) (m ((c : Thread nD τ).loc main_arg7))))) = (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) := rfl

/-! ## Layer 1 -/

theorem w5_v60 : W5 m ρ c (Proc.devRef .tc main_v60) = flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) :=
  (h2_v60 (W4 m ρ c)).trans (by rw [w4_out m ρ c, x1_eq m c])
theorem w5_v61 : W5 m ρ c (Proc.devRef .tc main_v61) = aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3)) :=
  (h2_v61 (W4 m ρ c)).trans (by rw [w4_out m ρ c, x1_eq m c, w4_arg1 m ρ c, w4_arg2 m ρ c, w4_arg3 m ρ c])
theorem w5_v64 : W5 m ρ c (Proc.devRef .tc main_v64) = wK1 (F := Ideal) (m ((c : Thread nD τ).loc main_arg4)) := (h2_v64 (W4 m ρ c)).trans (by rw [w4_arg4 m ρ c])
theorem w5_v67 : W5 m ρ c (Proc.devRef .tc main_v67) = wK1 (F := Ideal) (m ((c : Thread nD τ).loc main_arg5)) := (h2_v67 (W4 m ρ c)).trans (by rw [w4_arg5 m ρ c])

theorem w6_y : W6 m ρ c (Proc.devRef .tc main_v68_0) = (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5)))) :=
  (W6_arr m ρ c 4).trans ((reg2_y (V5 m ρ) c).trans (by
    show yArr (W5 m ρ c (Proc.devRef .tc main_v60)) (W5 m ρ c (Proc.devRef .tc main_v61)) (W5 m ρ c (Proc.devRef .tc main_v64)) (W5 m ρ c (Proc.devRef .tc main_v67)) = _
    rw [w5_v60 m ρ c, w5_v61 m ρ c, w5_v64 m ρ c, w5_v67 m ρ c]))
theorem w6_s1 : W6 m ρ c (Proc.devRef .tc main_v68_1) = s1Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5)))) :=
  (W6_arr m ρ c 5).trans ((reg2_s1 (V5 m ρ) c).trans (by
    show s1Arr (yArr (W5 m ρ c (Proc.devRef .tc main_v60)) (W5 m ρ c (Proc.devRef .tc main_v61)) (W5 m ρ c (Proc.devRef .tc main_v64)) (W5 m ρ c (Proc.devRef .tc main_v67))) = _
    rw [w5_v60 m ρ c, w5_v61 m ρ c, w5_v64 m ρ c, w5_v67 m ρ c]))
theorem w6_s2 : W6 m ρ c (Proc.devRef .tc main_v68_2) = s2Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5)))) :=
  (W6_arr m ρ c 6).trans ((reg2_s2 (V5 m ρ) c).trans (by
    show s2Arr (yArr (W5 m ρ c (Proc.devRef .tc main_v60)) (W5 m ρ c (Proc.devRef .tc main_v61)) (W5 m ρ c (Proc.devRef .tc main_v64)) (W5 m ρ c (Proc.devRef .tc main_v67))) = _
    rw [w5_v60 m ρ c, w5_v61 m ρ c, w5_v64 m ρ c, w5_v67 m ρ c]))

theorem w7_y : W7 m ρ c (Proc.devRef .tc main_v68_0) = (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5)))) := (h3_keep_v68_0 (W6 m ρ c)).trans (w6_y m ρ c)
theorem w7_sc : W7 m ρ c (Proc.devRef .tc main_v88) = (scaleRow (F := Ideal) (s1Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (s2Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (gK1 (F := Ideal) (m ((c : Thread nD τ).loc main_arg6)))) :=
  (h3_v88 (W6 m ρ c)).trans (by rw [w6_s1 m ρ c, w6_s2 m ρ c, w6_arg6 m ρ c])
theorem w7_sh : W7 m ρ c (Proc.devRef .tc main_v90) = (shiftRow (F := Ideal) (s1Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (s2Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (gK1 (F := Ideal) (m ((c : Thread nD τ).loc main_arg6))) (gK1 (F := Ideal) (m ((c : Thread nD τ).loc main_arg7)))) :=
  (h3_v90 (W6 m ρ c)).trans (by rw [w6_s1 m ρ c, w6_s2 m ρ c, w6_arg6 m ρ c, w6_arg7 m ρ c])

theorem w8_out : W8 m ρ c (Proc.devRef .tc main_v91) = (nrArr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5)))) (scaleRow (F := Ideal) (s1Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (s2Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (gK1 (F := Ideal) (m ((c : Thread nD τ).loc main_arg6)))) (shiftRow (F := Ideal) (s1Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (s2Arr (yArr (flat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7))))) (aggFlat (F := Ideal) (layerK (toNodeMajor (F := Ideal) (m ((c : Thread nD τ).loc main_arg0))) (m ((c : Thread nD τ).loc main_arg1)) (m ((c : Thread nD τ).loc main_arg2)) (m ((c : Thread nD τ).loc main_arg3)) (wK0 (F := Ideal) (m ((c : Thread nD τ).loc main_arg4))) (wK0 (F := Ideal) (m ((c : Thread nD τ).loc main_arg5))) (gK0 (F := Ideal) (m ((c : Thread nD τ).loc main_arg6))) (gK0 (F := Ideal) (m ((c : Thread nD τ).loc main_arg7)))) (m ((c : Thread nD τ).loc main_arg1)) (m ((c : Thread nD τ).loc main_arg2)) (m ((c : Thread nD τ).loc main_arg3))) (wK1 (F := Ideal) (m ((c : Thread nD τ).loc main_arg4))) (wK1 (F := Ideal) (m ((c : Thread nD τ).loc main_arg5))))) (gK1 (F := Ideal) (m ((c : Thread nD τ).loc main_arg6))) (gK1 (F := Ideal) (m ((c : Thread nD τ).loc main_arg7))))) :=
  (W8_arr m ρ c 3).trans ((reg3_out (V7 m ρ) c).trans (by
    show nrArr (W7 m ρ c (Proc.devRef .tc main_v68_0)) (W7 m ρ c (Proc.devRef .tc main_v88)) (W7 m ρ c (Proc.devRef .tc main_v90)) = _
    rw [w7_y m ρ c, w7_sc m ρ c, w7_sh m ρ c]))

/-! ## The result -/

/-- The result buffer at the last boundary is the two-layer function of the arguments. -/
theorem result : W9 m ρ c (Proc.devRef .tc main_v93)
    = twoLayersK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h4_v93 (W8 m ρ c)).trans (by rw [w8_out m ρ c]; rfl)

end Cert.KernelIdeal.KerChain

end
-- ==== Proof.KerChain.lean ====
/-
  The kernel program's run with its result named: every weakly fair execution from a memory with zero counters terminates,
  nothing faulting, with the result array at the two-layer function of the argument arrays (node-major arrangement,
  aggregation, dense region, statistics, normalisation region, twice, and back) and the arguments as launched.
-/
import proofs.«163542_j78460462563808_2_alg».proof.Proof.KernelRun
import proofs.«163542_j78460462563808_2_alg».proof.Proof.KerChainW

noncomputable section

namespace Cert.KernelIdeal.KerChain

open Cert.KernelIdeal Cert.KernelIdeal.Gen Cert.KernelIdeal.KerLayer
open Idealize.ShloMosaic Idealize.ShloMosaic.TcCoe Idealize.SL.Sem

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93) = twoLayersK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c).1.trans (result m ρ c), (h c).2⟩)
    (Cert.KernelIdeal.GenP.run_named (F := Ideal) m ρ)

end Cert.KernelIdeal.KerChain

end
-- ==== Proof.LibSlabLayout.lean ====
/-
  Layout operations around a [B, T, C] slab, read at an index: a [1, 1, C] row, a [B, 1, 1] per-sample scalar and a
  [1, T, C] plane broadcast over the slab; a [B] vector cast to the [B, 1, 1] column of per-sample scalars; and a [B·T, C]
  matrix cast to the slab (row n·T + t is sample n at time t).
-/
import Idealize.ShloMosaic.Lib.ValueIdx
import Idealize.ShloMosaic.Lib.Pipeline.Value

noncomputable section

namespace Cert.LibSlabLayout

open Idealize.ShloMosaic Idealize.ShloMosaic.ValueIdx

variable {α : Type} {B T C : ℕ}

/-- A [1, 1, C] row broadcast over the slab reads, at (n, t, c), the row at c. -/
theorem bcast_row (v : (⟨3, ![1, 1, C]⟩ : Shape).Idx → α) (h : (⟨3, ![1, 1, C]⟩ : Shape).Broadcasts ⟨3, ![B, T, C]⟩)
    (n : Fin B) (t : Fin T) (c : Fin C) :
    broadcastTo ⟨3, ![B, T, C]⟩ v h (ix3 n t c) = v (ix3 (0 : Fin 1) (0 : Fin 1) c) := by
  refine broadcastTo_apply v h (ix3 n t c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

/-- A [B, 1, 1] column of per-sample scalars broadcast over the slab reads, at (n, t, c), sample n's scalar. -/
theorem bcast_sample (v : (⟨3, ![B, 1, 1]⟩ : Shape).Idx → α) (h : (⟨3, ![B, 1, 1]⟩ : Shape).Broadcasts ⟨3, ![B, T, C]⟩)
    (n : Fin B) (t : Fin T) (c : Fin C) :
    broadcastTo ⟨3, ![B, T, C]⟩ v h (ix3 n t c) = v (ix3 n (0 : Fin 1) (0 : Fin 1)) := by
  refine broadcastTo_apply v h (ix3 n t c) (ix3 n (0 : Fin 1) (0 : Fin 1)) fun ax => ?_
  match ax with
  | ⟨0, _⟩ =>
    show n.val = if B = 1 then 0 else n.val
    split
    · have := n.isLt; omega
    · rfl
  | ⟨1, _⟩ => rfl
  | ⟨2, _⟩ => rfl

/-- A [1, T, C] plane broadcast over the slab reads, at (n, t, c), the plane at (t, c). -/
theorem bcast_plane (v : (⟨3, ![1, T, C]⟩ : Shape).Idx → α) (h : (⟨3, ![1, T, C]⟩ : Shape).Broadcasts ⟨3, ![B, T, C]⟩)
    (n : Fin B) (t : Fin T) (c : Fin C) :
    broadcastTo ⟨3, ![B, T, C]⟩ v h (ix3 n t c) = v (ix3 (0 : Fin 1) t c) := by
  refine broadcastTo_apply v h (ix3 n t c) (ix3 (0 : Fin 1) t c) fun ax => ?_
  match ax with
  | ⟨0, _⟩ => rfl
  | ⟨1, _⟩ =>
    show t.val = if T = 1 then 0 else t.val
    split
    · have := t.isLt; omega
    · rfl
  | ⟨2, _⟩ =>
    show c.val = if C = 1 then 0 else c.val
    split
    · have := c.isLt; omega
    · rfl

/-- A [B] vector cast to the [B, 1, 1] column reads, at (n, 0, 0), the vector at n. -/
theorem cast_column (v : (⟨1, ![B]⟩ : Shape).Idx → α) (h : (⟨1, ![B]⟩ : Shape).ShapeCasts ⟨3, ![B, 1, 1]⟩) (n : Fin B) :
    shapeCast ⟨3, ![B, 1, 1]⟩ v h (ix3 n (0 : Fin 1) (0 : Fin 1)) = v (ix1 n) := by
  refine shapeCast_apply v h _ (ix1 n) ?_
  rw [Shape.rowMajor_val_one, Shape.rowMajor_val_three]
  show n.val = (n.val * 1 + 0) * 1 + 0
  omega

/-- A [M, C] matrix with M = B·T cast to the slab reads, at (n, t, c), row n·T + t at c. -/
theorem cast_slab {M : ℕ} (v : (⟨2, ![M, C]⟩ : Shape).Idx → α) (h : (⟨2, ![M, C]⟩ : Shape).ShapeCasts ⟨3, ![B, T, C]⟩)
    (n : Fin B) (t : Fin T) (c : Fin C) (r : Fin M) (hr : r.val = n.val * T + t.val) :
    shapeCast ⟨3, ![B, T, C]⟩ v h (ix3 n t c) = v (ix2 r c) := by
  refine shapeCast_apply v h _ (ix2 r c) ?_
  rw [Shape.rowMajor_val_two, Shape.rowMajor_val_three]
  show r.val * C + c.val = (n.val * T + t.val) * C + c.val
  rw [hr]

/-- The slab cast to a [M, C] matrix with M = B·T reads, at (r, c) with r = n·T + t, the slab at (n, t, c). -/
theorem cast_flat {M : ℕ} (v : (⟨3, ![B, T, C]⟩ : Shape).Idx → α) (h : (⟨3, ![B, T, C]⟩ : Shape).ShapeCasts ⟨2, ![M, C]⟩)
    (n : Fin B) (t : Fin T) (c : Fin C) (r : Fin M) (hr : r.val = n.val * T + t.val) :
    shapeCast ⟨2, ![M, C]⟩ v h (ix2 r c) = v (ix3 n t c) := by
  refine shapeCast_apply v h _ (ix3 n t c) ?_
  rw [Shape.rowMajor_val_two, Shape.rowMajor_val_three]
  show (n.val * T + t.val) * C + c.val = r.val * C + c.val
  rw [hr]

end Cert.LibSlabLayout

end
-- ==== Proof.KerReadLayout.lean ====
/-
  The kernel program's layout operations, read at an index, at the ideal instance: the exchange of the graph and node
  axes both ways; the node-major array [16384, 16, 128] read as [262144, 128] rows and back (row r is node r / 16 of
  graph r % 16, r = 16·v + n); one dense weight cut out of a stack of two and narrowed (narrowing is the identity on
  exact values); one affine parameter cut out of a [2, 128] pair as a [1, 128] row.
-/
import proofs.«163542_j78460462563808_2_alg».proof.Proof.KerLayer
import proofs.«163542_j78460462563808_2_alg».proof.Proof.LibSlabLayout
import proofs.«163542_j78460462563808_2_alg».proof.Proof.LibStackSlab
import Idealize.ShloMosaic.Lib.ValueIdx
import Idealize.ShloMosaic.Lib.ValueLayout
import Idealize.ShloMosaic.Lib.Pipeline.Value
import Idealize.ShloMosaic.PureOps.Ideal

noncomputable section

namespace Cert.KernelIdeal.KerRead

open Cert.KernelIdeal Cert.KernelIdeal.KerLayer Idealize.ShloMosaic Idealize.ShloMosaic.ValueIdx
open Facts₀ Facts

variable [Cert.KernelIdeal.Facts]

/-- The node-major array at (node v, graph n, feature d) is the graph-major one at (n, v, d). -/
theorem toNodeMajor_apply (h : FVec Ideal S16x16384x128 .f32) (v : Fin 16384) (n : Fin 16) (d : Fin 128) :
    toNodeMajor (F := Ideal) h (ix3 v n d) = h (ix3 n v d) := by
  unfold toNodeMajor
  exact transpose_apply _ h _ (ix3 v n d) (ix3 n v d) fun c =>
    match c with | ⟨0, _⟩ => rfl | ⟨1, _⟩ => rfl | ⟨2, _⟩ => rfl

/-- The graph-major array at (graph n, node v, feature d) is the node-major one at (v, n, d). -/
theorem toGraphMajor_apply (o : FVec Ideal S16384x16x128 .f32) (n : Fin 16) (v : Fin 16384) (d : Fin 128) :
    toGraphMajor (F := Ideal) o (ix3 n v d) = o (ix3 v n d) := by
  unfold toGraphMajor
  exact transpose_apply _ o _ (ix3 n v d) (ix3 v n d) fun c =>
    match c with | ⟨0, _⟩ => rfl | ⟨1, _⟩ => rfl | ⟨2, _⟩ => rfl

/-- Row r = 16·v + n of the flattened array at column d is the node-major array at (v, n, d). -/
theorem flat_apply (xt : FVec Ideal S16384x16x128 .f32) (v : Fin 16384) (n : Fin 16) (d : Fin 128) (r : Fin 262144)
    (hr : r.val = v.val * 16 + n.val) : flat (F := Ideal) xt (ix2 r d) = xt (ix3 v n d) := by
  unfold flat
  exact Cert.LibSlabLayout.cast_flat xt _ v n d r hr

/-- The rows read back as a node-major array: at (v, n, e), row r = 16·v + n at column e. -/
theorem unflat_apply (o : FVec Ideal S262144x128 .f32) (v : Fin 16384) (n : Fin 16) (e : Fin 128) (r : Fin 262144)
    (hr : r.val = v.val * 16 + n.val) : unflat (F := Ideal) o (ix3 v n e) = o (ix2 r e) := by
  unfold unflat
  exact Cert.LibSlabLayout.cast_slab o _ v n e r hr

/-- Layer 0's dense weight at (e, d) is the stack's matrix 0 at (e, d). -/
theorem wK0_apply (w : FVec Ideal S2x128x128 .f32) (e d : Fin 128) :
    wK0 (F := Ideal) w (ix2 e d) = w (ix3 (0 : Fin 2) e d) := by
  unfold wK0
  show shapeCast S128x128 (extractStridedSlice S1x128x128 ![0, 0, 0] w slices_S2x128x128_S1x128x128_0_0_0)
    shapeCasts_S1x128x128_S128x128 (ix2 e d) = _
  exact Cert.LibStackSlab.stackSlab_apply 0 (0 : Fin 2) rfl w _ _ e d

/-- Layer 1's dense weight at (e, d) is the stack's matrix 1 at (e, d). -/
theorem wK1_apply (w : FVec Ideal S2x128x128 .f32) (e d : Fin 128) :
    wK1 (F := Ideal) w (ix2 e d) = w (ix3 (1 : Fin 2) e d) := by
  unfold wK1
  show shapeCast S128x128 (extractStridedSlice S1x128x128 ![1, 0, 0] w slices_S2x128x128_S1x128x128_1_0_0)
    shapeCasts_S1x128x128_S128x128 (ix2 e d) = _
  exact Cert.LibStackSlab.stackSlab_apply 1 (1 : Fin 2) rfl w _ _ e d

/-- Layer 0's affine parameter as a row: at (0, e), the pair's row 0 at e. -/
theorem gK0_apply (p : FVec Ideal S2x128 .f32) (e : Fin 128) :
    gK0 (F := Ideal) p (ix2 (0 : Fin 1) e) = p (ix2 (0 : Fin 2) e) := by
  unfold gK0
  refine (shapeCast_a_1a_apply _ _ (0 : Fin 1) e).trans ?_
  refine (shapeCast_1a_a_apply _ _ e).trans ?_
  exact slice2_axis0_apply 0 p _ (0 : Fin 1) e (0 : Fin 2) rfl

/-- Layer 1's affine parameter as a row: at (0, e), the pair's row 1 at e. -/
theorem gK1_apply (p : FVec Ideal S2x128 .f32) (e : Fin 128) :
    gK1 (F := Ideal) p (ix2 (0 : Fin 1) e) = p (ix2 (1 : Fin 2) e) := by
  unfold gK1
  refine (shapeCast_a_1a_apply _ _ (0 : Fin 1) e).trans ?_
  refine (shapeCast_1a_a_apply _ _ e).trans ?_
  exact slice2_axis0_apply 1 p _ (0 : Fin 1) e (1 : Fin 2) rfl

end Cert.KernelIdeal.KerRead

end
-- ==== Proof.KerReadAgg.lean ====
/-
  The kernel program's neighbour aggregation read at an index, at the ideal instance. Row r = 16·v + n of the flattened
  aggregate, at feature d, is the sum over the edges j that end at node v of the source node's features in graph n,
  scaled by the edge weight: the segment sum starts from zeros, an update is the gathered row times the weight, the
  gather's row number is the wrapped source word (signed, clamped into the node range), the segment sum's row number is
  the destination word (signed, not clamped: an edge that ends at no node is dropped).
-/
import proofs.«163542_j78460462563808_2_alg».proof.Proof.KerLayer
import proofs.«163542_j78460462563808_2_alg».proof.Proof.LibScatter3
import proofs.«163542_j78460462563808_2_alg».proof.Proof.LibSlabLayout
import proofs.«163542_j78460462563808_2_alg».proof.Proof.EdgeIdx
import proofs.«163542_j78460462563808_2_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.KernelIdeal.KerRead

open Cert.KernelIdeal Cert.KernelIdeal.KerLayer Cert.Gnn Idealize.ShloMosaic Idealize.ShloMosaic.ValueIdx
open Facts₀ Facts

/-! ## Generic in the sizes -/

/-- A length-E vector laid out as an [E, 1] column reads, at (j, 0), the vector at j. -/
theorem col_apply {α : Type} {E : ℕ}
    (h : (⟨1, ![E]⟩ : Shape).BroadcastsInDim ⟨2, ![E, 1]⟩ (![0] : Fin 1 → Fin 2))
    (x : (⟨1, ![E]⟩ : Shape).Idx → α) (j : Fin E) (u : Fin 1) :
    broadcastInDim (⟨2, ![E, 1]⟩ : Shape) (![0] : Fin 1 → Fin 2) h x (ix2 j u) = x (ix1 j) := by
  refine broadcastInDim_apply _ h x (ix2 j u) (ix1 j) (fun a => ?_)
  match a with
  | ⟨0, _⟩ =>
    show j.val = if E = 1 then 0 else j.val
    by_cases hE : E = 1
    · rw [if_pos hE]; have := j.isLt; omega
    · rw [if_neg hE]

/-- A length-E vector of per-edge scalars laid out as [E, 1, 1] and spread over [E, N, D] reads, at (j, n, d), the
    vector at j. -/
theorem perEdge_apply {α : Type} {E N D : ℕ}
    (h1 : (⟨1, ![E]⟩ : Shape).BroadcastsInDim ⟨3, ![E, 1, 1]⟩ (![0] : Fin 1 → Fin 3))
    (h2 : (⟨3, ![E, 1, 1]⟩ : Shape).BroadcastsInDim ⟨3, ![E, N, D]⟩ (![0, 1, 2] : Fin 3 → Fin 3))
    (a : (⟨1, ![E]⟩ : Shape).Idx → α) (j : Fin E) (n : Fin N) (d : Fin D) :
    broadcastInDim (⟨3, ![E, N, D]⟩ : Shape) (![0, 1, 2] : Fin 3 → Fin 3) h2
      (broadcastInDim (⟨3, ![E, 1, 1]⟩ : Shape) (![0] : Fin 1 → Fin 3) h1 a) (ix3 j n d) = a (ix1 j) := by
  refine (broadcastInDim_apply _ h2 _ (ix3 j n d) (ix3 j (0 : Fin 1) (0 : Fin 1)) (fun ax => ?_)).trans ?_
  · match ax with
    | ⟨0, _⟩ =>
      show j.val = if E = 1 then 0 else j.val
      by_cases hE : E = 1
      · rw [if_pos hE]; have := j.isLt; omega
      · rw [if_neg hE]
    | ⟨1, _⟩ => rfl
    | ⟨2, _⟩ => rfl
  · refine broadcastInDim_apply _ h1 a (ix3 j (0 : Fin 1) (0 : Fin 1)) (ix1 j) (fun ax => ?_)
    match ax with
    | ⟨0, _⟩ =>
      show j.val = if E = 1 then 0 else j.val
      by_cases hE : E = 1
      · rw [if_pos hE]; have := j.isLt; omega
      · rw [if_neg hE]

/-- GATHER, WEIGH, SEGMENT-SUM INTO ZEROS, node-major, read at (v, n, d): the neighbour aggregation of the
    (graph, node, feature) array X n v d = x[v, n, d], for any edge reading `src`, `dst`, `A` that agrees with the index
    and weight arrays (the source row the gather's clamped row number, the destination the signed word, the weight the
    same at every place of the edge's row). -/
theorem agg3_apply {V N D E : ℕ} (hV : 0 < V)
    (wfS : ScatterDims.WF ⟨3, ![V, N, D]⟩ ⟨2, ![E, 1]⟩ ⟨3, ![E, N, D]⟩ [1, 2] [0] [0] 1)
    (wfG : GatherDims.WF ⟨3, ![V, N, D]⟩ ⟨2, ![E, 1]⟩ ⟨3, ![E, N, D]⟩ [1, 2] [0] [] [0] [] 1 ![1, N, D])
    (srcI dstI : IVec ⟨2, ![E, 1]⟩ 32) (z : FVec Ideal ⟨3, ![V, N, D]⟩ .f32) (hz : ∀ i, z i = 0)
    (x : FVec Ideal ⟨3, ![V, N, D]⟩ .f32) (wgt : FVec Ideal ⟨3, ![E, N, D]⟩ .f32)
    (src : Fin E → Fin V) (hsrc : ∀ j, (src j).val = min (srcI (ix2 j (0 : Fin 1))).toInt.toNat (V - 1))
    (dst : Fin E → ℤ) (hdst : ∀ j, dst j = (dstI (ix2 j (0 : Fin 1))).toInt)
    (A : Fin E → EReal) (hA : ∀ j n d, wgt (ix3 j n d) = A j)
    (v : Fin V) (n : Fin N) (d : Fin D) :
    Host.scatterAdd (F := Ideal) (φ := .f32) (Cert.LibScatter3.scatterA V N D E wfS) z dstI
        (mulf (Host.gather (Cert.LibScatter3.gatherA V N D E wfG) x srcI) wgt) (ix3 v n d)
      = nei (fun n v d => x (ix3 v n d)) src dst A n v d := by
  show Ideal.hostScatterAdd (Cert.LibScatter3.scatterA V N D E wfS) z dstI
        (mulf (Host.gather (Cert.LibScatter3.gatherA V N D E wfG) x srcI) wgt) (ix3 v n d) = _
  rw [Cert.LibScatter3.scatterA_apply, hz, zero_add]
  unfold nei
  refine Finset.sum_congr rfl fun j _ => ?_
  rw [hdst j]
  show (if (dstI (ix2 j (0 : Fin 1))).toInt = (v.val : ℤ) then
      Host.gather (Cert.LibScatter3.gatherA V N D E wfG) x srcI (ix3 j n d) * wgt (ix3 j n d) else 0) = _
  rw [Cert.LibScatter3.gatherA_apply hV, hA,
    show (⟨min (srcI (ix2 j (0 : Fin 1))).toInt.toNat (V - 1), by omega⟩ : Fin V) = src j from Fin.ext (hsrc j).symm]

/-! ## The kernel program's aggregation -/

variable [Cert.KernelIdeal.Facts]

/-- THE FLATTENED AGGREGATE READ AT (r, d) with r = 16·v + n: the neighbour aggregation of the (graph, node, feature)
    array X n v d = xt[v, n, d] at (n, v, d). -/
theorem aggFlat_apply (xt : FVec Ideal S16384x16x128 .f32) (i1 i2 : IVec S65536 32) (a : FVec Ideal S65536 .f32)
    (v : Fin 16384) (n : Fin 16) (d : Fin 128) (r : Fin 262144) (hr : r.val = v.val * 16 + n.val) :
    aggFlat (F := Ideal) xt i1 i2 a (ix2 r d)
      = nei (fun n v d => xt (ix3 v n d)) (srcOf 16384 (by decide) 16384#32 i1) (dstOf i2) (fun j => a (ix1 j)) n v d := by
  unfold aggFlat
  refine (Cert.LibSlabLayout.cast_flat _ _ v n d r hr).trans ?_
  refine agg3_apply (V := 16384) (N := 16) (D := 128) (E := 65536) (by decide)
    scatter_S16384x16x128_S65536x1_S65536x16x128_12_0_0_1_wf
    gather_S16384x16x128_S65536x1_S65536x16x128_12_0_n_n_0_1_116128_wf _ _ _ (fun _ => Ideal.ofBits_zero_f32) xt _
    (srcOf 16384 (by decide) 16384#32 i1) (fun j => ?_) (dstOf i2) (fun j => ?_) (fun j => a (ix1 j)) (fun j n d => ?_) v n d
  · unfold srcOf
    rw [col_apply]
    rfl
  · unfold dstOf
    rw [col_apply]
  · exact perEdge_apply _ _ a j n d

end Cert.KernelIdeal.KerRead

end
-- ==== Proof.KerReadStats.lean ====
/-
  The kernel program's batch statistics and normalisation read at an index, at the ideal instance.

  The dense region leaves, in row 8·i of a [512, 128] array, the column sums of block i (4096 rows) of the [262144, 128]
  array y, and zeros in the seven rows after it. Adding the 512 rows is therefore adding every row of y — and, the rows
  being r = 16·v + n, adding y over every node v of every graph n. Three re-indexings of a finite sum in a commutative
  monoid (no finiteness of the values is needed): every K-th row of A·K rows, A blocks of B rows, V groups of N rows.
  Divided by the count this is the mean; the scale is γ·rsqrt((mean of squares − mean·mean) + ε), the shift
  β − mean·scale, and the normalisation region takes max(y·scale + shift, 0).
-/
import proofs.«163542_j78460462563808_2_alg».proof.Proof.KerArrays
import proofs.«163542_j78460462563808_2_alg».proof.Proof.KerReadLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.KerRead

open Cert.KernelIdeal Cert.KernelIdeal.KerLayer Cert.Gnn Idealize.ShloMosaic Idealize.ShloMosaic.ValueIdx
open Facts₀ Facts

/-! ## Re-indexing finite sums, generic in the sizes -/

/-- A sum over A blocks of B consecutive places is the sum over all R = A·B places: place r = B·i + q is place q of
    block i. -/
theorem sum_blocks {M : Type*} [AddCommMonoid M] {R A B : ℕ} (hR : R = A * B) (g : Fin R → M) (G : Fin A → Fin B → M)
    (hG : ∀ (i : Fin A) (q : Fin B) (r : Fin R), r.val = B * i.val + q.val → G i q = g r) :
    ∑ i : Fin A, ∑ q : Fin B, G i q = ∑ r : Fin R, g r := by
  subst hR
  rw [← Equiv.sum_comp finProdFinEquiv g, Fintype.sum_prod_type]
  refine Finset.sum_congr rfl fun i _ => Finset.sum_congr rfl fun q _ => ?_
  refine hG i q _ ?_
  show q.val + B * i.val = B * i.val + q.val
  exact Nat.add_comm _ _

/-- A sum over P = A·K places that is zero off the multiples of K is the sum over the A multiples: place K·i carries
    the i-th term. -/
theorem sum_every_kth {M : Type*} [AddCommMonoid M] {P A K : ℕ} (hP : P = A * K) (hK : 0 < K) (F : Fin P → M)
    (f : Fin A → M) (hF0 : ∀ (p : Fin P) (i : Fin A), p.val = K * i.val → F p = f i)
    (hF1 : ∀ p : Fin P, p.val % K ≠ 0 → F p = 0) :
    ∑ p : Fin P, F p = ∑ i : Fin A, f i := by
  subst hP
  rw [← Equiv.sum_comp finProdFinEquiv F, Fintype.sum_prod_type]
  refine Finset.sum_congr rfl fun i _ => ?_
  rw [Finset.sum_eq_single (⟨0, hK⟩ : Fin K)]
  · refine hF0 _ i ?_
    show 0 + K * i.val = K * i.val
    exact Nat.zero_add _
  · intro k _ hk
    refine hF1 _ ?_
    show (k.val + K * i.val) % K ≠ 0
    rw [Nat.add_mul_mod_self_left, Nat.mod_eq_of_lt k.isLt]
    exact fun h0 => hk (Fin.ext h0)
  · intro h; exact absurd (Finset.mem_univ _) h

/-- The host's sum of an a × b matrix over its rows, at column n, at the exact reading: the initial value plus the
    sum of the column. -/
theorem hostReduceAdd_rows_apply {a b : ℕ} (src : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (n : Fin b) :
    Ideal.hostReduceAdd h' src init (ix1 n) = init + ∑ r : Fin a, src (ix2 r n) :=
  (Ideal.hostReduceAdd_single h' h src init (ix1 n)).trans
    (congrArg (init + ·) (Finset.sum_congr rfl fun r _ => congrArg src
      (funext fun ax => Fin.ext (by match ax with | ⟨0, _⟩ => rfl | ⟨1, _⟩ => rfl))))

/-! ## The kernel program's statistics -/

variable [Cert.KernelIdeal.Facts]

/-- The mean row at column e: the 512 rows added at column e, divided by the count. -/
theorem meanRow_apply (s : FVec Ideal S512x128 .f32) (e : Fin 128) :
    meanRow (F := Ideal) s (ix2 (0 : Fin 1) e)
      = Ideal.div (∑ p : Fin 512, s (ix2 p e)) (Ideal.ofBits .f32 0x48800000#32) := by
  unfold meanRow
  refine (shapeCast_a_1a_apply _ _ (0 : Fin 1) e).trans ?_
  show Ideal.div (Ideal.hostReduceAdd reducesTo_S512x128_S128_d0 s (Ideal.ofBits .f32 0x00000000#32) (ix1 e))
    (Ideal.ofBits .f32 0x48800000#32) = _
  rw [hostReduceAdd_rows_apply s _ reducesTo_S512x128_S128_d0 (by decide) e, Ideal.ofBits_zero_f32, zero_add]

/-- Two reads of y at indices with equal coordinates agree. -/
theorem read_congr (y : FVec Ideal S262144x128 .f32) (r r' : Fin 262144) (c c' : Fin 128) (hr : r.val = r'.val)
    (hc : c.val = c'.val) : y (ix2 r c) = y (ix2 r' c') := by
  rw [Fin.ext hr, Fin.ext hc]

/-- The 512 rows of the partial column sums, added at column e, are every row of y added at column e. -/
theorem sum_s1Arr (y : FVec Ideal S262144x128 .f32) (e : Fin 128) :
    ∑ p : Fin 512, s1Arr y (ix2 p e) = ∑ r : Fin 262144, y (ix2 r e) := by
  rw [← sum_blocks (A := 64) (B := 4096) (by norm_num) (fun r => y (ix2 r e))
    (fun i q => y (ix2 (⟨4096 * i.val + q.val, by have := i.isLt; have := q.isLt; omega⟩ : Fin 262144) e))
    (fun i q r hr => read_congr y _ _ _ _ hr.symm rfl)]
  refine sum_every_kth (A := 64) (K := 8) (by norm_num) (by norm_num) _ _ (fun p i hp => ?_) (fun p hp => ?_)
  · show (if p.val % 8 = 0 then
        ∑ q : Fin 4096, y (ix2 (⟨4096 * (p.val / 8) + q.val, _⟩ : Fin 262144) (⟨e.val, _⟩ : Fin 128)) else 0) = _
    rw [if_pos (by omega)]
    refine Finset.sum_congr rfl fun q _ => read_congr y _ _ _ _ ?_ rfl
    show 4096 * (p.val / 8) + q.val = 4096 * i.val + q.val
    omega
  · show (if p.val % 8 = 0 then
        ∑ q : Fin 4096, y (ix2 (⟨4096 * (p.val / 8) + q.val, _⟩ : Fin 262144) (⟨e.val, _⟩ : Fin 128)) else 0) = _
    rw [if_neg hp]

/-- The same for the partial column sums of the squares. -/
theorem sum_s2Arr (y : FVec Ideal S262144x128 .f32) (e : Fin 128) :
    ∑ p : Fin 512, s2Arr y (ix2 p e) = ∑ r : Fin 262144, y (ix2 r e) * y (ix2 r e) := by
  rw [← sum_blocks (A := 64) (B := 4096) (by norm_num) (fun r => y (ix2 r e) * y (ix2 r e))
    (fun i q => y (ix2 (⟨4096 * i.val + q.val, by have := i.isLt; have := q.isLt; omega⟩ : Fin 262144) e)
      * y (ix2 (⟨4096 * i.val + q.val, by have := i.isLt; have := q.isLt; omega⟩ : Fin 262144) e))
    (fun i q r hr => by rw [read_congr y _ r e e hr.symm rfl])]
  refine sum_every_kth (A := 64) (K := 8) (by norm_num) (by norm_num) _ _ (fun p i hp => ?_) (fun p hp => ?_)
  · show (if p.val % 8 = 0 then
        ∑ q : Fin 4096, (y (ix2 (⟨4096 * (p.val / 8) + q.val, _⟩ : Fin 262144) (⟨e.val, _⟩ : Fin 128))
          * y (ix2 (⟨4096 * (p.val / 8) + q.val, _⟩ : Fin 262144) (⟨e.val, _⟩ : Fin 128))) else 0) = _
    rw [if_pos (by omega)]
    refine Finset.sum_congr rfl fun q _ => ?_
    have hq : 4096 * (p.val / 8) + q.val = 4096 * i.val + q.val := by omega
    rw [read_congr y _ (⟨4096 * i.val + q.val, by have := i.isLt; have := q.isLt; omega⟩ : Fin 262144) _ e hq rfl]
  · show (if p.val % 8 = 0 then
        ∑ q : Fin 4096, (y (ix2 (⟨4096 * (p.val / 8) + q.val, _⟩ : Fin 262144) (⟨e.val, _⟩ : Fin 128))
          * y (ix2 (⟨4096 * (p.val / 8) + q.val, _⟩ : Fin 262144) (⟨e.val, _⟩ : Fin 128))) else 0) = _
    rw [if_neg hp]

section
variable (y : FVec Ideal S262144x128 .f32) (Y : Fin 16 → Fin 16384 → Fin 128 → EReal)
  (hy : ∀ (v : Fin 16384) (n : Fin 16) (e : Fin 128) (r : Fin 262144), r.val = v.val * 16 + n.val → y (ix2 r e) = Y n v e)
include hy

/-- Every row of y added at column e is the total of Y over every node of every graph. -/
theorem sum_rows_eq_tot (e : Fin 128) : ∑ r : Fin 262144, y (ix2 r e) = tot Y e := by
  unfold tot
  exact (sum_blocks (A := 16384) (B := 16) (by norm_num) (fun r => y (ix2 r e)) (fun v n => Y n v e)
    (fun v n r hr => (hy v n e r (by omega)).symm)).symm

/-- Every row of y squared added at column e is the total of Y·Y. -/
theorem sum_rows_sq_eq_tot (e : Fin 128) :
    ∑ r : Fin 262144, y (ix2 r e) * y (ix2 r e) = tot (fun n v e => Y n v e * Y n v e) e := by
  unfold tot
  exact (sum_blocks (A := 16384) (B := 16) (by norm_num) (fun r => y (ix2 r e) * y (ix2 r e))
    (fun v n => Y n v e * Y n v e) (fun v n r hr => by rw [hy v n e r (by omega)])).symm

/-- The mean of y over the batch at column e. -/
theorem meanRow_s1_apply (e : Fin 128) :
    meanRow (F := Ideal) (s1Arr y) (ix2 (0 : Fin 1) e) = Ideal.div (tot Y e) (Ideal.ofBits .f32 0x48800000#32) := by
  rw [meanRow_apply, sum_s1Arr, sum_rows_eq_tot y Y hy]

/-- The mean of y·y over the batch at column e. -/
theorem meanRow_s2_apply (e : Fin 128) :
    meanRow (F := Ideal) (s2Arr y) (ix2 (0 : Fin 1) e)
      = Ideal.div (tot (fun n v e => Y n v e * Y n v e) e) (Ideal.ofBits .f32 0x48800000#32) := by
  rw [meanRow_apply, sum_s2Arr, sum_rows_sq_eq_tot y Y hy]

end

/-- The scale row at column e: γ · rsqrt((mean of squares − mean · mean) + ε). -/
theorem scaleRow_apply (s1 s2 : FVec Ideal S512x128 .f32) (g : FVec Ideal S1x128 .f32) (e : Fin 128) :
    scaleRow (F := Ideal) s1 s2 g (ix2 (0 : Fin 1) e)
      = g (ix2 (0 : Fin 1) e) * Ideal.rsqrt ((meanRow (F := Ideal) s2 (ix2 (0 : Fin 1) e)
          - meanRow (F := Ideal) s1 (ix2 (0 : Fin 1) e) * meanRow (F := Ideal) s1 (ix2 (0 : Fin 1) e))
          + Ideal.ofBits .f32 0x3727C5AC#32) := rfl

/-- The shift row at column e: β − mean · scale. -/
theorem shiftRow_apply (s1 s2 : FVec Ideal S512x128 .f32) (g b : FVec Ideal S1x128 .f32) (e : Fin 128) :
    shiftRow (F := Ideal) s1 s2 g b (ix2 (0 : Fin 1) e)
      = b (ix2 (0 : Fin 1) e) - meanRow (F := Ideal) s1 (ix2 (0 : Fin 1) e) * scaleRow (F := Ideal) s1 s2 g (ix2 (0 : Fin 1) e) :=
  rfl

/-- The normalisation region at (r, e): max(y·scale + shift, 0) with the rows read at column e. -/
theorem nrArr_apply (y : FVec Ideal S262144x128 .f32) (sc sh : FVec Ideal S1x128 .f32) (r : Fin 262144) (e : Fin 128) :
    nrArr y sc sh (ix2 r e) = max (y (ix2 r e) * sc (ix2 (0 : Fin 1) e) + sh (ix2 (0 : Fin 1) e)) 0 := rfl

/-- STATISTICS, SCALE, SHIFT, NORMALISATION, UNFLATTEN, read at (v, n, e): the folded batch normalisation of the
    (graph, node, feature) array Y with Y n v e = y[16·v + n, e]. -/
theorem norm_apply (y : FVec Ideal S262144x128 .f32) (Y : Fin 16 → Fin 16384 → Fin 128 → EReal)
    (hy : ∀ (v : Fin 16384) (n : Fin 16) (e : Fin 128) (r : Fin 262144), r.val = v.val * 16 + n.val → y (ix2 r e) = Y n v e)
    (g b : FVec Ideal S1x128 .f32) (v : Fin 16384) (n : Fin 16) (e : Fin 128) :
    unflat (F := Ideal) (nrArr y (scaleRow (s1Arr y) (s2Arr y) g) (shiftRow (s1Arr y) (s2Arr y) g b)) (ix3 v n e)
      = kerNorm (Ideal.ofBits .f32 0x48800000#32) (Ideal.ofBits .f32 0x3727C5AC#32) Y
          (fun e => g (ix2 (0 : Fin 1) e)) (fun e => b (ix2 (0 : Fin 1) e)) n v e := by
  rw [unflat_apply _ v n e (⟨v.val * 16 + n.val, by have := v.isLt; have := n.isLt; omega⟩ : Fin 262144) rfl,
    nrArr_apply, shiftRow_apply, scaleRow_apply, meanRow_s1_apply y Y hy, meanRow_s2_apply y Y hy,
    hy v n e _ rfl]
  rfl

end Cert.KernelIdeal.KerRead

end
-- ==== Proof.KerRead.lean ====
/-
  One layer of the kernel program read at an index, at the ideal instance: the node-major array is flattened to rows
  (row 16·v + n is node v of graph n), the neighbour aggregation is flattened the same way, the dense region adds the
  two dense maps, the statistics are the totals over every node of every graph, and the normalisation region applies the
  folded scale and shift and takes the positive part. At (v, n, e) this is the mathematical layer at (n, v, e).
-/
import proofs.«163542_j78460462563808_2_alg».proof.Proof.KerArrays
import proofs.«163542_j78460462563808_2_alg».proof.Proof.KerReadLayout
import proofs.«163542_j78460462563808_2_alg».proof.Proof.KerReadAgg
import proofs.«163542_j78460462563808_2_alg».proof.Proof.KerReadStats

noncomputable section

open scoped BigOperators

namespace Cert.KernelIdeal.KerRead

open Cert.KernelIdeal Cert.KernelIdeal.KerLayer Cert.Gnn Idealize.ShloMosaic Idealize.ShloMosaic.ValueIdx
open Facts₀ Facts

variable [Cert.KernelIdeal.Facts]

/-- The dense region's output at (r, e): row r of x against row e of ws plus row r of xn against row e of wn. -/
theorem yArr_apply (x xn : FVec Ideal S262144x128 .f32) (ws wn : FVec Ideal S128x128 .bf16) (r : Fin 262144)
    (e : Fin 128) :
    yArr x xn ws wn (ix2 r e)
      = (∑ d : Fin 128, x (ix2 r d) * ws (ix2 e d)) + ∑ d : Fin 128, xn (ix2 r d) * wn (ix2 e d) := rfl

/-- The dense region on the flattened input and the flattened aggregate, at row r = 16·v + n: the dense part of the
    layer on X n v d = xt[v, n, d] and its neighbour aggregation, at (n, v, e). -/
theorem yArr_flat_apply (xt : FVec Ideal S16384x16x128 .f32) (i1 i2 : IVec S65536 32) (a : FVec Ideal S65536 .f32)
    (ws wn : FVec Ideal S128x128 .bf16) (v : Fin 16384) (n : Fin 16) (e : Fin 128) (r : Fin 262144)
    (hr : r.val = v.val * 16 + n.val) :
    yArr (flat xt) (aggFlat xt i1 i2 a) ws wn (ix2 r e)
      = lin (fun n v d => xt (ix3 v n d))
          (nei (fun n v d => xt (ix3 v n d)) (srcOf 16384 (by decide) 16384#32 i1) (dstOf i2) (fun j => a (ix1 j)))
          (fun e d => ws (ix2 e d)) (fun e d => wn (ix2 e d)) n v e := by
  refine (yArr_apply (flat xt) (aggFlat xt i1 i2 a) ws wn r e).trans ?_
  unfold lin
  refine congrArg₂ (· + ·) ?_ ?_
  · refine Finset.sum_congr rfl fun d _ => ?_
    rw [flat_apply xt v n d r hr]
  · refine Finset.sum_congr rfl fun d _ => ?_
    rw [aggFlat_apply xt i1 i2 a v n d r hr]

/-- ONE KERNEL LAYER READ AT (v, n, e): the mathematical layer (the kernel's way of normalising) of the
    (graph, node, feature) array X n v d = xt[v, n, d], at (n, v, e); the count and ε are the program's two words. -/
theorem layerK_apply (xt : FVec Ideal S16384x16x128 .f32) (i1 i2 : IVec S65536 32) (a : FVec Ideal S65536 .f32)
    (ws wn : FVec Ideal S128x128 .bf16) (g b : FVec Ideal S1x128 .f32) (v : Fin 16384) (n : Fin 16) (e : Fin 128) :
    layerK xt i1 i2 a ws wn g b (ix3 v n e)
      = kerLayer (Ideal.ofBits .f32 0x48800000#32) (Ideal.ofBits .f32 0x3727C5AC#32) (fun n v d => xt (ix3 v n d))
          (srcOf 16384 (by decide) 16384#32 i1) (dstOf i2) (fun j => a (ix1 j)) (fun e d => ws (ix2 e d))
          (fun e d => wn (ix2 e d)) (fun e => g (ix2 (0 : Fin 1) e)) (fun e => b (ix2 (0 : Fin 1) e)) n v e := by
  unfold layerK kerLayer
  exact norm_apply (yArr (flat xt) (aggFlat xt i1 i2 a) ws wn) _
    (fun v n e r hr => yArr_flat_apply xt i1 i2 a ws wn v n e r hr) g b v n e

end Cert.KernelIdeal.KerRead

end
-- ==== Proof.Bridge.lean ====
/-
  The two programs compute the same two graph layers.

  Read at an index, one layer of the first program is the layer function with the variance taken as mean of squares
  minus squared mean and the scale and shift folded; one layer of the second is the layer function with the variance
  as the mean squared deviation. The first program works on the (node, graph, feature) arrangement and exchanges the
  two leading axes on the way in and on the way out, and takes each layer's weights and affine parameters as slices of
  the same stacks the second program slices. On real entries the two layer functions are one function, and a layer
  of real entries has real entries, so the law applies at the first layer and again at the second.
-/
import proofs.«163542_j78460462563808_2_alg».proof.Proof.KerArrays
import proofs.«163542_j78460462563808_2_alg».proof.Proof.RefLayer
import proofs.«163542_j78460462563808_2_alg».proof.Proof.Spec
import proofs.«163542_j78460462563808_2_alg».proof.Proof.NormLaw
import proofs.«163542_j78460462563808_2_alg».proof.Proof.EdgeIdx
import Idealize.ShloMosaic.Lib.ValueIdx

noncomputable section

open scoped BigOperators

namespace Cert.Bridge

open Idealize.ShloMosaic Idealize.ShloMosaic.ValueIdx Cert.Gnn

variable [Cert.KernelIdeal.Facts] [Cert.ReferenceIdeal.Facts]

/-- The law of one layer applied twice: the first layer's result is real, so the law applies to the second. -/
theorem two_layer_law {N V D E : ℕ} (Mr εr : ℝ) (hM : Mr = ((N * V : ℕ) : ℝ)) (hNV : 0 < N * V) (hε : 0 < εr)
    (X : Fin N → Fin V → Fin D → EReal) (hX : ∀ n v d, IsReal (X n v d)) (src : Fin E → Fin V) (dst : Fin E → ℤ)
    (A : Fin E → EReal) (hA : ∀ j, IsReal (A j))
    (Ws0 Wn0 : Fin D → Fin D → EReal) (hWs0 : ∀ e d, IsReal (Ws0 e d)) (hWn0 : ∀ e d, IsReal (Wn0 e d))
    (γ0 β0 : Fin D → EReal) (hγ0 : ∀ e, IsReal (γ0 e)) (hβ0 : ∀ e, IsReal (β0 e))
    (Ws1 Wn1 : Fin D → Fin D → EReal) (hWs1 : ∀ e d, IsReal (Ws1 e d)) (hWn1 : ∀ e d, IsReal (Wn1 e d))
    (γ1 β1 : Fin D → EReal) (hγ1 : ∀ e, IsReal (γ1 e)) (hβ1 : ∀ e, IsReal (β1 e)) :
    kerLayer (Mr : EReal) (εr : EReal) (kerLayer (Mr : EReal) (εr : EReal) X src dst A Ws0 Wn0 γ0 β0) src dst A Ws1 Wn1 γ1 β1
      = refLayer (Mr : EReal) (εr : EReal) (refLayer (Mr : EReal) (εr : EReal) X src dst A Ws0 Wn0 γ0 β0) src dst A Ws1 Wn1 γ1 β1 := by
  rw [layer_law Mr εr hM hNV hε X hX src dst A hA Ws0 Wn0 hWs0 hWn0 γ0 β0 hγ0 hβ0]
  exact layer_law Mr εr hM hNV hε _
    (refLayer_real Mr εr hM hNV hε X hX src dst A hA Ws0 Wn0 hWs0 hWn0 γ0 β0 hγ0 hβ0)
    src dst A hA Ws1 Wn1 hWs1 hWn1 γ1 β1 hγ1 hβ1

/-- The two programs' two layers are one array, every floating-point input entry being a real number. -/
theorem two_layers_eq
    (hcount : Ideal.ofBits .f32 0x48800000#32 = ((262144 : ℝ) : EReal))
    (heps : ∃ ε : ℝ, 0 < ε ∧ Ideal.ofBits .f32 0x3727C5AC#32 = (ε : EReal))
    -- the first program, read at an index
    (hNM : ∀ (h : FVec Ideal Cert.KernelIdeal.S16x16384x128 .f32) (v : Fin 16384) (n : Fin 16) (d : Fin 128),
        Cert.KernelIdeal.KerLayer.toNodeMajor (F := Ideal) h (ix3 v n d) = h (ix3 n v d))
    (hGM : ∀ (o : FVec Ideal Cert.KernelIdeal.S16384x16x128 .f32) (n : Fin 16) (v : Fin 16384) (d : Fin 128),
        Cert.KernelIdeal.KerLayer.toGraphMajor (F := Ideal) o (ix3 n v d) = o (ix3 v n d))
    (hwK0 : ∀ (w : FVec Ideal Cert.KernelIdeal.S2x128x128 .f32) (e d : Fin 128),
        Cert.KernelIdeal.KerLayer.wK0 (F := Ideal) w (ix2 e d) = w (ix3 (0 : Fin 2) e d))
    (hwK1 : ∀ (w : FVec Ideal Cert.KernelIdeal.S2x128x128 .f32) (e d : Fin 128),
        Cert.KernelIdeal.KerLayer.wK1 (F := Ideal) w (ix2 e d) = w (ix3 (1 : Fin 2) e d))
    (hgK0 : ∀ (p : FVec Ideal Cert.KernelIdeal.S2x128 .f32) (e : Fin 128),
        Cert.KernelIdeal.KerLayer.gK0 (F := Ideal) p (ix2 (0 : Fin 1) e) = p (ix2 (0 : Fin 2) e))
    (hgK1 : ∀ (p : FVec Ideal Cert.KernelIdeal.S2x128 .f32) (e : Fin 128),
        Cert.KernelIdeal.KerLayer.gK1 (F := Ideal) p (ix2 (0 : Fin 1) e) = p (ix2 (1 : Fin 2) e))
    (hK : ∀ (xt : FVec Ideal Cert.KernelIdeal.S16384x16x128 .f32) (i1 i2 : IVec Cert.KernelIdeal.S65536 32)
        (a : FVec Ideal Cert.KernelIdeal.S65536 .f32) (ws wn : FVec Ideal Cert.KernelIdeal.S128x128 .bf16)
        (g b : FVec Ideal Cert.KernelIdeal.S1x128 .f32) (v : Fin 16384) (n : Fin 16) (e : Fin 128),
        Cert.KernelIdeal.KerLayer.layerK xt i1 i2 a ws wn g b (ix3 v n e)
          = Cert.Gnn.kerLayer (Ideal.ofBits .f32 0x48800000#32) (Ideal.ofBits .f32 0x3727C5AC#32)
              (fun n v d => xt (ix3 v n d)) (Cert.Gnn.srcOf 16384 (by decide) 16384#32 i1) (Cert.Gnn.dstOf i2)
              (fun j => a (ix1 j)) (fun e d => ws (ix2 e d)) (fun e d => wn (ix2 e d))
              (fun e => g (ix2 (0 : Fin 1) e)) (fun e => b (ix2 (0 : Fin 1) e)) n v e)
    -- the second program, read at an index
    (hLin : ∀ (x : FVec Ideal Cert.ReferenceIdeal.S16x16384x128 .f32) (i1 i2 : IVec Cert.ReferenceIdeal.S65536 32)
        (a : FVec Ideal Cert.ReferenceIdeal.S65536 .f32) (ws wn : FVec Ideal Cert.ReferenceIdeal.S128x128 .f32)
        (n : Fin 16) (v : Fin 16384) (e : Fin 128),
        Cert.ReferenceIdeal.RefLayer.linPart (F := Ideal) x i1 i2 a ws wn (ix3 n v e)
          = Cert.Gnn.lin (fun n v d => x (ix3 n v d))
              (Cert.Gnn.nei (fun n v d => x (ix3 n v d)) (Cert.Gnn.srcOf 16384 (by decide) 16384#32 i1) (Cert.Gnn.dstOf i2)
                (fun j => a (ix1 j)))
              (fun e d => ws (ix2 e d)) (fun e d => wn (ix2 e d)) n v e)
    (hNorm : ∀ (y : FVec Ideal Cert.ReferenceIdeal.S16x16384x128 .f32) (g b : FVec Ideal Cert.ReferenceIdeal.S128 .f32)
        (n : Fin 16) (v : Fin 16384) (e : Fin 128),
        Cert.ReferenceIdeal.RefLayer.normPart (F := Ideal) y g b (ix3 n v e)
          = Cert.Gnn.refNorm (Ideal.ofBits .f32 0x48800000#32) (Ideal.ofBits .f32 0x3727C5AC#32)
              (fun n v e => y (ix3 n v e)) (fun e => g (ix1 e)) (fun e => b (ix1 e)) n v e)
    (hwO0 : ∀ (w : FVec Ideal Cert.ReferenceIdeal.S2x128x128 .f32) (e d : Fin 128),
        Cert.ReferenceIdeal.RefLayer.wOf0 (F := Ideal) w (ix2 e d) = w (ix3 (0 : Fin 2) e d))
    (hwO1 : ∀ (w : FVec Ideal Cert.ReferenceIdeal.S2x128x128 .f32) (e d : Fin 128),
        Cert.ReferenceIdeal.RefLayer.wOf1 (F := Ideal) w (ix2 e d) = w (ix3 (1 : Fin 2) e d))
    (hvO0 : ∀ (p : FVec Ideal Cert.ReferenceIdeal.S2x128 .f32) (e : Fin 128),
        Cert.ReferenceIdeal.RefLayer.vOf0 (F := Ideal) p (ix1 e) = p (ix2 (0 : Fin 2) e))
    (hvO1 : ∀ (p : FVec Ideal Cert.ReferenceIdeal.S2x128 .f32) (e : Fin 128),
        Cert.ReferenceIdeal.RefLayer.vOf1 (F := Ideal) p (ix1 e) = p (ix2 (1 : Fin 2) e))
    -- the inputs, every floating-point entry a real number
    (h : FVec Ideal Cert.KernelIdeal.S16x16384x128 .f32) (i1 i2 : IVec Cert.KernelIdeal.S65536 32)
    (a : FVec Ideal Cert.KernelIdeal.S65536 .f32) (w4 w5 : FVec Ideal Cert.KernelIdeal.S2x128x128 .f32)
    (p6 p7 : FVec Ideal Cert.KernelIdeal.S2x128 .f32)
    (rh : ∀ i, Cert.Gnn.IsReal (h i)) (ra : ∀ i, Cert.Gnn.IsReal (a i)) (r4 : ∀ i, Cert.Gnn.IsReal (w4 i))
    (r5 : ∀ i, Cert.Gnn.IsReal (w5 i)) (r6 : ∀ i, Cert.Gnn.IsReal (p6 i)) (r7 : ∀ i, Cert.Gnn.IsReal (p7 i)) :
    Cert.KernelIdeal.KerLayer.twoLayersK h i1 i2 a w4 w5 p6 p7
      = Cert.ReferenceIdeal.RefLayer.twoLayers (F := Ideal) h i1 i2 a w4 w5 p6 p7 := by
  obtain ⟨ε, hεpos, hε⟩ := heps
  rw [hcount, hε] at hK hNorm
  have hM : (262144 : ℝ) = ((16 * 16384 : ℕ) : ℝ) := by norm_num
  have hNV : 0 < 16 * 16384 := by norm_num
  funext i
  obtain ⟨n, v, e, rfl⟩ : ∃ (n : Fin 16) (v : Fin 16384) (e : Fin 128), i = ix3 n v e := ⟨i 0, i 1, i 2, eq_ix3 i⟩
  -- the first program's side: the axis exchange out, the layer twice, the axis exchange in, the parameter slices
  have hL : Cert.KernelIdeal.KerLayer.twoLayersK h i1 i2 a w4 w5 p6 p7 (ix3 n v e)
      = kerLayer ((262144 : ℝ) : EReal) (ε : EReal)
          (kerLayer ((262144 : ℝ) : EReal) (ε : EReal) (fun n v d => h (ix3 n v d))
            (srcOf 16384 (by decide) 16384#32 i1) (dstOf i2) (fun j => a (ix1 j))
            (fun e d => w4 (ix3 (0 : Fin 2) e d)) (fun e d => w5 (ix3 (0 : Fin 2) e d))
            (fun e => p6 (ix2 (0 : Fin 2) e)) (fun e => p7 (ix2 (0 : Fin 2) e)))
          (srcOf 16384 (by decide) 16384#32 i1) (dstOf i2) (fun j => a (ix1 j))
          (fun e d => w4 (ix3 (1 : Fin 2) e d)) (fun e d => w5 (ix3 (1 : Fin 2) e d))
          (fun e => p6 (ix2 (1 : Fin 2) e)) (fun e => p7 (ix2 (1 : Fin 2) e)) n v e := by
    unfold Cert.KernelIdeal.KerLayer.twoLayersK
    rw [hGM, hK]
    simp only [hK, hNM, hwK0, hwK1, hgK0, hgK1]
  -- the second program's side: normalisation of the dense part, twice, the parameter slices
  have hR : Cert.ReferenceIdeal.RefLayer.twoLayers (F := Ideal) h i1 i2 a w4 w5 p6 p7 (ix3 n v e)
      = refLayer ((262144 : ℝ) : EReal) (ε : EReal)
          (refLayer ((262144 : ℝ) : EReal) (ε : EReal) (fun n v d => h (ix3 n v d))
            (srcOf 16384 (by decide) 16384#32 i1) (dstOf i2) (fun j => a (ix1 j))
            (fun e d => w4 (ix3 (0 : Fin 2) e d)) (fun e d => w5 (ix3 (0 : Fin 2) e d))
            (fun e => p6 (ix2 (0 : Fin 2) e)) (fun e => p7 (ix2 (0 : Fin 2) e)))
          (srcOf 16384 (by decide) 16384#32 i1) (dstOf i2) (fun j => a (ix1 j))
          (fun e d => w4 (ix3 (1 : Fin 2) e d)) (fun e d => w5 (ix3 (1 : Fin 2) e d))
          (fun e => p6 (ix2 (1 : Fin 2) e)) (fun e => p7 (ix2 (1 : Fin 2) e)) n v e := by
    unfold Cert.ReferenceIdeal.RefLayer.twoLayers refLayer
    simp only [hNorm, hLin, hwO0, hwO1, hvO0, hvO1]
  rw [hL, hR]
  exact congrFun (congrFun (congrFun
    (two_layer_law 262144 ε hM hNV hεpos (fun n v d => h (ix3 n v d)) (fun n v d => rh _)
      (srcOf 16384 (by decide) 16384#32 i1) (dstOf i2) (fun j => a (ix1 j)) (fun j => ra _)
      (fun e d => w4 (ix3 (0 : Fin 2) e d)) (fun e d => w5 (ix3 (0 : Fin 2) e d)) (fun e d => r4 _) (fun e d => r5 _)
      (fun e => p6 (ix2 (0 : Fin 2) e)) (fun e => p7 (ix2 (0 : Fin 2) e)) (fun e => r6 _) (fun e => r7 _)
      (fun e d => w4 (ix3 (1 : Fin 2) e d)) (fun e d => w5 (ix3 (1 : Fin 2) e d)) (fun e d => r4 _) (fun e d => r5 _)
      (fun e => p6 (ix2 (1 : Fin 2) e)) (fun e => p7 (ix2 (1 : Fin 2) e)) (fun e => r6 _) (fun e => r7 _)) n) v) e

end Cert.Bridge

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.FiniteInputs.lean ====
/-
  The precondition, decoded: every floating-point input holds only real numbers.

  The precondition is the conjunction of six tests, one per floating-point input: "every entry x has |x| < +∞". Each
  test is a reduction by "and" over all axes of the entrywise comparison, started from 1; a conjunction of single bits is
  1 exactly when each is, and a reduction by "and" that came out 1 met a 1 at every index. On the extended reals
  |x| < +∞ holds exactly of the real numbers. No index set is ever enumerated.
-/
import proofs.«163542_j78460462563808_2_alg».proof.Pre_finite_inputs
import proofs.«163542_j78460462563808_2_alg».proof.Proof.Spec
import proofs.«163542_j78460462563808_2_alg».proof.Proof.LibRealEntry
import Idealize.ShloMosaic.Lib.ReduceAll
import Idealize.ShloMosaic.Lib.ValueIdx

noncomputable section

namespace Cert.Finite

open Idealize.ShloMosaic Cert.Pre_finite_inputs

/-- The rank-0 shape has one index. -/
instance subsingleton_scalar_idx : Subsingleton S_.Idx := ⟨fun a b => funext fun d => d.elim0⟩

/-- One test "all entries have |x| < +∞" that came out 1 says every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant (F := Ideal) S_ .f32 0x7F800000#32))) init hr hu
        ValueIdx.ix0 = 1#1)
    (i : s.Idx) : Cert.Gnn.IsReal (x i) :=
  Cert.LibRealEntry.real_of_abs_lt (x i)
    (Host.reduce_andi_all
      (cmpf .olt (Host.absf x) (broadcastInDim s ![] hb (constant (F := Ideal) S_ .f32 0x7F800000#32))) init hr hu
      ValueIdx.ix0 h i)

/-- The precondition at 1 says every floating-point input holds only real numbers. -/
theorem real_of_pre [Cert.Pre_finite_inputs.Facts] (a0 : FVec Ideal Cert.Pre_finite_inputs.S16x16384x128 .f32)
    (a1 a2 : IVec Cert.Pre_finite_inputs.S65536 32) (a3 : FVec Ideal Cert.Pre_finite_inputs.S65536 .f32)
    (a4 a5 : FVec Ideal Cert.Pre_finite_inputs.S2x128x128 .f32) (a6 a7 : FVec Ideal Cert.Pre_finite_inputs.S2x128 .f32)
    (h : Cert.Pre_finite_inputs.fn (F := Ideal) a0 a1 a2 a3 a4 a5 a6 a7 = (fun _ => 1#1)) :
    (∀ i, Cert.Gnn.IsReal (a0 i)) ∧ (∀ i, Cert.Gnn.IsReal (a3 i)) ∧ (∀ i, Cert.Gnn.IsReal (a4 i))
      ∧ (∀ i, Cert.Gnn.IsReal (a5 i)) ∧ (∀ i, Cert.Gnn.IsReal (a6 i)) ∧ (∀ i, Cert.Gnn.IsReal (a7 i)) := by
  have h0 := congrFun h ValueIdx.ix0
  dsimp only [Cert.Pre_finite_inputs.fn, Cert.Pre_finite_inputs.fn_part1] at h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨t0, t3⟩ := IntOp.andi_eq_one.1 h0
  exact ⟨real_of_all a0 _ _ _ _ t0, real_of_all a3 _ _ _ _ t3, real_of_all a4 _ _ _ _ t4,
    real_of_all a5 _ _ _ _ t5, real_of_all a6 _ _ _ _ t6, real_of_all a7 _ _ _ _ t7⟩

end Cert.Finite

end
-- ==== Proof.lean ====
/-
  Two programs for the same two graph-convolution layers compute one array, at the exact reading of the float operations.

  One layer, on a batch of graphs sharing one weighted edge list, does four things to the array of node features.
  Neighbour aggregation: every node receives, from each edge that ends at it, the features of the edge's source node
  scaled by the edge's weight (a source index is wrapped if negative and clamped into the node range; an edge whose
  destination is no node contributes nowhere). Two dense maps, added: the node's own features against one weight
  matrix, the aggregated features against another. Batch normalisation of each feature over all nodes of all graphs:
  subtract the mean, multiply by the reciprocal root of variance plus a small positive constant, then by a scale, and
  add a shift. Last, the positive part. The second layer does the same to the first layer's result with the second
  slice of each stack of weights and parameters.

  The first program keeps the features node-major, takes the variance as the mean of the squares minus the squared
  mean, and folds the normalisation into one scale γ·s and one shift β − μ·(γ·s) per feature, s = 1/√(var + ε). The
  second keeps them graph-major and takes the variance as the mean squared deviation from the mean, applying
  (y − μ)·s·γ + β as written. The arrangements differ by an exchange of the two leading axes on the way in and out.

  The law that joins them is the algebra of the variance: with M = N·V positions and μ = Σy/M,
  Σ(y − μ)² = Σy² − 2μΣy + Mμ² = Σy² − Mμ², so the two variances are one number, and
  y·(γ·s) + (β − μ·(γ·s)) = (y − μ)·s·γ + β by distributing. On the extended reals distributivity and cancellation
  fail at the infinities, so the law is stated for real entries only: the hypothesis that every float input is finite
  is what makes every entry a real number; sums, products and the normalisation (var ≥ 0 and ε > 0 keep var + ε
  positive) keep entries real, so the first layer's result is real and the law applies again at the second layer.

  The assembly: each program runs and ends with its result equal to its two-layer function of its arguments, the
  arguments unchanged; read at an index each two-layer function is the composition of the coordinate formulas above;
  the precondition gives the realness of the inputs; the law gives the equality of the two results.
-/
import proofs.«163542_j78460462563808_2_alg».proof.Defs
import proofs.«163542_j78460462563808_2_alg».proof.Proof.Gen.Kernel
import proofs.«163542_j78460462563808_2_alg».proof.Proof.Gen.Kernel.Skeleton
import proofs.«163542_j78460462563808_2_alg».proof.Proof.Gen.Kernel.Launch
import proofs.«163542_j78460462563808_2_alg».proof.Proof.Gen.Kernel.Points
import proofs.«163542_j78460462563808_2_alg».proof.Proof.Gen.Kernel.Frame
import proofs.«163542_j78460462563808_2_alg».proof.Proof.Gen.KernelIdeal
import proofs.«163542_j78460462563808_2_alg».proof.Proof.Gen.KernelIdeal.Skeleton
import proofs.«163542_j78460462563808_2_alg».proof.Proof.Gen.KernelIdeal.Launch
import proofs.«163542_j78460462563808_2_alg».proof.Proof.Gen.KernelIdeal.Points
import proofs.«163542_j78460462563808_2_alg».proof.Proof.Gen.KernelIdeal.Frame
import proofs.«163542_j78460462563808_2_alg».proof.Proof.Gen.ReferenceIdeal
import proofs.«163542_j78460462563808_2_alg».proof.Proof.Gen.Pre_finite_inputs
import proofs.«163542_j78460462563808_2_alg».proof.Proof.RefRun
import proofs.«163542_j78460462563808_2_alg».proof.Proof.RefRead
import proofs.«163542_j78460462563808_2_alg».proof.Proof.KerChain
import proofs.«163542_j78460462563808_2_alg».proof.Proof.KerReadLayout
import proofs.«163542_j78460462563808_2_alg».proof.Proof.KerRead
import proofs.«163542_j78460462563808_2_alg».proof.Proof.Bridge
import proofs.«163542_j78460462563808_2_alg».proof.Proof.FiniteInputs
import Idealize.ShloMosaic.Adequacy
import Idealize.ShloMosaic.Init

noncomputable section

namespace Cert.Proof

open Idealize.ShloMosaic Idealize.SL.Sem

namespace Claims

/-- The first program as printed runs and leaves its arguments unchanged. -/
theorem frame_k : Cert.frame_Kernel := fun m ρ _ => Cert.Kernel.Gen.frame m ρ

/-- The same program at the exact reading runs and leaves its arguments unchanged. -/
theorem frame_ki : Cert.frame_KernelIdeal := fun m ρ _ => Cert.KernelIdeal.Gen.frame m ρ

/-- The second program runs and leaves its arguments unchanged: its run with the statement about the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The exact reading rewrites no operation of the first program. -/
theorem preserves : Cert.preserves_Kernel_KernelIdeal := trivial

/-- From memories that agree on the arguments, every float argument finite, both programs run, end with the same
    result array and leave their arguments unchanged: each result is its program's two-layer function of the
    arguments, the finiteness hypothesis makes every float entry a real number, and on real entries the two two-layer
    functions are one function. -/
theorem algebraic : Cert.algebraic_KernelIdeal_ReferenceIdeal := by
  intro m ρ m' ρ' hpre hagree
  refine ⟨fun c => Cert.KernelIdeal.KerLayer.twoLayersK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KerChain.kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7⟩ := hagree c
  rw [e0, e1, e2, e3, e4, e5, e6, e7]
  obtain ⟨r0, r3, r4, r5, r6, r7⟩ := Cert.Finite.real_of_pre _ _ _ _ _ _ _ _ (hpre c)
  exact (Cert.Bridge.two_layers_eq
    Cert.ReferenceIdeal.RefRead.count_word Cert.ReferenceIdeal.RefRead.eps_word
    Cert.KernelIdeal.KerRead.toNodeMajor_apply Cert.KernelIdeal.KerRead.toGraphMajor_apply
    Cert.KernelIdeal.KerRead.wK0_apply Cert.KernelIdeal.KerRead.wK1_apply
    Cert.KernelIdeal.KerRead.gK0_apply Cert.KernelIdeal.KerRead.gK1_apply
    Cert.KernelIdeal.KerRead.layerK_apply
    Cert.ReferenceIdeal.RefRead.linPart_apply Cert.ReferenceIdeal.RefRead.normPart_apply
    Cert.ReferenceIdeal.RefRead.wOf0_apply Cert.ReferenceIdeal.RefRead.wOf1_apply
    Cert.ReferenceIdeal.RefRead.vOf0_apply Cert.ReferenceIdeal.RefRead.vOf1_apply
    _ _ _ _ _ _ _ _ r0 r3 r4 r5 r6 r7).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
